-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4 : Shape := ⟨1, ![4]⟩
abbrev S1x1024x3 : Shape := ⟨3, ![1, 1024, 3]⟩
abbrev S1024x1 : Shape := ⟨2, ![1024, 1]⟩
abbrev S1x8192 : Shape := ⟨2, ![1, 8192]⟩
abbrev S1 : Shape := ⟨1, ![1]⟩
abbrev S1024x3 : Shape := ⟨2, ![1024, 3]⟩
abbrev S1024 : Shape := ⟨1, ![1024]⟩
abbrev S1024x1024 : Shape := ⟨2, ![1024, 1024]⟩
abbrev S1x1024 : Shape := ⟨2, ![1, 1024]⟩
abbrev S1x1024x1 : Shape := ⟨3, ![1, 1024, 1]⟩
abbrev S1x1x1 : Shape := ⟨3, ![1, 1, 1]⟩
abbrev S1x1x8192 : Shape := ⟨3, ![1, 1, 8192]⟩
abbrev S_ : Shape := ⟨0, ![]⟩
abbrev S3 : Shape := ⟨1, ![3]⟩

abbrev nBuf : Space → Nat
  | .hbm => 27
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4, .f32⟩
  | .hbm, ⟨3, _⟩ => ⟨S4, .f32⟩
  | .hbm, ⟨4, _⟩ => ⟨S_, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S3, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S4, .f32⟩
  | .local _ .vmem, ⟨5, _⟩ => ⟨S4, .f32⟩
  | .local _ .vmem, ⟨6, _⟩ => ⟨S1024x1, .f32⟩
  | .local _ .vmem, ⟨7, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_cst_5 : Ref sig .tc := ⟨.hbm, 19, rfl⟩
abbrev main_v10 : Ref sig .tc := ⟨.hbm, 20, rfl⟩
abbrev main_cst_6 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![4, 8, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_off1 (i : grid0.Coords) : Fin 1 → Nat :=
  let arg0 : BitVec 32 := BitVec.ofNat 32 (i 0).val
  let v55 : Index := Scalar.indexCast arg0
  ![v55.toNat]
def k0_mult1 (i : grid0.Coords) : BitVec 32 :=
  let arg2 : BitVec 32 := BitVec.ofNat 32 (i 2).val
  let c1024_i32 : BitVec 32 := 1024#32
  let v35 : BitVec 32 := Scalar.muli arg2 c1024_i32
  v35
def k0_off2 (i : grid0.Coords) : Fin 2 → Nat :=
  let c0_18 : Index := 0#32
  let arg2 : BitVec 32 := BitVec.ofNat 32 (i 2).val
  let c1024_i32 : BitVec 32 := 1024#32
  let v35 : BitVec 32 := Scalar.muli arg2 c1024_i32
  let v36 : BitVec 32 := v35
  let v37 : Index := Scalar.indexCast v36
  ![0, v37.toNat]
def k0_cond3 (i : grid0.Coords) : BitVec 1 :=
  let arg2 : BitVec 32 := BitVec.ofNat 32 (i 2).val
  let c7_i32 : BitVec 32 := 7#32
  let v46 : BitVec 1 := Scalar.cmpi .eq arg2 c7_i32
  let v47 : BitVec 32 := Scalar.extui v46
  let c0_i32_21 : BitVec 32 := 0#32
  let v48 : BitVec 1 := Scalar.cmpi .ne v47 c0_i32_21
  v48

def k0_off3 (i : grid0.Coords) : Fin 1 → Nat :=
  let arg0 : BitVec 32 := BitVec.ofNat 32 (i 0).val
  let v59 : Index := Scalar.indexCast arg0
  ![v59.toNat]
def k0_cond4 (i : grid0.Coords) : BitVec 1 :=
  let arg1 : BitVec 32 := BitVec.ofNat 32 (i 1).val
  let c7_i32_22 : BitVec 32 := 7#32
  let v49 : BitVec 1 := Scalar.cmpi .eq arg1 c7_i32_22
  let arg2 : BitVec 32 := BitVec.ofNat 32 (i 2).val
  let c7_i32_23 : BitVec 32 := 7#32
  let v50 : BitVec 1 := Scalar.cmpi .eq arg2 c7_i32_23
  let v51 : BitVec 1 := Scalar.andi v49 v50
  let v52 : BitVec 32 := Scalar.extui v51
  let c0_i32_24 : BitVec 32 := 0#32
  let v53 : BitVec 1 := Scalar.cmpi .ne v52 c0_i32_24
  v53

def k0_off4 (i : grid0.Coords) : Fin 1 → Nat :=
  let arg0 : BitVec 32 := BitVec.ofNat 32 (i 0).val
  let v59 : Index := Scalar.indexCast arg0
  ![v59.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

class Facts₀ : Prop where
  h_S1 : 0 < S1.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  h_S1x1024 : 0 < S1x1024.numel
  reduces_S1024x1024_S1024_2 : S1024x1024.Reduces [0] S1024
  shapeCasts_S1024_S1x1024 : S1024.ShapeCasts S1x1024
  shapeCasts_S1x1024_S1x1024 : S1x1024.ShapeCasts S1x1024
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  shapeCasts_S1_S1 : S1.ShapeCasts S1
  shapeCasts_S1x8192_S1x1x8192 : S1x8192.ShapeCasts S1x1x8192
  reduces_S1x1x8192_S1 : S1x1x8192.Reduces [1, 2] S1
  bcast_S_S4 : S_.BroadcastsInDim S4 (![] : Fin 0 → Fin S4.rank)
  reducesTo_S4_S_d0 : S4.ReducesTo [0] S_
  h_S_ : 0 < S_.numel
  bcast_S_S1 : S_.BroadcastsInDim S1 (![] : Fin 0 → Fin S1.rank)
  concatenates_S1_S1_S1_S3_d0 : Shape.Concatenates [S1, S1, S1] S3 0
  dot_S1024x3_S1024x3_S1024x1024_1_1_0_0_n_n_wf : DotDims.WF S1024x3 S1024x3 S1024x1024 [1] [1] [0] [0] [] []
  hrank0 : 0 < grid0.rank
  k0_off1_inb : ∀ i : grid0.Coords, ∀ (k0_h1 : k0_cond1 i = 1#1), ∀ a, (k0_off1 i) a + S1.size a ≤ S4.size a
  k0_mult1_dvd : ∀ i : grid0.Coords, 1024 ∣ (k0_mult1 i).toNat
  k0_off2_inb : ∀ i : grid0.Coords, ∀ a, (k0_off2 i) a + S1x1024.size a ≤ S1x8192.size a
  k0_off3_inb : ∀ i : grid0.Coords, ∀ (k0_h3 : k0_cond3 i = 1#1), ∀ a, (k0_off3 i) a + S1.size a ≤ S4.size a
  k0_off4_inb : ∀ i : grid0.Coords, ∀ (k0_h4 : k0_cond4 i = 1#1), ∀ a, (k0_off4 i) a + S1.size a ≤ S4.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4.size a ≤ S4.size a
  hwx0_3 : ∀ i : grid0.Coords, EltTy.bits .f32 = 32 ∨ (Rect.block (s := S4) S4.size (cc0_transform_3 i) (hinb0_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond3 i == 1#1) | 3 => fun i => !(k0_cond1 i == 1#1) && !(k0_cond4 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩
abbrev S1 : Shape := ⟨1, ![1]⟩
abbrev S3 : Shape := ⟨1, ![3]⟩

abbrev nBuf : Space → Nat
  | .hbm => 52
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S1, .f32⟩
  | .hbm, ⟨51, _⟩ => ⟨S3, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩
abbrev main_cst_12 : Ref sig .tc := ⟨.hbm, 42, rfl⟩
abbrev main_v27 : Ref sig .tc := ⟨.hbm, 43, rfl⟩
abbrev main_cst_13 : Ref sig .tc := ⟨.hbm, 44, rfl⟩
abbrev main_v28 : Ref sig .tc := ⟨.hbm, 45, rfl⟩
abbrev main_cst_14 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  bcast_S_S1 : S_.BroadcastsInDim S1 (![] : Fin 0 → Fin S1.rank)
  concatenates_S1_S1_S1_S3_d0 : Shape.Concatenates [S1, S1, S1] S3 0
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.LibStoreAt.lean ====
/-
  A unit-stride store read back as a function.

  `storeAt old off size inb w` is the contents of an array of shape `S` after the block `w` has been stored through the
  unit-stride rectangle of sizes `size` at offsets `off` over earlier contents `old`: inside the rectangle the block at
  the index minus the offsets, outside it `old`. A list of such stores over a buffer, newest first, reads as the nested
  `storeAt`s (`read_writes_cons_storeAt`), a store through the whole array leaves its block whatever was there before
  (`storeAt_whole`), and an index outside the rectangle on one axis keeps the earlier contents (`storeAt_of_not_mem`),
  one inside it reads the block (`storeAt_of_mem`). Any shape, element type and view.
-/
import Idealize.ShloMosaic.Lib.WritesUnit
import Idealize.ShloMosaic.Lib.Pipeline.FrameBody

namespace Idealize.ShloMosaic

/-- The contents after the block `w` is stored through the unit-stride rectangle at `off` of sizes `size` over `old`. -/
def storeAt {S : Shape} {α : Type} (old : S.Idx → α) (off size : Fin S.rank → ℕ) (inb : ∀ a, off a + size a ≤ S.size a)
    (w : (Rect.unit off size inb).shape.Idx → α) : S.Idx → α :=
  fun y => if h : ∀ a, off a ≤ (y a).val ∧ (y a).val < off a + size a then w (Rect.unitLocal (s := S) (off := off) (size := size) y h) else old y

namespace View

variable {sig : RefSig} {κ : Kind} {sp : Space} {s : Shape} {e : EltTy} {Val : EltTy → Type}

/-- The newest store of a list, through a unit-stride rectangle, is a `storeAt` over what the rest of the list left. -/
theorem read_writes_cons_storeAt (v : View sig κ sp s e) (f : v.ty.Contents Val) {off size : Fin s.rank → ℕ}
    (inb : ∀ a, off a + size a ≤ s.size a) (w : (Rect.unit off size inb).shape.Idx → Val e) (L : List (Piece Val s e)) :
    v.read Val (v.writes Val f ((⟨Rect.unit off size inb, w⟩ : Piece Val s e) :: L))
      = storeAt (v.read Val (v.writes Val f L)) off size inb w :=
  funext fun y => by rw [read_writes_cons_unit v f inb w L y rfl]; rfl

end View

/-- A store through the whole array leaves its block. -/
theorem storeAt_whole {S : Shape} {α : Type} (old : S.Idx → α) {off : Fin S.rank → ℕ} (h : off = fun _ => 0)
    (inb : ∀ a, off a + S.size a ≤ S.size a) (w : S.Idx → α) : storeAt old off S.size inb w = w := by
  subst h
  funext y
  unfold storeAt
  rw [dif_pos (fun a => ⟨Nat.zero_le _, by rw [Nat.zero_add]; exact (y a).isLt⟩)]
  exact congrArg w (funext fun a => Fin.ext (by rw [Rect.unitLocal_val]; exact Nat.sub_zero _))

/-- An index outside the rectangle on axis `a` keeps the earlier contents. -/
theorem storeAt_of_not_mem {S : Shape} {α : Type} (old : S.Idx → α) (off size : Fin S.rank → ℕ)
    (inb : ∀ a, off a + size a ≤ S.size a) (w : (Rect.unit off size inb).shape.Idx → α) (y : S.Idx) (a : Fin S.rank)
    (ha : (y a).val < off a ∨ off a + size a ≤ (y a).val) : storeAt old off size inb w y = old y := by
  unfold storeAt
  rw [dif_neg (fun hall => by have := hall a; omega)]

/-- An index inside the rectangle reads the block at the index minus the offsets. -/
theorem storeAt_of_mem {S : Shape} {α : Type} (old : S.Idx → α) (off size : Fin S.rank → ℕ)
    (inb : ∀ a, off a + size a ≤ S.size a) (w : (Rect.unit off size inb).shape.Idx → α) (y : S.Idx)
    (h : ∀ a, off a ≤ (y a).val ∧ (y a).val < off a + size a) :
    storeAt old off size inb w y = w (Rect.unitLocal (s := S) (off := off) (size := size) y h) := by
  unfold storeAt
  rw [dif_pos h]

end Idealize.ShloMosaic
-- ==== Proof.StepsK.lean ====
/-
  One grid point of the distance kernel as four pure functions of what the point finds.

  The body keeps four things between points: the running row minima `rm` (one per row of the current tile of points),
  the running column minima `cm` (one per target, all 8192), and the two per-batch sums `a2`, `a3`. With `x0` the
  tile of points and `x1` the tile of targets staged at the point:
    rowStep  restarts `rm` at +∞ when the target tile is the first of its sweep, then takes the minimum with the
             tile's row minima;
    colStep  restarts `cm` at +∞ at the first point of a batch, then takes, on the 1024 columns of the current target
             tile only, the minimum with the tile's column minima;
    acc2Step sets slot b of `a2` to zero at the first point of a batch and, when the target sweep ends, adds the sum of
             the finished row minima to it;
    acc3Step sets slot b of `a3` to zero at the first point of a batch and, at the batch's last point, adds the sum of
             the finished column minima to it.
  The arithmetic is the program's own payload terms; the four conditions are its scalar chains over the coordinates.
-/
import proofs.«118967_j45406394253979_1_alg».proof.Proof.Gen.Kernel.Skeleton
import proofs.«118967_j45406394253979_1_alg».proof.Proof.LibStoreAt

noncomputable section

namespace Cert.Kernel.Body

open Cert.Kernel Cert.Kernel.Gen
open Idealize.ShloMosaic Idealize.SL.Sem

variable {F : FTy → Type} [FloatOps F]

/-- First point of a batch (both tile coordinates zero). -/
abbrev c1 (i : grid0.Coords) : Prop := k0_cond1 i = 1#1
/-- First target tile of a sweep. -/
abbrev c2 (i : grid0.Coords) : Prop := (Scalar.cmpi .ne (Scalar.extui (Scalar.cmpi .eq (BitVec.ofNat 32 (i 2).val) 0#32)) 0#32) = 1#1
/-- Last target tile of a sweep. -/
abbrev c3 (i : grid0.Coords) : Prop := k0_cond3 i = 1#1
/-- Last point of a batch. -/
abbrev c4 (i : grid0.Coords) : Prop := k0_cond4 i = 1#1

/-- The running row minima the point leaves. -/
def rowStep (i : grid0.Coords) (x0 x1 : Vec F S1x1024x3 .f32) (rm : Vec F S1024x1 .f32) : Vec F S1024x1 .f32 :=
  k0_pay1 (k0_pay10 x0 x1 (if c2 i then k0_pay8 (F := F) else rm))

/-- The column minima the point starts from. -/
def colBase (i : grid0.Coords) (cm : Vec F S1x8192 .f32) : Vec F S1x8192 .f32 := if c1 i then k0_pay7 (F := F) else cm

/-- The running column minima the point leaves. -/
def colStep (i : grid0.Coords) (x0 x1 : Vec F S1x1024x3 .f32) (cm : Vec F S1x8192 .f32) : Vec F S1x8192 .f32 :=
  storeAt (colBase i cm) (k0_off2 i) S1x1024.size (k0_off2_inb i)
    (k0_pay2 (k0_pay9 x0 x1) (View.ld (colBase i cm) (Rect.unit (s := S1x8192) (k0_off2 i) S1x1024.size (k0_off2_inb i))))

/-- A per-batch sum with slot b set to `z` at the first point of a batch. -/
def accBase (i : grid0.Coords) (a : Vec F S4 .f32) (z : FVec F S1 .f32) : Vec F S4 .f32 :=
  if h : c1 i then storeAt a (k0_off1 i) S1.size (k0_off1_inb i h) z else a

/-- The per-batch sums of row minima the point leaves, given the row minima `rm'` it leaves. -/
def acc2Step (i : grid0.Coords) (rm' : Vec F S1024x1 .f32) (a2 : Vec F S4 .f32) : Vec F S4 .f32 :=
  if h : c3 i then
    storeAt (accBase i a2 (k0_pay5 (F := F))) (k0_off3 i) S1.size (k0_off3_inb i h)
      (k0_pay3 rm' (View.ld (accBase i a2 (k0_pay5 (F := F))) (Rect.unit (s := S4) (k0_off3 i) S1.size (k0_off3_inb i h))))
  else accBase i a2 (k0_pay5 (F := F))

/-- The per-batch sums of column minima the point leaves, given the column minima `cm'` it leaves. -/
def acc3Step (i : grid0.Coords) (cm' : Vec F S1x8192 .f32) (a3 : Vec F S4 .f32) : Vec F S4 .f32 :=
  if h : c4 i then
    storeAt (accBase i a3 (k0_pay6 (F := F))) (k0_off4 i) S1.size (k0_off4_inb i h)
      (k0_pay4 cm' (View.ld (accBase i a3 (k0_pay6 (F := F))) (Rect.unit (s := S4) (k0_off4 i) S1.size (k0_off4_inb i h))))
  else accBase i a3 (k0_pay6 (F := F))

end Cert.Kernel.Body

end
-- ==== Proof.BodyK.lean ====
/-
  The distance kernel's body, run symbolically in each of its five control cases.

  The body branches four times on the grid coordinates: at the first point of a batch, at the first target tile of a
  sweep, at the last target tile of a sweep, and at the last point of a batch. Of the sixteen combinations the grid meets
  five. In each the body is run from its six buffers — the two staged tiles, the two per-batch sums, the two scratch
  arrays of running minima — at arbitrary contents, and what each buffer holds afterwards is read back, store by store,
  as the step functions `rowStep`, `colStep`, `acc2Step`, `acc3Step` of what it held before: a store through a whole
  buffer leaves its payload, a store through a slice leaves the payload there and the earlier contents elsewhere, and a
  load after a store reads what the store left.
-/
import proofs.«118967_j45406394253979_1_alg».proof.Proof.Gen.Kernel.Launch
import proofs.«118967_j45406394253979_1_alg».proof.Proof.Gen.Kernel.Skeleton
import proofs.«118967_j45406394253979_1_alg».proof.Proof.Gen.Kernel.Points
import proofs.«118967_j45406394253979_1_alg».proof.Proof.StepsK
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- The body at the first point of a batch: both sums' slots are zeroed, both scratch arrays restarted. From the six buffers at any contents it runs to the same buffers at the
    step functions of those contents. -/
theorem run_A (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : c1 i) (h2 : c2 i) (h3 : ¬c3 i) (h4 : ¬c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_pos h1, if_pos h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_pos h1, if_pos h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_pos h1, if_pos h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_pos h1, if_pos h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

set_option maxHeartbeats 1000000 in
/-- The body at the first target tile of a later sweep: the row minima restart. From the six buffers at any contents it runs to the same buffers at the
    step functions of those contents. -/
theorem run_B (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : ¬c1 i) (h2 : c2 i) (h3 : ¬c3 i) (h4 : ¬c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

set_option maxHeartbeats 1000000 in
/-- The body at a point in the middle of a sweep: only the running minima move. From the six buffers at any contents it runs to the same buffers at the
    step functions of those contents. -/
theorem run_C (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : ¬c1 i) (h2 : ¬c2 i) (h3 : ¬c3 i) (h4 : ¬c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

set_option maxHeartbeats 1000000 in
/-- The body at the last target tile of a sweep that does not end the batch: the finished row minima are summed into slot b. From the six buffers at any contents it runs to the same buffers at the
    step functions of those contents. -/
theorem run_D (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : ¬c1 i) (h2 : ¬c2 i) (h3 : c3 i) (h4 : ¬c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

set_option maxHeartbeats 1000000 in
/-- The body at the last point of a batch: both finished minima are summed into their slots. From the six buffers at any contents it runs to the same buffers at the
    step functions of those contents. -/
theorem run_E (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : ¬c1 i) (h2 : ¬c2 i) (h3 : c3 i) (h4 : c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_pos h4, if_pos h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_pos h4, if_pos h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_pos h4, if_pos h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_pos h4, if_pos h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

end Cert.Kernel.Body

end
-- ==== Proof.DataK.lean ====
/-
  The proof data of the distance kernel's pipeline, relationally, and its body obligation.

  The two input windows are handed to the body holding their blocks and are left as found. The two output windows are
  buffers of 4 sums of which the body touches one slot per point, so what the body leaves in them is stated as a
  function of what it found there (`acc2Step`, `acc3Step`), never as a value of its own: before slot b has been set to
  zero the buffer holds whatever it held. The two scratch arrays are carried by the invariant at the contents the points
  so far have left (`rmAt`, `cmAt`, by recursion on the point from whatever they held at entry); the first point
  overwrites both before reading them, so those contents do not depend on what they held at entry once one point has run.
-/
import proofs.«118967_j45406394253979_1_alg».proof.Proof.BodyK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (the region is @main's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The two scratch arrays as memrefs. -/
abbrev scM0 : Memref sig .tc .vmem S1024x1 .f32 := Memref.whole cc0_scratch0
abbrev scM1 : Memref sig .tc .vmem S1x8192 .f32 := Memref.whole cc0_scratch1

/-- The running row minima before point `t`, from `d0` at entry. -/
def rmAt (c : Dev nD) (d0 : Vec F S1024x1 .f32) : ℕ → Vec F S1024x1 .f32
  | 0 => d0
  | t + 1 => if h : t < cfg0.N then rowStep (grid0.coords ⟨t, h⟩) (iblk m c 0 ⟨t, h⟩) (iblk m c 1 ⟨t, h⟩) (rmAt c d0 t) else rmAt c d0 t

/-- The running column minima before point `t`, from `d1` at entry. -/
def cmAt (c : Dev nD) (d1 : Vec F S1x8192 .f32) : ℕ → Vec F S1x8192 .f32
  | 0 => d1
  | t + 1 => if h : t < cfg0.N then colStep (grid0.coords ⟨t, h⟩) (iblk m c 0 ⟨t, h⟩) (iblk m c 1 ⟨t, h⟩) (cmAt c d1 t) else cmAt c d1 t

theorem rmAt_succ (c : Dev nD) (d0 : Vec F S1024x1 .f32) (t : Fin cfg0.N) :
    rmAt m c d0 (t.val + 1) = rowStep (grid0.coords t) (iblk m c 0 t) (iblk m c 1 t) (rmAt m c d0 t.val) := by
  rw [rmAt, dif_pos t.isLt]

theorem cmAt_succ (c : Dev nD) (d1 : Vec F S1x8192 .f32) (t : Fin cfg0.N) :
    cmAt m c d1 (t.val + 1) = colStep (grid0.coords t) (iblk m c 0 t) (iblk m c 1 t) (cmAt m c d1 t.val) := by
  rw [cmAt, dif_pos t.isLt]

/-- The invariant before point `t`: the scratch arrays at what the points so far left. -/
def PhiAt (c : Dev nD) (t : ℕ) : sProp 𝕄 :=
  iprop(∃ d0 d1, owns (c : Thread nD τ) scM0 fullShare (rmAt m c d0 t) ∗ owns (c : Thread nD τ) scM1 fullShare (cmAt m c d1 t))

/-- The relational proof data on core `c`. -/
def rdat (_ : Fin 1) (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => ∃ d0 : Vec F S1024x1 .f32, X = acc2Step (grid0.coords t) (rmAt m c d0 (t.val + 1)) Y
    | ⟨3, _⟩ => ∃ d1 : Vec F S1x8192 .f32, X = acc3Step (grid0.coords t) (cmAt m c d1 (t.val + 1)) Y
    | ⟨_ + 4, h⟩ => absurd h (Nat.not_lt.2 (Nat.le_add_left _ _))
  Φ t := PhiAt m c t.val
  q _ := fullShare
  owed _ := 0

/-- The conditions over the grid: the first point of a batch is the first of a sweep, a sweep's first tile is not its
    last, and a batch's last point ends a sweep. -/
theorem c1_c2 : ∀ t : Fin cfg0.N, c1 (grid0.coords t) → c2 (grid0.coords t) :=
  (by decide +kernel : ∀ t : Fin grid0.N, c1 (grid0.coords t) → c2 (grid0.coords t))
theorem c2_not_c3 : ∀ t : Fin cfg0.N, c2 (grid0.coords t) → ¬c3 (grid0.coords t) :=
  (by decide +kernel : ∀ t : Fin grid0.N, c2 (grid0.coords t) → ¬c3 (grid0.coords t))
theorem c4_c3 : ∀ t : Fin cfg0.N, c4 (grid0.coords t) → c3 (grid0.coords t) :=
  (by decide +kernel : ∀ t : Fin grid0.N, c4 (grid0.coords t) → c3 (grid0.coords t))

/-- The body at any grid point, whichever control case the point is in. -/
theorem run_at (c : Dev nD) (t : Fin cfg0.N)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step (grid0.coords t) (rowStep (grid0.coords t) x0 x1 rm) a2)
              ∗ owns (c : Thread nD τ) arg6 fullShare (acc3Step (grid0.coords t) (colStep (grid0.coords t) x0 x1 cm) a3)
              ∗ owns (c : Thread nD τ) arg7 fullShare (rowStep (grid0.coords t) x0 x1 rm)
              ∗ owns (c : Thread nD τ) arg8 fullShare (colStep (grid0.coords t) x0 x1 cm)) -∗ K ⟨⟩))
      ⊢ wp frame (wpE (defs₀ (F := F)) Variants.none c none) E (cc0__chamfer_kernel (grid0.coords t) arg3 harg3 arg4 harg4 arg5 harg5 arg6 harg6 arg7 harg7 arg8 harg8) K := by
  by_cases h1 : c1 (grid0.coords t)
  · have h2 := c1_c2 t h1
    have h3 := c2_not_c3 t h2
    exact run_A c _ arg3 harg3 arg4 harg4 arg5 harg5 arg6 harg6 arg7 harg7 arg8 harg8 h1 h2 h3 (fun h => h3 (c4_c3 t h)) x0 x1 a2 a3 rm cm E K
  · by_cases h2 : c2 (grid0.coords t)
    · have h3 := c2_not_c3 t h2
      exact run_B c _ arg3 harg3 arg4 harg4 arg5 harg5 arg6 harg6 arg7 harg7 arg8 harg8 h1 h2 h3 (fun h => h3 (c4_c3 t h)) x0 x1 a2 a3 rm cm E K
    · by_cases h3 : c3 (grid0.coords t)
      · by_cases h4 : c4 (grid0.coords t)
        · exact run_E c _ arg3 harg3 arg4 harg4 arg5 harg5 arg6 harg6 arg7 harg7 arg8 harg8 h1 h2 h3 h4 x0 x1 a2 a3 rm cm E K
        · exact run_D c _ arg3 harg3 arg4 harg4 arg5 harg5 arg6 harg6 arg7 harg7 arg8 harg8 h1 h2 h3 h4 x0 x1 a2 a3 rm cm E K
      · exact run_C c _ arg3 harg3 arg4 harg4 arg5 harg5 arg6 harg6 arg7 harg7 arg8 harg8 h1 h2 h3 (fun h => h3 (c4_c3 t h)) x0 x1 a2 a3 rm cm E K

/-- An input window's buffer holds its block wherever the body is handed it: fetched there, or left in place since. -/
theorem finds_in0 (c : Dev nD) (t : Fin cfg0.N) (Y : (cfg0.win 0).block.Idx → Elt F (cfg0.win 0).elt)
    (h : (rdat m 0 c).Finds 0 t Y) : Y = iblk m c 0 t := by
  obtain ⟨d, e⟩ := (rdat m 0 c).finds_in_eq_fetched 0 rfl (fun _ _ _ => rfl) (fun _ _ _ h => h) t Y h
  rw [e]; unfold RDat.fetched RDat.blockOf iblk; rfl

theorem finds_in1 (c : Dev nD) (t : Fin cfg0.N) (Y : (cfg0.win 1).block.Idx → Elt F (cfg0.win 1).elt)
    (h : (rdat m 0 c).Finds 1 t Y) : Y = iblk m c 1 t := by
  obtain ⟨d, e⟩ := (rdat m 0 c).finds_in_eq_fetched 1 rfl (fun _ _ _ => rfl) (fun _ _ _ h => h) t Y h
  rw [e]; unfold RDat.fetched RDat.blockOf iblk; rfl

set_option maxHeartbeats 1000000 in
/-- The body obligation: at every point, from the invariant and the four staging buffers at what they may hold, the
    body runs to the invariant at the next point and the buffers at contents in the windows' relations. -/
theorem body_obligation (c : Dev nD) : (rdat m 0 c).BodyObligation (defs₀ (F := F)) Variants.none () Set.univ := fun t Y hY => by
  rw [bigSep_W0, bigSep_W0]
  have e0 := finds_in0 m c t (Y 0) (hY 0)
  have e1 := finds_in1 m c t (Y 1) (hY 1)
  rw [show (rdat m 0 c).Φ t.castSucc = PhiAt m c t.val from rfl, show (rdat m 0 c).Φ t.succ = PhiAt m c (t.val + 1) from rfl]
  rw [show (rdat m 0 c).owesAt () t.succ = (rdat m 0 c).owesAt () t.castSucc from rfl]
  unfold PhiAt
  refine (show _ ⊢ wp frame (wpE (defs₀ (F := F)) Variants.none c none) Set.univ (bodyAt0 t) _ from ?_)
  iintro ⟨⟨%d0, %d1, HS0, HS1⟩, Ho, H0, H1, H2, H3⟩
  iapply (run_at c t _ _ _ _ _ _ _ _ _ _ _ _ (Y 0) (Y 1) (Y 2) (Y 3) (rmAt m c d0 t.val) (cmAt m c d1 t.val) Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1]
  · iexists d0, d1
    rw [rmAt_succ, cmAt_succ, ← e0, ← e1]
    isplitl [HS0] <;> iassumption
  isplitl [Ho]; · iexact Ho
  isplitl [H0]
  · iexists _; isplitr; swap; (· iexact H0)
    ipureintro; rfl
  isplitl [H1]
  · iexists _; isplitr; swap; (· iexact H1)
    ipureintro; rfl
  isplitl [H2]
  · iexists _; isplitr; swap; (· iexact H2)
    ipureintro
    exact ⟨d0, by rw [rmAt_succ, ← e0, ← e1]⟩
  · iexists _; isplitr; swap; (· iexact H3)
    ipureintro
    exact ⟨d1, by rw [cmAt_succ, ← e0, ← e1]⟩

end Cert.Kernel.Body

end
-- ==== Proof.LaunchK.lean ====
/-
  The launch of the distance kernel's program: the region, then the host lines that follow it.

  @main is one kernel region followed by 23 host operations. The region is entered from the launch memory; its two input
  arrays bypass it unchanged and its two result arrays leave it at SOME contents the pipeline's relation admits after
  every write-back — contents this module does not name: it carries them, with that fact, through the host lines, which
  compute the program's result from them. The run's post therefore reads: there are contents `F2`, `F3` of the two
  result arrays, admitted by the relation, such that every unscoped buffer ends at what the host lines make of the launch
  memory with the result arrays at `F2`, `F3`. The argument arrays are among the buffers no host line writes, so they
  end as launched: the frame.
-/
import proofs.«118967_j45406394253979_1_alg».proof.Proof.DataK
import Idealize.ShloMosaic.Lib.Pipeline.Regions
import Idealize.ShloMosaic.Lib.Pipeline.FrameSuffix

set_option maxRecDepth 16384

noncomputable section

namespace Cert.Kernel.Body

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- Core `c`'s buffers at launch, as the host operations' valuation. -/
abbrev V₀ (c : Dev nD) : Valuation τ sig (Elt F) := fun b => (s₀ m ρ).mem ((c : Dev nD), b)

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
/-- What rides beside the buffers: the core's `owes`. -/
abbrev R (c : Dev nD) : sProp 𝕄 := iprop(∃ W, owes (c : Thread nD τ) (0 : CellTallies nD τ sig Unit) W)

/-- The four arrays after the region: the inputs as they were, the results at `F2`, `F3`. -/
def Afin (c : Dev nD) (F2 : Buf (Elt F) ((cfg0.win 2).arr.view.loc (c.tc : Thread nD τ)))
    (F3 : Buf (Elt F) ((cfg0.win 3).arr.view.loc (c.tc : Thread nD τ))) :
    (w : Fin cfg0.W) → Buf (Elt F) ((cfg0.win w).arr.view.loc (c.tc : Thread nD τ))
  | ⟨0, _⟩ => V m c main_arg0
  | ⟨1, _⟩ => V m c main_arg1
  | ⟨2, _⟩ => F2
  | ⟨3, _⟩ => F3
  | ⟨_ + 4, h⟩ => absurd h (Nat.not_lt.2 (Nat.le_add_left _ _))

/-- The buffers when the region is left: the launch memory with the four arrays at `Afin`. -/
def W₁ (c : Dev nD) (F2 : Buf (Elt F) ((cfg0.win 2).arr.view.loc (c.tc : Thread nD τ)))
    (F3 : Buf (Elt F) ((cfg0.win 3).arr.view.loc (c.tc : Thread nD τ))) : Valuation τ sig (Elt F) :=
  Pipeline.withArrays spec0 c (V₀ m ρ c) (Afin m c F2 F3)

/-- The unscoped buffers held at a valuation that has the arrays at `A` are the arrays at `A` and the rest as it was. -/
theorem held_withArrays (c : Dev nD) (Vv : Valuation τ sig (Elt F))
    (A : (w : Fin cfg0.W) → Buf (Elt F) ((cfg0.win w).arr.view.loc (c.tc : Thread nD τ))) :
    (StableHlo.held (c : Thread nD τ) (Pipeline.ucRefs τ sig) (Pipeline.withArrays spec0 c Vv A) : sProp 𝕄)
      = iprop(Pipeline.arrPts spec0 c A ∗ Pipeline.unscopedRest spec0 c (fun b => Vv (Proc.devRef .tc b))) := by
  have h1 : (Pipeline.arrPts spec0 c (fun w => Pipeline.withArrays spec0 c Vv A (Proc.devRef .tc (Pipeline.arrRef spec0 w))) : sProp 𝕄)
      = Pipeline.arrPts spec0 c A :=
    congrArg (Pipeline.arrPts spec0 c) (funext fun w => Pipeline.withArrays_arr spec0 launch0.win.arr_inj c Vv A w)
  have h2 : (Pipeline.unscopedRest spec0 c (fun b => Pipeline.withArrays spec0 c Vv A (Proc.devRef .tc b)) : sProp 𝕄)
      = Pipeline.unscopedRest spec0 c (fun b => Vv (Proc.devRef .tc b)) := by
    unfold Pipeline.unscopedRest
    exact bigSep_congr fun b hb => by
      dsimp only
      rw [Pipeline.withArrays_of_ne spec0 c Vv A b fun w e => (Finset.mem_sdiff.mp hb).2 (Finset.mem_image.mpr ⟨w, Finset.mem_univ _, e⟩)]
  rw [← Pipeline.tailRefs_none spec0 launch0.win.arr_unscoped, Pipeline.held_tailRefs Pipeline.Prefetch.none spec0 launch0.win.arr_inj,
    Pipeline.unscopedRestP_none, h1, h2]

theorem hostOps1_uc : ∀ op ∈ (hostOps1 (F := F)), op.bufs ⊆ Pipeline.ucRefs τ sig := fun op h =>
  Pipeline.sub_ucRefs op ((List.forall_iff_forall_mem.mp hostOps1_sub) op h)
theorem hostOps1_fresh : ∀ op ∈ (hostOps1 (F := F)), op.fresh = ∅ := by
  intro _ h; (repeat (cases h with | head => rfl | tail _ h => ?_)); exact nomatch h

/-- What the region leaves and the host lines start from: the result arrays at some admitted contents. -/
def midState (c : Dev nD) : sProp 𝕄 :=
  iprop((∃ F2 F3, ⌜(rdat m 0 c).ArrAt 2 cfg0.N F2 ∧ (rdat m 0 c).ArrAt 3 cfg0.N F3⌝
    ∗ StableHlo.held (c : Thread nD τ) (Pipeline.ucRefs τ sig) (W₁ m ρ c F2 F3)) ∗ R c)

/-- What the host lines leave. -/
def endState (c : Dev nD) : sProp 𝕄 :=
  iprop(∃ F2 F3, ⌜(rdat m 0 c).ArrAt 2 cfg0.N F2 ∧ (rdat m 0 c).ArrAt 3 cfg0.N F3⌝
    ∗ StableHlo.held (c : Thread nD τ) (Pipeline.ucRefs τ sig) (StableHlo.after hostOps1 (W₁ m ρ c F2 F3)))

set_option backward.isDefEq.respectTransparency.types false in
/-- THE HOST SEGMENT: the 23 operations over the unscoped buffers, whatever contents the result arrays came with. -/
def seg1 : Pipeline.HostSeg (Name := ℕ) (U := UR sig nD τ) (pcfgs (F := F)) defs₀ 𝒱₀ L lv where
  prog := StableHlo.seq hostOps1
  pre c := midState m ρ c
  post c := iprop(endState m ρ c ∗ R c)
  run c {β} k K := by
    unfold midState endState
    iintro ⟨Hk, Hbd, ⟨⟨%F2, %F3, %hF, Hh⟩, HR⟩, -⟩
    have hseq := StableHlo.wp_seq (defs := Pipeline.defs (pcfgs (F := F)) defs₀) (Variants.lift 𝒱₀) none Set.univ c (Pipeline.ucRefs τ sig) k (K := K)
      (hostOps1 (F := F)) hostOps1_uc hostOps1_fresh (W₁ m ρ c F2 F3)
    iapply hseq $$ [Hbd Hh]
    · isplitl [Hbd] <;> iassumption
    iintro ⟨Hbd, Hh⟩
    iapply Hk
    isplitl [Hbd]; · iexact Hbd
    isplitl [Hh]
    · iexists F2, F3
      isplitr; · ipureintro; exact hF
      iexact Hh
    iexact HR

/-- The arrays after the region, opened: each at SOME contents the relation admits, whole and at the full share. -/
theorem arraysAt_open (c : Dev nD) :
    ((rdat m 0 c).arraysAt cfg0.N : sProp 𝕄)
      ⊢ iprop(∃ A, ⌜∀ w, (rdat m 0 c).ArrAt w cfg0.N (A w)⌝ ∗ Pipeline.arrPts spec0 c A) := by
  unfold RDat.arraysAt
  iintro Ha
  ihave Ha' := (BI.bigSep_exists_pi Finset.univ (fun w G => iprop(⌜(rdat m 0 c).ArrAt w cfg0.N G⌝
      ∗ (cfg0.win w).arr.view.loc (c.tc : Thread nD τ) ↦[(cfg0.win w).arr.view.set]{(rdat m 0 c).share w} G))) $$ Ha
  icases Ha' with ⟨%A, Ha⟩
  ihave Ha2 := (BI.bigSep_pure_sep Finset.univ (fun w => (rdat m 0 c).ArrAt w cfg0.N (A w))
      (fun w => (cfg0.win w).arr.view.loc (c.tc : Thread nD τ) ↦[(cfg0.win w).arr.view.set]{(rdat m 0 c).share w} A w)) $$ Ha
  icases Ha2 with ⟨%hA', Ha⟩
  iexists A; isplitr; · ipureintro; exact fun w => hA' w (Finset.mem_univ w)
  unfold Pipeline.arrPts
  iapply (Entails.of_eq (bigSep_congr (fun w _ => by rw [(launch0.arr_whole w).set_eq_univ, (rdat m 0 c).share_full (fun _ => rfl) w]) :
      (bigSep Finset.univ fun w => ((cfg0.win w).arr.view.loc (c.tc : Thread nD τ) ↦[(cfg0.win w).arr.view.set]{(rdat m 0 c).share w} A w : sProp 𝕄))
        = bigSep Finset.univ fun w => (((c.tc : Thread nD τ).loc (Pipeline.arrRef spec0 w)) ↦{fullShare} A w : sProp 𝕄)))
  iexact Ha

set_option backward.isDefEq.respectTransparency.types false in
/-- THE REGION: the decided layout of the windows, no semaphore of the kernel's own, the body obligation; entered from the launch
    memory — the four arrays into the pipeline, the two scratch arrays into the invariant, every other buffer bypassing —
    and left with the result arrays at some admitted contents. -/
def reg0 : Pipeline.RDat.RegionSeg (pcfgs (F := F)) adm (rdat m) () defs₀ 𝒱₀ L lv 0 where
  win := launch0.win.to₀
  block_pos := launch0.block_pos
  stage_whole := launch0.stage_whole
  K := PEmpty
  osem := fun k => k.elim
  ho := Pipeline.OwnSemFacts.none _
  hbody c := body_obligation m c
  hwaits := Pipeline.RDat.hwaits_of_owed_zero _ _ _ _ L lv 0 fun _ _ => rfl
  pre c := iprop(StableHlo.held (c : Thread nD τ) (Pipeline.ucRefs τ sig) (V₀ m ρ c) ∗ R c)
  post c := midState m ρ c
  X c := iprop(emp)
  Y c := iprop(emp)
  Z c := Pipeline.unscopedRest spec0 c (V m c)
  hentry c := by
    rw [show StableHlo.held (c : Thread nD τ) (Pipeline.ucRefs τ sig) (V₀ m ρ c) = unscopedBufs c (V m c) from (Pipeline.unscopedBufs_held c _).symm]
    have hsplit := Pipeline.RDat.arrays_of_unscopedBufs (pcfgs (F := F)) adm (rdat m) launch0.win launch0.arr_whole c
      ((rdat m 0 c).share_full fun _ => rfl) (V m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdat m 0 c).Φ 0 = PhiAt m c 0 from rfl]; unfold PhiAt; rw [scopedRest0_eq]
    iintro ⟨-, -, ⟨%f0, H0⟩, ⟨%f1, H1⟩⟩
    iexists f0, f1
    simp only [rmAt, cmAt, owns_whole]
    isplitl [H0] <;> iassumption
  hout c := by
    rw [Pipeline.ownSems0_none, show (rdat m 0 c).Φ (Fin.last cfg0.N) = PhiAt m c cfg0.N from rfl]; unfold PhiAt; rw [scopedRest0_eq]
    iintro ⟨%d0, %d1, H0, H1⟩
    simp only [owns_whole]
    isplitr; · iempintro
    isplitr; · iempintro
    isplitl [H0]
    · iexists _; iexact H0
    · iexists _; iexact H1
  hexit c := by
    unfold midState
    iintro ⟨Ha, HO, -, HZ⟩
    ihave Ha' := (arraysAt_open m c) $$ Ha
    icases Ha' with ⟨%A, %hA, Ha⟩
    have e0 : A 0 = V m c main_arg0 := by have h := hA 0; rw [(rdat m 0 c).ArrAt_in 0 rfl] at h; exact h
    have e1 : A 1 = V m c main_arg1 := by have h := hA 1; rw [(rdat m 0 c).ArrAt_in 1 rfl] at h; exact h
    have eA : A = Afin m c (A 2) (A 3) := funext fun w => by
      match w with
      | ⟨0, _⟩ => exact e0
      | ⟨1, _⟩ => exact e1
      | ⟨2, _⟩ => rfl
      | ⟨3, _⟩ => rfl
      | ⟨_ + 4, h⟩ => exact absurd h (Nat.not_lt.2 (Nat.le_add_left _ _))
    imodintro
    isplitr [HO]
    · iexists (A 2), (A 3)
      isplitr; · ipureintro; exact ⟨hA 2, hA 3⟩
      unfold W₁
      rw [held_withArrays, ← eA]
      isplitl [Ha] <;> iassumption
    · unfold Pipeline.RDat.owesAt Pipeline.owesWithin
      icases HO with ⟨%W, -, HO⟩; iexists W; iexact HO

/-- @main as the list of the two. -/
abbrev segs : List (Pipeline.RDat.Seg (pcfgs (F := F)) adm (rdat m) () defs₀ 𝒱₀ L lv) := [.region (reg0 m ρ), .host (seg1 m ρ)]

/-- The run's post: on every core there are admitted contents of the two result arrays with every unscoped buffer at
    what the host lines make of the launch memory with the result arrays at those contents. -/
def QC : PUnit × MemSt nD τ sig (Elt F) → Prop := fun r => ∀ c : Dev nD,
  ∃ F2 F3, (rdat m 0 c).ArrAt 2 cfg0.N F2 ∧ (rdat m 0 c).ArrAt 3 cfg0.N F3
    ∧ ∀ b ∈ Pipeline.ucRefs τ sig, r.2.mem ((c : Thread nD τ).1, b) = StableHlo.after hostOps1 (W₁ m ρ c F2 F3) b

set_option backward.isDefEq.respectTransparency.types false in
/-- At the compiled mesh, for any float values, from any memory with zero counters: every weakly fair execution of
    @main on the TensorCores terminates, nothing faulting, in a state satisfying `QC`. -/
theorem run_main : θ_run defs (onTc (τ := τ) (main (F := F))) (s₀ m ρ) (QC m ρ) :=
  Pipeline.RDat.θ_run_regions_kit (pcfgs (F := F)) adm (rdat m) () cellOf_inj EP defs₀ 𝒱₀ L lv m ρ main (segs m ρ)
    (fun c Q => by rw [main_chain, Pipeline.RDat.Seg.run_eq_chain]; exact .rfl)
    (by simp only [Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := endState m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from
        Pipeline.unscopedBufs_held c (V₀ m ρ c)]
      iintro ⟨⟨Hh, -, HO, -, -, -⟩, -⟩
      imodintro
      isplitl [Hh]; · iexact Hh
      iexists ∅; iexact HO)
    (QY := fun c s => ∃ F2 F3, (rdat m 0 c).ArrAt 2 cfg0.N F2 ∧ (rdat m 0 c).ArrAt 3 cfg0.N F3
      ∧ ∀ b ∈ Pipeline.ucRefs τ sig, s.mem ((c : Thread nD τ).1, b) = StableHlo.after hostOps1 (W₁ m ρ c F2 F3) b)
    (hfin := fun c s' => by
      unfold endState StableHlo.held
      iintro ⟨⟨%F2, %F3, %hF, Hh⟩, HSI⟩
      ihave Hr := (pointsTo_read_all (Pipeline.ucRefs τ sig) (fun b => ((c : Thread nD τ).1, b))
        (StableHlo.after hostOps1 (W₁ m ρ c F2 F3)) s') $$ [Hh HSI]
      · isplitl [Hh] <;> iassumption
      icases Hr with ⟨%hr, HSI⟩
      imodintro
      isplitr; · ipureintro; exact ⟨F2, F3, hF.1, hF.2, hr⟩
      iexact HSI)
    (hQ := fun _ h => h)

end Cert.Kernel.Body

end
-- ==== Proof.ChamferSpec.lean ====
/-
  The mathematics both programs compute, stated once over the extended reals and importing neither program.

  Two clouds of 8192 points in 3 coordinates, in 4 batches: P (the points) and Q (the targets). For a point n of P and a
  point m of Q in batch b the clipped squared distance is

      dist b n m = max ((|P b n|² + |Q b m|²) − 2 · ⟨P b n, Q b m⟩) 0,

  with the sum grouped exactly this way (the two squared lengths first, then the doubled scalar product subtracted) and
  the literals 2 and 0 kept as their 32-bit words. Each point's nearest-neighbour distance is the infimum of dist over
  the other cloud, and per batch these are summed over the cloud: sumNearG (every point of P to its nearest target) and
  sumNearP (every target to its nearest point of P). What the programs return is a fixed tail of those two length-4
  vectors: each divided by 8192, their sum, and the three means over the batch, joined into one vector of length 3.
-/
import Idealize.ShloMosaic.PureOps.Ideal
import Idealize.ShloMosaic.PureOps
import Idealize.ShloMosaic.Lib.ValueIdx

noncomputable section

open scoped BigOperators

namespace Cert.Chamfer

open Idealize.ShloMosaic Idealize.ShloMosaic.ValueIdx

/-- A batch of clouds: 4 × 8192 points × 3 coordinates. -/
abbrev SPts : Shape := ⟨3, ![4, 8192, 3]⟩
/-- One number per batch. -/
abbrev SBatch : Shape := ⟨1, ![4]⟩
/-- A single number as a vector of length one, and as a scalar. -/
abbrev SOne : Shape := ⟨1, ![1]⟩
abbrev SNil : Shape := ⟨0, ![]⟩
/-- The result: three numbers. -/
abbrev SOut : Shape := ⟨1, ![3]⟩

/-- The squared length of point `n` of batch `b`. -/
def sq (X : FVec Ideal SPts .f32) (b : Fin 4) (n : Fin 8192) : EReal :=
  ∑ k : Fin 3, X (ix3 b n k) * X (ix3 b n k)

/-- The scalar product of point `n` of `P` with point `m` of `Q`, in batch `b`. -/
def dotp (P Q : FVec Ideal SPts .f32) (b : Fin 4) (n m : Fin 8192) : EReal :=
  ∑ k : Fin 3, P (ix3 b n k) * Q (ix3 b m k)

/-- The clipped squared distance, in the grouping both programs use. -/
def dist (P Q : FVec Ideal SPts .f32) (b : Fin 4) (n m : Fin 8192) : EReal :=
  max ((sq P b n + sq Q b m) - Ideal.ofBits .f32 0x40000000#32 * dotp P Q b n m) (Ideal.ofBits .f32 0x00000000#32)

/-- The distance from point `n` of `P` to the nearest point of `Q`. -/
def nearG (P Q : FVec Ideal SPts .f32) (b : Fin 4) (n : Fin 8192) : EReal := ⨅ m : Fin 8192, dist P Q b n m

/-- The distance from point `m` of `Q` to the nearest point of `P`. -/
def nearP (P Q : FVec Ideal SPts .f32) (b : Fin 4) (m : Fin 8192) : EReal := ⨅ n : Fin 8192, dist P Q b n m

/-- Per batch, the sum over the points of `P` of their nearest-target distances. -/
def sumNearG (P Q : FVec Ideal SPts .f32) : FVec Ideal SBatch .f32 := fun i => ∑ n : Fin 8192, nearG P Q (i 0) n

/-- Per batch, the sum over the targets of their nearest-point distances. -/
def sumNearP (P Q : FVec Ideal SPts .f32) : FVec Ideal SBatch .f32 := fun i => ∑ m : Fin 8192, nearP P Q (i 0) m

/-- The tail both programs end with, as one function of the two per-batch sums `s` and `t`: `p = s / 8192`,
    `g = t / 8192`, and the vector (mean (p + g), mean p, mean g), each mean a sum over the 4 batches divided by 4.
    The side conditions of the shape operations are arguments: any two proofs of one of them are the same. -/
def tail (hb4 : SNil.BroadcastsInDim SBatch (![] : Fin 0 → Fin SBatch.rank)) (hr : SBatch.ReducesTo [0] SNil)
    (h0 : 0 < SNil.numel) (hb1 : SNil.BroadcastsInDim SOne (![] : Fin 0 → Fin SOne.rank))
    (hc : Shape.Concatenates [SOne, SOne, SOne] SOut 0) (s t : FVec Ideal SBatch .f32) : FVec Ideal SOut .f32 :=
  let p : FVec Ideal SBatch .f32 := Host.divf s (broadcastInDim SBatch ![] hb4 (constant (F := Ideal) SNil .f32 0x46000000#32))
  let g : FVec Ideal SBatch .f32 := Host.divf t (broadcastInDim SBatch ![] hb4 (constant (F := Ideal) SNil .f32 0x46000000#32))
  let l : FVec Ideal SBatch .f32 := addf p g
  let ml : FVec Ideal SNil .f32 := Host.divf (Host.reduceAdd l (constant (F := Ideal) SNil .f32 0x00000000#32) hr h0) (constant (F := Ideal) SNil .f32 0x40800000#32)
  let mp : FVec Ideal SNil .f32 := Host.divf (Host.reduceAdd p (constant (F := Ideal) SNil .f32 0x00000000#32) hr h0) (constant (F := Ideal) SNil .f32 0x40800000#32)
  let mg : FVec Ideal SNil .f32 := Host.divf (Host.reduceAdd g (constant (F := Ideal) SNil .f32 0x00000000#32) hr h0) (constant (F := Ideal) SNil .f32 0x40800000#32)
  concatenate SOut 0 [⟨SOne, broadcastInDim SOne ![] hb1 ml⟩, ⟨SOne, broadcastInDim SOne ![] hb1 mp⟩, ⟨SOne, broadcastInDim SOne ![] hb1 mg⟩] hc

end Cert.Chamfer

end
-- ==== Proof.LibNaryThree.lean ====
/-
  The result of a host operation with a LITERAL family of three operand buffers.

  The library states the result of an `nary` operation over any family `xs : Fin n → Ref` as the operation's function
  applied to `fun k => F ↑(xs k)`: under that binder the reference `xs k` is no literal buffer, so a pass that rewrites
  each buffer's contents by the operation that wrote it stops there. For a family written out as `![x, a, b]` the same
  result is stated here with each operand's contents at its own reference:

  * `nary3_result`, `nary3_result'`: the function applied to `Fin.cons (F ↑x) (Fin.cons (F ↑a) (Fin.cons (F ↑b) …))`, in
    the two forms the library gives for four operands (the plain one, and the one with the result reference un-indexed
    for `simp`);
  * `nary3_result_of`: for a function that reads its family only at the three positions, `f u = g (u 0) (u 1) (u 2)`,
    the result is `g` of any three values the operands' contents are proved equal to. The type of `u k` is the contents
    type of `![x, a, b] k`, which is that of the `k`-th buffer only after the literal family is evaluated; in this form
    each operand's contents is the left side of an equation of its own, at its own buffer's type, so that it can be
    rewritten as any other buffer's.

  Nothing here depends on a particular program.
-/
import Idealize.ShloMosaic.Lib.StableHlo.Run

namespace Idealize.ShloMosaic.StableHlo

open Idealize.SL.Sem

variable {τ : Topo} {sig : RefSig} {Val : EltTy → Type}

section NaryThree

variable {x a b y : Ref sig .tc}

/-- `nary` over a literal family of three references: the result with each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a `simp` pass over the operations' results uses. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a literal family of three references whose function reads the family at its three positions only:
    the result is that function of any three values the operands' contents equal. -/
theorem nary3_result_of
    (g : x.ty.Contents Val → a.ty.Contents Val → b.ty.Contents Val → y.ty.Contents Val)
    {f : ((k : Fin 3) → ((![x, a, b] : Fin 3 → Ref sig .tc) k).ty.Contents Val) → y.ty.Contents Val}
    (hf : ∀ u, f u = g (u 0) (u 1) (u 2)) (hxs hy) (F : Valuation τ sig Val)
    {vx : x.ty.Contents Val} {va : a.ty.Contents Val} {vb : b.ty.Contents Val}
    (hx : F (Proc.devRef .tc x) = vx) (ha : F (Proc.devRef .tc a) = va) (hb : F (Proc.devRef .tc b) = vb) :
    (nary (τ := τ) ![x, a, b] y f hxs hy).result F (Proc.devRef .tc y) = g vx va vb := by
  subst hx ha hb
  rw [nary3_result f hxs hy F, hf]
  rfl

end NaryThree

end Idealize.ShloMosaic.StableHlo
-- ==== Proof.TailK.lean ====
/-
  The host lines after the region, read: they compute the specification's tail of the region's two results, and write
  neither argument.

  After the kernel region @main runs 23 host operations on the two result arrays `s` (per-batch sums of nearest-target
  distances) and `t` (per-batch sums of nearest-point distances): each is divided by 8192, the two quotients are added,
  each of the three vectors is summed over the 4 batches and divided by 4, and the three means are joined into one vector
  of length 3 — operation for operation the specification's `tail`, with the same literal words. No operation's result
  buffer is an argument buffer, so both arguments end as launched.
-/
import proofs.«118967_j45406394253979_1_alg».proof.Proof.LaunchK
import proofs.«118967_j45406394253979_1_alg».proof.Proof.ChamferSpec
import proofs.«118967_j45406394253979_1_alg».proof.Proof.LibNaryThree

set_option maxRecDepth 16384

noncomputable section

namespace Cert.Kernel.Body

open Cert.Kernel Cert.Kernel.Gen
open Idealize.ShloMosaic Idealize.ShloMosaic.TcCoe Idealize.SL.Sem Idealize.ShloMosaic.StableHlo

/-! ## The arguments are not written -/

section Kept

variable {F : FTy → Type} [FloatOps F]
variable (m : (ℓ : Loc nD τ sig) → Buf (Elt F) ℓ) (ρ : Dev nD → PrngReg)

/-- The buffers the 23 host operations write. -/
abbrev hostOps1_W : List (Ref sig .tc) :=
  [main_cst, main_v1, main_v2, main_cst_0, main_v3, main_v4, main_v5, main_cst_1, main_v6, main_cst_2, main_v7, main_cst_3,
    main_v8, main_cst_4, main_v9, main_cst_5, main_v10, main_cst_6, main_v11, main_v12, main_v13, main_v14, main_v15]

theorem hostOps1_writes : (hostOps1 : List (HloOp τ sig (Elt F))).Forall fun op =>
    op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.nary_writes,
      Finset.singleton_subset_iff, List.mem_toFinset]; exact List.mem_map_of_mem (by decide))

/-- A buffer outside that list holds after the host lines what it held before them. -/
theorem after_hostOps1_of (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The first argument ends as launched. -/
theorem kept_arg0 (c : Dev nD) (F2 : Buf (Elt F) ((cfg0.win 2).arr.view.loc (c.tc : Thread nD τ)))
    (F3 : Buf (Elt F) ((cfg0.win 3).arr.view.loc (c.tc : Thread nD τ))) :
    StableHlo.after hostOps1 (W₁ m ρ c F2 F3) (Proc.devRef .tc main_arg0) = m ((c : Thread nD τ).loc main_arg0) :=
  (after_hostOps1_of _ main_arg0 (by decide)).trans
    (Pipeline.withArrays_arr spec0 launch0.win.arr_inj c (V₀ m ρ c) (Afin m c F2 F3) 0)

/-- The second argument ends as launched. -/
theorem kept_arg1 (c : Dev nD) (F2 : Buf (Elt F) ((cfg0.win 2).arr.view.loc (c.tc : Thread nD τ)))
    (F3 : Buf (Elt F) ((cfg0.win 3).arr.view.loc (c.tc : Thread nD τ))) :
    StableHlo.after hostOps1 (W₁ m ρ c F2 F3) (Proc.devRef .tc main_arg1) = m ((c : Thread nD τ).loc main_arg1) :=
  (after_hostOps1_of _ main_arg1 (by decide)).trans
    (Pipeline.withArrays_arr spec0 launch0.win.arr_inj c (V₀ m ρ c) (Afin m c F2 F3) 1)

end Kept

/-! ## The result -/

variable (m : (ℓ : Loc nD τ sig) → Buf (Elt Ideal) ℓ) (ρ : Dev nD → PrngReg)

/-- The result buffer after the host lines is the specification's tail of the two result arrays the region left. -/
theorem tail_eq (c : Dev nD) (F2 : Buf (Elt Ideal) ((cfg0.win 2).arr.view.loc (c.tc : Thread nD τ)))
    (F3 : Buf (Elt Ideal) ((cfg0.win 3).arr.view.loc (c.tc : Thread nD τ))) :
    StableHlo.after (hostOps1 (F := Ideal)) (W₁ m ρ c F2 F3) (Proc.devRef .tc main_v15)
      = Cert.Chamfer.tail bcast_S_S4 reducesTo_S4_S_d0 h_S_ bcast_S_S1 concatenates_S1_S1_S1_S3_d0 F2 F3 := by
  have h2 : W₁ m ρ c F2 F3 (Proc.devRef .tc main_v0_0) = F2 :=
    Pipeline.withArrays_arr spec0 launch0.win.arr_inj c (V₀ m ρ c) (Afin m c F2 F3) 2
  have h3 : W₁ m ρ c F2 F3 (Proc.devRef .tc main_v0_1) = F3 :=
    Pipeline.withArrays_arr spec0 launch0.win.arr_inj c (V₀ m ρ c) (Afin m c F2 F3) 3
  simp only [StableHlo.after_cons, StableHlo.after_nil]
  unfold Cert.Chamfer.tail
  refine nary3_result_of (x := main_v12) (a := main_v13) (b := main_v14) (y := main_v15)
    (fun (v0 v1 v2 : (⟨S1, .f32⟩ : BufTy).Contents (Elt Ideal)) =>
      (concatenate S3 0 [⟨S1, v0⟩, ⟨S1, v1⟩, ⟨S1, v2⟩] concatenates_S1_S1_S1_S3_d0 : (⟨S3, .f32⟩ : BufTy).Contents (Elt Ideal)))
    (fun _ => rfl) _ _ _ ?_ ?_ ?_ <;> after_results_simp <;> simp only [h2, h3] <;> rfl

end Cert.Kernel.Body

end
-- ==== Proof.FrameK.lean ====
/-
  The frame of the program: it runs to the end, faults nowhere, and leaves both argument arrays as launched.

  The run of @main ends with every unscoped buffer at what the host lines make of the launch memory with the region's
  four arrays in place; the two argument arrays are the region's input arrays, which it leaves as launched, and no host
  line writes them.
-/
import proofs.«118967_j45406394253979_1_alg».proof.Proof.TailK

set_option maxRecDepth 16384

noncomputable section

namespace Cert.Kernel.Body

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem arg0_mem : Proc.devRef (τ := τ) .tc main_arg0 ∈ Pipeline.ucRefs τ sig := by decide
theorem arg1_mem : Proc.devRef (τ := τ) .tc main_arg1 ∈ Pipeline.ucRefs τ sig := by decide
theorem v15_mem : Proc.devRef (τ := τ) .tc main_v15 ∈ Pipeline.ucRefs τ sig := by decide

/-- THE FRAME, at any float instance: every weakly fair execution of @main terminates, nothing faulting, and both
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨F2, F3, -, -, hb⟩ := h c
    exact ⟨(hb _ arg0_mem).trans (kept_arg0 m ρ c F2 F3), (hb _ arg1_mem).trans (kept_arg1 m ρ c F2 F3)⟩) (run_main m ρ)

end Cert.Kernel.Body

end
-- ==== Proof.StepsI.lean ====
/-
  One grid point of the distance kernel as four pure functions of what the point finds.

  The body keeps four things between points: the running row minima `rm` (one per row of the current tile of points),
  the running column minima `cm` (one per target, all 8192), and the two per-batch sums `a2`, `a3`. With `x0` the
  tile of points and `x1` the tile of targets staged at the point:
    rowStep  restarts `rm` at +∞ when the target tile is the first of its sweep, then takes the minimum with the
             tile's row minima;
    colStep  restarts `cm` at +∞ at the first point of a batch, then takes, on the 1024 columns of the current target
             tile only, the minimum with the tile's column minima;
    acc2Step sets slot b of `a2` to zero at the first point of a batch and, when the target sweep ends, adds the sum of
             the finished row minima to it;
    acc3Step sets slot b of `a3` to zero at the first point of a batch and, at the batch's last point, adds the sum of
             the finished column minima to it.
  The arithmetic is the program's own payload terms; the four conditions are its scalar chains over the coordinates.
-/
import proofs.«118967_j45406394253979_1_alg».proof.Proof.Gen.KernelIdeal.Skeleton
import proofs.«118967_j45406394253979_1_alg».proof.Proof.LibStoreAt

noncomputable section

namespace Cert.KernelIdeal.Body

open Cert.KernelIdeal Cert.KernelIdeal.Gen
open Idealize.ShloMosaic Idealize.SL.Sem

variable {F : FTy → Type} [FloatOps F]

/-- First point of a batch (both tile coordinates zero). -/
abbrev c1 (i : grid0.Coords) : Prop := k0_cond1 i = 1#1
/-- First target tile of a sweep. -/
abbrev c2 (i : grid0.Coords) : Prop := (Scalar.cmpi .ne (Scalar.extui (Scalar.cmpi .eq (BitVec.ofNat 32 (i 2).val) 0#32)) 0#32) = 1#1
/-- Last target tile of a sweep. -/
abbrev c3 (i : grid0.Coords) : Prop := k0_cond3 i = 1#1
/-- Last point of a batch. -/
abbrev c4 (i : grid0.Coords) : Prop := k0_cond4 i = 1#1

/-- The running row minima the point leaves. -/
def rowStep (i : grid0.Coords) (x0 x1 : Vec F S1x1024x3 .f32) (rm : Vec F S1024x1 .f32) : Vec F S1024x1 .f32 :=
  k0_pay1 (k0_pay10 x0 x1 (if c2 i then k0_pay8 (F := F) else rm))

/-- The column minima the point starts from. -/
def colBase (i : grid0.Coords) (cm : Vec F S1x8192 .f32) : Vec F S1x8192 .f32 := if c1 i then k0_pay7 (F := F) else cm

/-- The running column minima the point leaves. -/
def colStep (i : grid0.Coords) (x0 x1 : Vec F S1x1024x3 .f32) (cm : Vec F S1x8192 .f32) : Vec F S1x8192 .f32 :=
  storeAt (colBase i cm) (k0_off2 i) S1x1024.size (k0_off2_inb i)
    (k0_pay2 (k0_pay9 x0 x1) (View.ld (colBase i cm) (Rect.unit (s := S1x8192) (k0_off2 i) S1x1024.size (k0_off2_inb i))))

/-- A per-batch sum with slot b set to `z` at the first point of a batch. -/
def accBase (i : grid0.Coords) (a : Vec F S4 .f32) (z : FVec F S1 .f32) : Vec F S4 .f32 :=
  if h : c1 i then storeAt a (k0_off1 i) S1.size (k0_off1_inb i h) z else a

/-- The per-batch sums of row minima the point leaves, given the row minima `rm'` it leaves. -/
def acc2Step (i : grid0.Coords) (rm' : Vec F S1024x1 .f32) (a2 : Vec F S4 .f32) : Vec F S4 .f32 :=
  if h : c3 i then
    storeAt (accBase i a2 (k0_pay5 (F := F))) (k0_off3 i) S1.size (k0_off3_inb i h)
      (k0_pay3 rm' (View.ld (accBase i a2 (k0_pay5 (F := F))) (Rect.unit (s := S4) (k0_off3 i) S1.size (k0_off3_inb i h))))
  else accBase i a2 (k0_pay5 (F := F))

/-- The per-batch sums of column minima the point leaves, given the column minima `cm'` it leaves. -/
def acc3Step (i : grid0.Coords) (cm' : Vec F S1x8192 .f32) (a3 : Vec F S4 .f32) : Vec F S4 .f32 :=
  if h : c4 i then
    storeAt (accBase i a3 (k0_pay6 (F := F))) (k0_off4 i) S1.size (k0_off4_inb i h)
      (k0_pay4 cm' (View.ld (accBase i a3 (k0_pay6 (F := F))) (Rect.unit (s := S4) (k0_off4 i) S1.size (k0_off4_inb i h))))
  else accBase i a3 (k0_pay6 (F := F))

end Cert.KernelIdeal.Body

end
-- ==== Proof.BodyI.lean ====
/-
  The distance kernel's body, run symbolically in each of its five control cases.

  The body branches four times on the grid coordinates: at the first point of a batch, at the first target tile of a
  sweep, at the last target tile of a sweep, and at the last point of a batch. Of the sixteen combinations the grid meets
  five. In each the body is run from its six buffers — the two staged tiles, the two per-batch sums, the two scratch
  arrays of running minima — at arbitrary contents, and what each buffer holds afterwards is read back, store by store,
  as the step functions `rowStep`, `colStep`, `acc2Step`, `acc3Step` of what it held before: a store through a whole
  buffer leaves its payload, a store through a slice leaves the payload there and the earlier contents elsewhere, and a
  load after a store reads what the store left.
-/
import proofs.«118967_j45406394253979_1_alg».proof.Proof.Gen.KernelIdeal.Launch
import proofs.«118967_j45406394253979_1_alg».proof.Proof.Gen.KernelIdeal.Skeleton
import proofs.«118967_j45406394253979_1_alg».proof.Proof.Gen.KernelIdeal.Points
import proofs.«118967_j45406394253979_1_alg».proof.Proof.StepsI
import Idealize.ShloMosaic.Lib.Pipeline.FrameBody
import Idealize.ShloMosaic.Lib.Pipeline.Value
import Idealize.ShloMosaic.Lib.WritesUnit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz3 : (![0, 0, 0] : Fin 3 → ℕ) = fun _ => 0 := by funext a; fin_cases a <;> rfl

set_option maxHeartbeats 1000000 in
/-- The body at the first point of a batch: both sums' slots are zeroed, both scratch arrays restarted. From the six buffers at any contents it runs to the same buffers at the
    step functions of those contents. -/
theorem run_A (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : c1 i) (h2 : c2 i) (h3 : ¬c3 i) (h4 : ¬c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_pos h1, if_pos h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_pos h1, if_pos h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_pos h1, if_pos h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_pos h1, if_pos h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

set_option maxHeartbeats 1000000 in
/-- The body at the first target tile of a later sweep: the row minima restart. From the six buffers at any contents it runs to the same buffers at the
    step functions of those contents. -/
theorem run_B (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : ¬c1 i) (h2 : c2 i) (h3 : ¬c3 i) (h4 : ¬c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_pos h2, if_pos h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

set_option maxHeartbeats 1000000 in
/-- The body at a point in the middle of a sweep: only the running minima move. From the six buffers at any contents it runs to the same buffers at the
    step functions of those contents. -/
theorem run_C (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : ¬c1 i) (h2 : ¬c2 i) (h3 : ¬c3 i) (h4 : ¬c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_neg h3, if_neg h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

set_option maxHeartbeats 1000000 in
/-- The body at the last target tile of a sweep that does not end the batch: the finished row minima are summed into slot b. From the six buffers at any contents it runs to the same buffers at the
    step functions of those contents. -/
theorem run_D (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : ¬c1 i) (h2 : ¬c2 i) (h3 : c3 i) (h4 : ¬c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_neg h4, if_neg h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

set_option maxHeartbeats 1000000 in
/-- The body at the last point of a batch: both finished minima are summed into their slots. From the six buffers at any contents it runs to the same buffers at the
    step functions of those contents. -/
theorem run_E (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (h1 : ¬c1 i) (h2 : ¬c2 i) (h3 : c3 i) (h4 : c4 i)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step i (rowStep i x0 x1 rm) a2)
              ∗ owns (c : Thread nD τ) arg6 fullShare (acc3Step i (colStep i x0 x1 cm) a3)
              ∗ owns (c : Thread nD τ) arg7 fullShare (rowStep i x0 x1 rm)
              ∗ owns (c : Thread nD τ) arg8 fullShare (colStep i x0 x1 cm)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; swap; (· iexact H5)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_pos h4, if_pos h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H6]
  · iexists _; isplitr; swap; (· iexact H6)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_pos h4, if_pos h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  isplitl [H7]
  · iexists _; isplitr; swap; (· iexact H7)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_pos h4, if_pos h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl
  · iexists _; isplitr; swap; (· iexact H8)
    ipureintro
    sl_unfold_run_names
    try simp only [View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    try dsimp only
    try simp only [acc2Step, acc3Step, accBase, rowStep, colStep, colBase, dif_neg h1, if_neg h1, dif_neg h2, if_neg h2, dif_pos h3, if_pos h3, dif_pos h4, if_pos h4, View.read_writes_cons_storeAt, View.writes_nil, storeAt_whole (S := S1024x1) _ hz2, storeAt_whole (S := S1x8192) _ hz2, View.readAt_eq_ld, harg3.read_unread, harg4.read_unread, harg5.read_unread, harg6.read_unread, harg7.read_unread, harg8.read_unread, View.ld_unit_zero (S := S1x1024x3) hz3, View.ld_unit_zero (S := S1024x1) hz2, View.ld_unit_zero (S := S1x8192) hz2, View.readCov_unit_zero (S := S1024x1) arg7.view hz2]
    first | done | rfl

end Cert.KernelIdeal.Body

end
-- ==== Proof.DataI.lean ====
/-
  The proof data of the distance kernel's pipeline, relationally, and its body obligation.

  The two input windows are handed to the body holding their blocks and are left as found. The two output windows are
  buffers of 4 sums of which the body touches one slot per point, so what the body leaves in them is stated as a
  function of what it found there (`acc2Step`, `acc3Step`), never as a value of its own: before slot b has been set to
  zero the buffer holds whatever it held. The two scratch arrays are carried by the invariant at the contents the points
  so far have left (`rmAt`, `cmAt`, by recursion on the point from whatever they held at entry); the first point
  overwrites both before reading them, so those contents do not depend on what they held at entry once one point has run.
-/
import proofs.«118967_j45406394253979_1_alg».proof.Proof.BodyI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (the region is @main's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The two scratch arrays as memrefs. -/
abbrev scM0 : Memref sig .tc .vmem S1024x1 .f32 := Memref.whole cc0_scratch0
abbrev scM1 : Memref sig .tc .vmem S1x8192 .f32 := Memref.whole cc0_scratch1

/-- The running row minima before point `t`, from `d0` at entry. -/
def rmAt (c : Dev nD) (d0 : Vec F S1024x1 .f32) : ℕ → Vec F S1024x1 .f32
  | 0 => d0
  | t + 1 => if h : t < cfg0.N then rowStep (grid0.coords ⟨t, h⟩) (iblk m c 0 ⟨t, h⟩) (iblk m c 1 ⟨t, h⟩) (rmAt c d0 t) else rmAt c d0 t

/-- The running column minima before point `t`, from `d1` at entry. -/
def cmAt (c : Dev nD) (d1 : Vec F S1x8192 .f32) : ℕ → Vec F S1x8192 .f32
  | 0 => d1
  | t + 1 => if h : t < cfg0.N then colStep (grid0.coords ⟨t, h⟩) (iblk m c 0 ⟨t, h⟩) (iblk m c 1 ⟨t, h⟩) (cmAt c d1 t) else cmAt c d1 t

theorem rmAt_succ (c : Dev nD) (d0 : Vec F S1024x1 .f32) (t : Fin cfg0.N) :
    rmAt m c d0 (t.val + 1) = rowStep (grid0.coords t) (iblk m c 0 t) (iblk m c 1 t) (rmAt m c d0 t.val) := by
  rw [rmAt, dif_pos t.isLt]

theorem cmAt_succ (c : Dev nD) (d1 : Vec F S1x8192 .f32) (t : Fin cfg0.N) :
    cmAt m c d1 (t.val + 1) = colStep (grid0.coords t) (iblk m c 0 t) (iblk m c 1 t) (cmAt m c d1 t.val) := by
  rw [cmAt, dif_pos t.isLt]

/-- The invariant before point `t`: the scratch arrays at what the points so far left. -/
def PhiAt (c : Dev nD) (t : ℕ) : sProp 𝕄 :=
  iprop(∃ d0 d1, owns (c : Thread nD τ) scM0 fullShare (rmAt m c d0 t) ∗ owns (c : Thread nD τ) scM1 fullShare (cmAt m c d1 t))

/-- The relational proof data on core `c`. -/
def rdat (_ : Fin 1) (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => ∃ d0 : Vec F S1024x1 .f32, X = acc2Step (grid0.coords t) (rmAt m c d0 (t.val + 1)) Y
    | ⟨3, _⟩ => ∃ d1 : Vec F S1x8192 .f32, X = acc3Step (grid0.coords t) (cmAt m c d1 (t.val + 1)) Y
    | ⟨_ + 4, h⟩ => absurd h (Nat.not_lt.2 (Nat.le_add_left _ _))
  Φ t := PhiAt m c t.val
  q _ := fullShare
  owed _ := 0

/-- The conditions over the grid: the first point of a batch is the first of a sweep, a sweep's first tile is not its
    last, and a batch's last point ends a sweep. -/
theorem c1_c2 : ∀ t : Fin cfg0.N, c1 (grid0.coords t) → c2 (grid0.coords t) :=
  (by decide +kernel : ∀ t : Fin grid0.N, c1 (grid0.coords t) → c2 (grid0.coords t))
theorem c2_not_c3 : ∀ t : Fin cfg0.N, c2 (grid0.coords t) → ¬c3 (grid0.coords t) :=
  (by decide +kernel : ∀ t : Fin grid0.N, c2 (grid0.coords t) → ¬c3 (grid0.coords t))
theorem c4_c3 : ∀ t : Fin cfg0.N, c4 (grid0.coords t) → c3 (grid0.coords t) :=
  (by decide +kernel : ∀ t : Fin grid0.N, c4 (grid0.coords t) → c3 (grid0.coords t))

/-- The body at any grid point, whichever control case the point is in. -/
theorem run_at (c : Dev nD) (t : Fin cfg0.N)
    (arg3 : Memref sig .tc .vmem S1x1024x3 .f32) (harg3 : arg3.IsWhole) (arg4 : Memref sig .tc .vmem S1x1024x3 .f32) (harg4 : arg4.IsWhole)
    (arg5 : Memref sig .tc .vmem S4 .f32) (harg5 : arg5.IsWhole) (arg6 : Memref sig .tc .vmem S4 .f32) (harg6 : arg6.IsWhole)
    (arg7 : Memref sig .tc .vmem S1024x1 .f32) (harg7 : arg7.IsWhole) (arg8 : Memref sig .tc .vmem S1x8192 .f32) (harg8 : arg8.IsWhole)
    (x0 x1 : Vec F S1x1024x3 .f32) (a2 a3 : Vec F S4 .f32) (rm : Vec F S1024x1 .f32) (cm : Vec F S1x8192 .f32)
    (E : Set ℕ) (K : PUnit → sProp 𝕄) :
    iprop(owns (c : Thread nD τ) arg3 fullShare x0 ∗ owns (c : Thread nD τ) arg4 fullShare x1 ∗ owns (c : Thread nD τ) arg5 fullShare a2
        ∗ owns (c : Thread nD τ) arg6 fullShare a3 ∗ owns (c : Thread nD τ) arg7 fullShare rm ∗ owns (c : Thread nD τ) arg8 fullShare cm
        ∗ (iprop(owns (c : Thread nD τ) arg3 fullShare x0 ∗ owns (c : Thread nD τ) arg4 fullShare x1
              ∗ owns (c : Thread nD τ) arg5 fullShare (acc2Step (grid0.coords t) (rowStep (grid0.coords t) x0 x1 rm) a2)
              ∗ owns (c : Thread nD τ) arg6 fullShare (acc3Step (grid0.coords t) (colStep (grid0.coords t) x0 x1 cm) a3)
              ∗ owns (c : Thread nD τ) arg7 fullShare (rowStep (grid0.coords t) x0 x1 rm)
              ∗ owns (c : Thread nD τ) arg8 fullShare (colStep (grid0.coords t) x0 x1 cm)) -∗ K ⟨⟩))
      ⊢ wp frame (wpE (defs₀ (F := F)) Variants.none c none) E (cc0__chamfer_kernel (grid0.coords t) arg3 harg3 arg4 harg4 arg5 harg5 arg6 harg6 arg7 harg7 arg8 harg8) K := by
  by_cases h1 : c1 (grid0.coords t)
  · have h2 := c1_c2 t h1
    have h3 := c2_not_c3 t h2
    exact run_A c _ arg3 harg3 arg4 harg4 arg5 harg5 arg6 harg6 arg7 harg7 arg8 harg8 h1 h2 h3 (fun h => h3 (c4_c3 t h)) x0 x1 a2 a3 rm cm E K
  · by_cases h2 : c2 (grid0.coords t)
    · have h3 := c2_not_c3 t h2
      exact run_B c _ arg3 harg3 arg4 harg4 arg5 harg5 arg6 harg6 arg7 harg7 arg8 harg8 h1 h2 h3 (fun h => h3 (c4_c3 t h)) x0 x1 a2 a3 rm cm E K
    · by_cases h3 : c3 (grid0.coords t)
      · by_cases h4 : c4 (grid0.coords t)
        · exact run_E c _ arg3 harg3 arg4 harg4 arg5 harg5 arg6 harg6 arg7 harg7 arg8 harg8 h1 h2 h3 h4 x0 x1 a2 a3 rm cm E K
        · exact run_D c _ arg3 harg3 arg4 harg4 arg5 harg5 arg6 harg6 arg7 harg7 arg8 harg8 h1 h2 h3 h4 x0 x1 a2 a3 rm cm E K
      · exact run_C c _ arg3 harg3 arg4 harg4 arg5 harg5 arg6 harg6 arg7 harg7 arg8 harg8 h1 h2 h3 (fun h => h3 (c4_c3 t h)) x0 x1 a2 a3 rm cm E K

/-- An input window's buffer holds its block wherever the body is handed it: fetched there, or left in place since. -/
theorem finds_in0 (c : Dev nD) (t : Fin cfg0.N) (Y : (cfg0.win 0).block.Idx → Elt F (cfg0.win 0).elt)
    (h : (rdat m 0 c).Finds 0 t Y) : Y = iblk m c 0 t := by
  obtain ⟨d, e⟩ := (rdat m 0 c).finds_in_eq_fetched 0 rfl (fun _ _ _ => rfl) (fun _ _ _ h => h) t Y h
  rw [e]; unfold RDat.fetched RDat.blockOf iblk; rfl

theorem finds_in1 (c : Dev nD) (t : Fin cfg0.N) (Y : (cfg0.win 1).block.Idx → Elt F (cfg0.win 1).elt)
    (h : (rdat m 0 c).Finds 1 t Y) : Y = iblk m c 1 t := by
  obtain ⟨d, e⟩ := (rdat m 0 c).finds_in_eq_fetched 1 rfl (fun _ _ _ => rfl) (fun _ _ _ h => h) t Y h
  rw [e]; unfold RDat.fetched RDat.blockOf iblk; rfl

set_option maxHeartbeats 1000000 in
/-- The body obligation: at every point, from the invariant and the four staging buffers at what they may hold, the
    body runs to the invariant at the next point and the buffers at contents in the windows' relations. -/
theorem body_obligation (c : Dev nD) : (rdat m 0 c).BodyObligation (defs₀ (F := F)) Variants.none () Set.univ := fun t Y hY => by
  rw [bigSep_W0, bigSep_W0]
  have e0 := finds_in0 m c t (Y 0) (hY 0)
  have e1 := finds_in1 m c t (Y 1) (hY 1)
  rw [show (rdat m 0 c).Φ t.castSucc = PhiAt m c t.val from rfl, show (rdat m 0 c).Φ t.succ = PhiAt m c (t.val + 1) from rfl]
  rw [show (rdat m 0 c).owesAt () t.succ = (rdat m 0 c).owesAt () t.castSucc from rfl]
  unfold PhiAt
  refine (show _ ⊢ wp frame (wpE (defs₀ (F := F)) Variants.none c none) Set.univ (bodyAt0 t) _ from ?_)
  iintro ⟨⟨%d0, %d1, HS0, HS1⟩, Ho, H0, H1, H2, H3⟩
  iapply (run_at c t _ _ _ _ _ _ _ _ _ _ _ _ (Y 0) (Y 1) (Y 2) (Y 3) (rmAt m c d0 t.val) (cmAt m c d1 t.val) Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1]
  · iexists d0, d1
    rw [rmAt_succ, cmAt_succ, ← e0, ← e1]
    isplitl [HS0] <;> iassumption
  isplitl [Ho]; · iexact Ho
  isplitl [H0]
  · iexists _; isplitr; swap; (· iexact H0)
    ipureintro; rfl
  isplitl [H1]
  · iexists _; isplitr; swap; (· iexact H1)
    ipureintro; rfl
  isplitl [H2]
  · iexists _; isplitr; swap; (· iexact H2)
    ipureintro
    exact ⟨d0, by rw [rmAt_succ, ← e0, ← e1]⟩
  · iexists _; isplitr; swap; (· iexact H3)
    ipureintro
    exact ⟨d1, by rw [cmAt_succ, ← e0, ← e1]⟩

end Cert.KernelIdeal.Body

end
-- ==== Proof.ChainI.lean ====
/-
  What the relation admits of the two result arrays after the region.

  Each result window's block is the whole 4-slot array and is written back once, at the last grid point. What is written
  back is what the body left in the staging buffer there, which the window's relation ties to what it found, which is what
  the body left at the point before, and so on back to the first point, where the buffer held anything at all. So the
  array's contents after the region are the per-point step function folded over all 256 points from SOME starting
  contents (`a2Chain`, `a3Chain`). The scratch minima those steps read do not depend on what the scratch arrays held at
  entry: the first point restarts both before reading them (`rmAt_indep`, `cmAt_indep`).
-/
import proofs.«118967_j45406394253979_1_alg».proof.Proof.DataI

set_option maxRecDepth 16384

noncomputable section

namespace Cert.KernelIdeal.Body

open Cert.KernelIdeal Cert.KernelIdeal.Gen
open Idealize.ShloMosaic Idealize.ShloMosaic.TcCoe
open Idealize.SL Idealize.SL.Sem
open Idealize.ShloMosaic.Pipeline (Dat RDat Cfg Window cellOf)

variable {F : FTy → Type} [FloatOps F]

variable (m : (ℓ : Loc nD τ sig) → Buf (Elt F) ℓ)

theorem N_pos : 0 < cfg0.N := by rw [show cfg0.N = 256 from N_0]; decide
theorem c2_first : c2 (grid0.coords (⟨0, N_pos⟩ : Fin cfg0.N)) := by decide +kernel
theorem c1_first : c1 (grid0.coords (⟨0, N_pos⟩ : Fin cfg0.N)) := by decide +kernel

/-- After the first point the running row minima do not depend on what the scratch array held at entry. -/
theorem rmAt_step (c : Dev nD) (d : Vec F S1024x1 .f32) (t : ℕ) :
    rmAt m c d (t + 1) = if h : t < cfg0.N then rowStep (grid0.coords ⟨t, h⟩) (iblk m c 0 ⟨t, h⟩) (iblk m c 1 ⟨t, h⟩) (rmAt m c d t) else rmAt m c d t := rfl
theorem cmAt_step (c : Dev nD) (d : Vec F S1x8192 .f32) (t : ℕ) :
    cmAt m c d (t + 1) = if h : t < cfg0.N then colStep (grid0.coords ⟨t, h⟩) (iblk m c 0 ⟨t, h⟩) (iblk m c 1 ⟨t, h⟩) (cmAt m c d t) else cmAt m c d t := rfl

theorem rmAt_indep (c : Dev nD) (d d' : Vec F S1024x1 .f32) : ∀ t, rmAt m c d (t + 1) = rmAt m c d' (t + 1)
  | 0 => by
    rw [rmAt_step, rmAt_step, dif_pos N_pos, dif_pos N_pos]
    unfold rowStep
    rw [if_pos c2_first, if_pos c2_first]
  | t + 1 => by
    rw [rmAt_step m c d (t + 1), rmAt_step m c d' (t + 1), rmAt_indep c d d' t]

/-- After the first point the running column minima do not depend on what the scratch array held at entry. -/
theorem cmAt_indep (c : Dev nD) (d d' : Vec F S1x8192 .f32) : ∀ t, cmAt m c d (t + 1) = cmAt m c d' (t + 1)
  | 0 => by
    rw [cmAt_step, cmAt_step, dif_pos N_pos, dif_pos N_pos]
    unfold colStep colBase
    rw [if_pos c1_first, if_pos c1_first]
  | t + 1 => by
    rw [cmAt_step m c d (t + 1), cmAt_step m c d' (t + 1), cmAt_indep c d d' t]

/-- The per-batch sums of row minima before point `t`, from `y` before the first. -/
def a2Chain (c : Dev nD) (y : Vec F S4 .f32) : ℕ → Vec F S4 .f32
  | 0 => y
  | t + 1 => if h : t < cfg0.N then acc2Step (grid0.coords ⟨t, h⟩) (rmAt m c (k0_pay8 (F := F)) (t + 1)) (a2Chain c y t) else a2Chain c y t

/-- The per-batch sums of column minima before point `t`, from `y` before the first. -/
def a3Chain (c : Dev nD) (y : Vec F S4 .f32) : ℕ → Vec F S4 .f32
  | 0 => y
  | t + 1 => if h : t < cfg0.N then acc3Step (grid0.coords ⟨t, h⟩) (cmAt m c (k0_pay7 (F := F)) (t + 1)) (a3Chain c y t) else a3Chain c y t

theorem a2Chain_step (c : Dev nD) (y : Vec F S4 .f32) (t : ℕ) :
    a2Chain m c y (t + 1) = if h : t < cfg0.N then acc2Step (grid0.coords ⟨t, h⟩) (rmAt m c (k0_pay8 (F := F)) (t + 1)) (a2Chain m c y t) else a2Chain m c y t := rfl
theorem a3Chain_step (c : Dev nD) (y : Vec F S4 .f32) (t : ℕ) :
    a3Chain m c y (t + 1) = if h : t < cfg0.N then acc3Step (grid0.coords ⟨t, h⟩) (cmAt m c (k0_pay7 (F := F)) (t + 1)) (a3Chain m c y t) else a3Chain m c y t := rfl

/-- The result windows are never fetched, and written back at the last point only. -/
theorem fetch2 : ∀ t : Fin cfg0.N, (cfg0.win 2).fetch t = false := (by decide +kernel : ∀ t : Fin grid0.N, win0_2.fetch t = false)
theorem fetch3 : ∀ t : Fin cfg0.N, (cfg0.win 3).fetch t = false := (by decide +kernel : ∀ t : Fin grid0.N, win0_3.fetch t = false)
theorem noFlush2 (t : Fin cfg0.N) (h : t.val ≠ 255) : (cfg0.win 2).flush t = false := by
  have := flush0_2 t; have hN : t.val < 256 := lt_of_lt_of_eq t.isLt N_0
  cases hf : (cfg0.win 2).flush t with
  | false => rfl
  | true => exact absurd (this.mp hf) (by omega)
theorem noFlush3 (t : Fin cfg0.N) (h : t.val ≠ 255) : (cfg0.win 3).flush t = false := by
  have := flush0_3 t; have hN : t.val < 256 := lt_of_lt_of_eq t.isLt N_0
  cases hf : (cfg0.win 3).flush t with
  | false => rfl
  | true => exact absurd (this.mp hf) (by omega)

/-- What the body leaves in result window 2's buffer at point `t` is the fold up to and including `t`. -/
theorem leaves2 (c : Dev nD) : ∀ (n : ℕ) (t : Fin cfg0.N), t.val = n → ∀ X, (rdat m 0 c).Leaves 2 t X →
    ∃ y, X = a2Chain m c y (t.val + 1) := by
  intro n
  induction n with
  | zero =>
    rintro t ht X ⟨Y, -, d0, hX⟩
    obtain rfl : t = ⟨0, N_pos⟩ := Fin.ext ht
    exact ⟨Y, by rw [hX, a2Chain_step, dif_pos N_pos, rmAt_indep m c d0 (k0_pay8 (F := F)) 0]; rfl⟩
  | succ n ih =>
    rintro t ht X ⟨Y, hY, d0, hX⟩
    have hN : t.val < 256 := lt_of_lt_of_eq t.isLt N_0
    have htpos : t.val ≠ 0 := by omega
    rcases ((rdat m 0 c).finds_of_pos (fetch2 t) htpos Y).mp hY with hfl | hL
    · rw [noFlush2 ⟨t.val - 1, by omega⟩ (by show t.val - 1 ≠ 255; omega)] at hfl
      exact absurd hfl Bool.false_ne_true
    · obtain ⟨y, hYe⟩ := ih ⟨t.val - 1, by omega⟩ (by show t.val - 1 = n; omega) Y hL
      refine ⟨y, ?_⟩
      have e : t.val - 1 + 1 = t.val := by omega
      rw [hX, a2Chain_step, dif_pos t.isLt, rmAt_indep m c d0 (k0_pay8 (F := F)) t.val, hYe]
      simp only [e]

/-- What the body leaves in result window 3's buffer at point `t` is the fold up to and including `t`. -/
theorem leaves3 (c : Dev nD) : ∀ (n : ℕ) (t : Fin cfg0.N), t.val = n → ∀ X, (rdat m 0 c).Leaves 3 t X →
    ∃ y, X = a3Chain m c y (t.val + 1) := by
  intro n
  induction n with
  | zero =>
    rintro t ht X ⟨Y, -, d0, hX⟩
    obtain rfl : t = ⟨0, N_pos⟩ := Fin.ext ht
    exact ⟨Y, by rw [hX, a3Chain_step, dif_pos N_pos, cmAt_indep m c d0 (k0_pay7 (F := F)) 0]; rfl⟩
  | succ n ih =>
    rintro t ht X ⟨Y, hY, d0, hX⟩
    have hN : t.val < 256 := lt_of_lt_of_eq t.isLt N_0
    have htpos : t.val ≠ 0 := by omega
    rcases ((rdat m 0 c).finds_of_pos (fetch3 t) htpos Y).mp hY with hfl | hL
    · rw [noFlush3 ⟨t.val - 1, by omega⟩ (by show t.val - 1 ≠ 255; omega)] at hfl
      exact absurd hfl Bool.false_ne_true
    · obtain ⟨y, hYe⟩ := ih ⟨t.val - 1, by omega⟩ (by show t.val - 1 = n; omega) Y hL
      refine ⟨y, ?_⟩
      have e : t.val - 1 + 1 = t.val := by omega
      rw [hX, a3Chain_step, dif_pos t.isLt, cmAt_indep m c d0 (k0_pay7 (F := F)) t.val, hYe]
      simp only [e]

/-- The last grid point. -/
abbrev tLast : Fin cfg0.N := ⟨255, by rw [show cfg0.N = 256 from N_0]; decide⟩

/-- Before the last point's write-back a result array still holds its entry contents. -/
theorem arrAt2_low (c : Dev nD) : ∀ t, t ≤ 255 → (rdat m 0 c).ArrAt 2 t = fun G => G = (rdat m 0 c).A 2
  | 0, _ => rfl
  | t + 1, h => by
    have ht : t < cfg0.N := by rw [show cfg0.N = 256 from N_0]; omega
    rw [(rdat m 0 c).ArrAt_succ 2 ⟨t, ht⟩, noFlush2 ⟨t, ht⟩ (by show t ≠ 255; omega)]
    exact arrAt2_low c t (by omega)
theorem arrAt3_low (c : Dev nD) : ∀ t, t ≤ 255 → (rdat m 0 c).ArrAt 3 t = fun G => G = (rdat m 0 c).A 3
  | 0, _ => rfl
  | t + 1, h => by
    have ht : t < cfg0.N := by rw [show cfg0.N = 256 from N_0]; omega
    rw [(rdat m 0 c).ArrAt_succ 3 ⟨t, ht⟩, noFlush3 ⟨t, ht⟩ (by show t ≠ 255; omega)]
    exact arrAt3_low c t (by omega)

/-- After the region result array 2 holds what the body left at the last point, written back over the whole array. -/
theorem arrAt2_last (c : Dev nD) (F2 : Buf (Elt F) ((cfg0.win 2).arr.view.loc (c.tc : Thread nD τ)))
    (h : (rdat m 0 c).ArrAt 2 cfg0.N F2) :
    ∃ G₀ X, (rdat m 0 c).Leaves 2 tLast X
      ∧ F2 = ((cfg0.win 2).blk tLast).view.write (Elt F) G₀ ((cfg0.win 2).cut (cfg0.grid.coords tLast) X) Finset.univ := by
  have e : cfg0.N = (tLast : Fin cfg0.N).val + 1 := N_0
  rw [e, (rdat m 0 c).ArrAt_succ 2 tLast, (flush0_2 tLast).mpr (by decide)] at h
  obtain ⟨G₀, X, -, hX, hF⟩ := h
  exact ⟨G₀, X, hX, hF⟩
theorem arrAt3_last (c : Dev nD) (F3 : Buf (Elt F) ((cfg0.win 3).arr.view.loc (c.tc : Thread nD τ)))
    (h : (rdat m 0 c).ArrAt 3 cfg0.N F3) :
    ∃ G₀ X, (rdat m 0 c).Leaves 3 tLast X
      ∧ F3 = ((cfg0.win 3).blk tLast).view.write (Elt F) G₀ ((cfg0.win 3).cut (cfg0.grid.coords tLast) X) Finset.univ := by
  have e : cfg0.N = (tLast : Fin cfg0.N).val + 1 := N_0
  rw [e, (rdat m 0 c).ArrAt_succ 3 tLast, (flush0_3 tLast).mpr (by decide)] at h
  obtain ⟨G₀, X, -, hX, hF⟩ := h
  exact ⟨G₀, X, hX, hF⟩

theorem idx2_last : win0_2.index tLast (0 : Fin 1) = 0 := by decide +kernel
theorem idx3_last : win0_3.index tLast (0 : Fin 1) = 0 := by decide +kernel

/-- The write-back of a result window's block is the whole array: it leaves the block. -/
theorem write_back2 (c : Dev nD) (G₀ : Buf (Elt F) ((cfg0.win 2).arr.view.loc (c.tc : Thread nD τ)))
    (X : (cfg0.win 2).block.Idx → Elt F (cfg0.win 2).elt) :
    ((cfg0.win 2).blk tLast).view.write (Elt F) G₀ ((cfg0.win 2).cut (cfg0.grid.coords tLast) X) Finset.univ = X := by
  funext i
  have hi : ((cfg0.win 2).blk tLast).view.emb i = i := by
    funext a; apply Fin.ext
    match a with
    | ⟨0, _⟩ =>
      show win0_2.index tLast (0 : Fin 1) * 4 + 1 * (i 0).val = (i 0).val
      rw [idx2_last]; omega
  exact (congrArg (((cfg0.win 2).blk tLast).view.write (Elt F) G₀ ((cfg0.win 2).cut (cfg0.grid.coords tLast) X) Finset.univ) hi.symm).trans
    ((View.write_emb_of_mem _ _ (Finset.mem_univ _)).trans rfl)

theorem write_back3 (c : Dev nD) (G₀ : Buf (Elt F) ((cfg0.win 3).arr.view.loc (c.tc : Thread nD τ)))
    (X : (cfg0.win 3).block.Idx → Elt F (cfg0.win 3).elt) :
    ((cfg0.win 3).blk tLast).view.write (Elt F) G₀ ((cfg0.win 3).cut (cfg0.grid.coords tLast) X) Finset.univ = X := by
  funext i
  have hi : ((cfg0.win 3).blk tLast).view.emb i = i := by
    funext a; apply Fin.ext
    match a with
    | ⟨0, _⟩ =>
      show win0_3.index tLast (0 : Fin 1) * 4 + 1 * (i 0).val = (i 0).val
      rw [idx3_last]; omega
  exact (congrArg (((cfg0.win 3).blk tLast).view.write (Elt F) G₀ ((cfg0.win 3).cut (cfg0.grid.coords tLast) X) Finset.univ) hi.symm).trans
    ((View.write_emb_of_mem _ _ (Finset.mem_univ _)).trans rfl)

/-- Whatever the relation admits of result array 2 after the region is the fold of the 256 points from some start. -/
theorem arrAt2_chain (c : Dev nD) (F2 : Buf (Elt F) ((cfg0.win 2).arr.view.loc (c.tc : Thread nD τ)))
    (h : (rdat m 0 c).ArrAt 2 cfg0.N F2) : ∃ y, F2 = a2Chain m c y 256 := by
  obtain ⟨G₀, X, hX, hF⟩ := arrAt2_last m c F2 h
  obtain ⟨y, hy⟩ := leaves2 m c 255 tLast rfl X hX
  exact ⟨y, hF.trans ((write_back2 c G₀ X).trans hy)⟩

/-- Whatever the relation admits of result array 3 after the region is the fold of the 256 points from some start. -/
theorem arrAt3_chain (c : Dev nD) (F3 : Buf (Elt F) ((cfg0.win 3).arr.view.loc (c.tc : Thread nD τ)))
    (h : (rdat m 0 c).ArrAt 3 cfg0.N F3) : ∃ y, F3 = a3Chain m c y 256 := by
  obtain ⟨G₀, X, hX, hF⟩ := arrAt3_last m c F3 h
  obtain ⟨y, hy⟩ := leaves3 m c 255 tLast rfl X hX
  exact ⟨y, hF.trans ((write_back3 c G₀ X).trans hy)⟩

end Cert.KernelIdeal.Body

end
-- ==== Proof.TileFold.lean ====
/-
  The tile-by-tile accumulation, as pure mathematics over the extended reals.

  A 4 × 8 × 8 grid of points t = 64·b + 8·n + m is swept in order. At point (b, n, m) a 1024 × 1024 tile of numbers
  `D b n m r c` is available (row r of row-tile n against column c of column-tile m, in batch b). Four accumulators are
  carried from point to point:

    rm : one running minimum per row of the current row-tile, restarted (from +∞) whenever m = 0, and after the point
         the minimum of what it was and the tile's row minimum;
    cm : one running minimum per column of ALL 8192 columns, restarted whenever n = 0 and m = 0; the point updates only
         the 1024 columns of column-tile m, each to the minimum of what it was and the tile's column minimum;
    a2 : one sum per batch; slot b is set to 0 when n = 0 and m = 0, and when m = 7 the sum of the finished rm is added;
    a3 : one sum per batch; slot b is set to 0 when n = 0 and m = 0, and when n = 7 and m = 7 the sum of the finished
         cm is added.

  Whatever the accumulators held before the sweep, after all 256 points slot k of a2 is the sum over all rows of batch k
  of the row's minimum over all columns, and slot k of a3 the sum over all columns of the column's minimum over all rows
  (`sweep_a2`, `sweep_a3`, proved in the companion module).
-/
import Mathlib.Data.EReal.Basic
import Mathlib.Algebra.BigOperators.Fin
import Mathlib.Order.CompleteLattice.Basic

open scoped BigOperators

noncomputable section

namespace Cert.TileFold

/-- The coordinates of grid point `t`. -/
def bOf (t : ℕ) : ℕ := t / 64
def nOf (t : ℕ) : ℕ := t / 8 % 8
def mOf (t : ℕ) : ℕ := t % 8

/-- The four accumulators. -/
structure St where
  a2 : Fin 4 → EReal
  a3 : Fin 4 → EReal
  rm : Fin 1024 → EReal
  cm : Fin 8192 → EReal

/-- A column's position inside its column-tile. -/
def colIn (j : Fin 8192) : Fin 1024 := ⟨j.val % 1024, Nat.mod_lt _ (by decide)⟩

variable (D : ℕ → ℕ → ℕ → Fin 1024 → Fin 1024 → EReal)

/-- The running row minima after point `t`. -/
def rmStep (t : ℕ) (rm : Fin 1024 → EReal) : Fin 1024 → EReal := fun r =>
  min (if mOf t = 0 then ⊤ else rm r) (⨅ c : Fin 1024, D (bOf t) (nOf t) (mOf t) r c)

/-- The running column minima after point `t`. -/
def cmStep (t : ℕ) (cm : Fin 8192 → EReal) : Fin 8192 → EReal := fun j =>
  if j.val / 1024 = mOf t then
    min (if nOf t = 0 ∧ mOf t = 0 then ⊤ else cm j) (⨅ r : Fin 1024, D (bOf t) (nOf t) (mOf t) r (colIn j))
  else (if nOf t = 0 ∧ mOf t = 0 then ⊤ else cm j)

/-- Slot `b` set to zero at the first point of a batch. -/
def reset (t : ℕ) (a : Fin 4 → EReal) : Fin 4 → EReal := fun k =>
  if nOf t = 0 ∧ mOf t = 0 ∧ k.val = bOf t then 0 else a k

/-- The per-batch row sums after point `t`, given the row minima `rm'` the point leaves. -/
def a2Step (t : ℕ) (rm' : Fin 1024 → EReal) (a2 : Fin 4 → EReal) : Fin 4 → EReal := fun k =>
  if mOf t = 7 ∧ k.val = bOf t then reset t a2 k + ∑ r : Fin 1024, rm' r else reset t a2 k

/-- The per-batch column sums after point `t`, given the column minima `cm'` the point leaves. -/
def a3Step (t : ℕ) (cm' : Fin 8192 → EReal) (a3 : Fin 4 → EReal) : Fin 4 → EReal := fun k =>
  if nOf t = 7 ∧ mOf t = 7 ∧ k.val = bOf t then reset t a3 k + ∑ j : Fin 8192, cm' j else reset t a3 k

/-- One point of the sweep. -/
def step (t : ℕ) (s : St) : St :=
  { rm := rmStep D t s.rm
    cm := cmStep D t s.cm
    a2 := a2Step t (rmStep D t s.rm) s.a2
    a3 := a3Step t (cmStep D t s.cm) s.a3 }

/-- The accumulators before point `t`, from `s` before point 0. -/
def upTo (s : St) : ℕ → St
  | 0 => s
  | t + 1 => step D t (upTo s t)

end Cert.TileFold

end
-- ==== Proof.GridI.lean ====
/-
  The grid's arithmetic, and the two input blocks read off their arrays.

  The 4 × 8 × 8 grid is swept in row-major order: point t has batch b = t / 64, point-tile n = t / 8 % 8 and target-tile
  m = t % 8. The four conditions the body branches on are equations between these coordinates and 0 or 7, and the
  offsets of its slot and column accesses are b and 1024 · m. Window 0 hands the body rows 1024 · n … 1024 · n + 1023 of
  batch b of the first cloud, window 1 rows 1024 · m … 1024 · m + 1023 of batch b of the second: a block's coordinate on
  an axis is the block index times the block's size plus the coordinate inside the block.
-/
import proofs.«118967_j45406394253979_1_alg».proof.Proof.DataI
import proofs.«118967_j45406394253979_1_alg».proof.Proof.TileFold
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx Cert.TileFold

/-! ## The coordinates of a point -/

theorem coords0 : ∀ t : Fin cfg0.N, (grid0.coords t 0).val = bOf t.val :=
  (by decide +kernel : ∀ t : Fin grid0.N, (grid0.coords t 0).val = bOf t.val)
theorem coords1 : ∀ t : Fin cfg0.N, (grid0.coords t 1).val = nOf t.val :=
  (by decide +kernel : ∀ t : Fin grid0.N, (grid0.coords t 1).val = nOf t.val)
theorem coords2 : ∀ t : Fin cfg0.N, (grid0.coords t 2).val = mOf t.val :=
  (by decide +kernel : ∀ t : Fin grid0.N, (grid0.coords t 2).val = mOf t.val)

theorem point_lt (t : Fin cfg0.N) : t.val < 256 := lt_of_lt_of_eq t.isLt N_0
theorem bOf_lt (t : Fin cfg0.N) : bOf t.val < 4 := by have := point_lt t; unfold bOf; omega
theorem nOf_lt (t : Fin cfg0.N) : nOf t.val < 8 := by unfold nOf; omega
theorem mOf_lt (t : Fin cfg0.N) : mOf t.val < 8 := by unfold mOf; omega
/-- Row `r` of point-tile `n` is a row of the cloud. -/
theorem rowN_lt (t : Fin cfg0.N) (r : Fin 1024) : 1024 * nOf t.val + r.val < 8192 := by
  have := nOf_lt t; have := r.isLt; omega
/-- Row `r` of target-tile `m` is a row of the cloud. -/
theorem rowM_lt (t : Fin cfg0.N) (r : Fin 1024) : 1024 * mOf t.val + r.val < 8192 := by
  have := mOf_lt t; have := r.isLt; omega

/-! ## The four conditions -/

theorem c1_iff : ∀ t : Fin cfg0.N, c1 (grid0.coords t) ↔ nOf t.val = 0 ∧ mOf t.val = 0 :=
  (by decide +kernel : ∀ t : Fin grid0.N, c1 (grid0.coords t) ↔ nOf t.val = 0 ∧ mOf t.val = 0)
theorem c2_iff : ∀ t : Fin cfg0.N, c2 (grid0.coords t) ↔ mOf t.val = 0 :=
  (by decide +kernel : ∀ t : Fin grid0.N, c2 (grid0.coords t) ↔ mOf t.val = 0)
theorem c3_iff : ∀ t : Fin cfg0.N, c3 (grid0.coords t) ↔ mOf t.val = 7 :=
  (by decide +kernel : ∀ t : Fin grid0.N, c3 (grid0.coords t) ↔ mOf t.val = 7)
theorem c4_iff : ∀ t : Fin cfg0.N, c4 (grid0.coords t) ↔ nOf t.val = 7 ∧ mOf t.val = 7 :=
  (by decide +kernel : ∀ t : Fin grid0.N, c4 (grid0.coords t) ↔ nOf t.val = 7 ∧ mOf t.val = 7)

/-! ## The offsets -/

theorem off1_eq (t : Fin cfg0.N) : k0_off1 (grid0.coords t) = ![bOf t.val] := by rw [k0_off1_eq, coords0]
theorem off2_eq (t : Fin cfg0.N) : k0_off2 (grid0.coords t) = ![0, 1024 * mOf t.val] := by rw [k0_off2_eq, coords2]
theorem off3_eq (t : Fin cfg0.N) : k0_off3 (grid0.coords t) = ![bOf t.val] := by rw [k0_off3_eq, coords0]
theorem off4_eq (t : Fin cfg0.N) : k0_off4 (grid0.coords t) = ![bOf t.val] := by rw [k0_off4_eq, coords0]

/-! ## The input blocks -/

/-- The printed index maps of the two input windows, decided over the grid. -/
theorem idx0_facts : ∀ t : Fin cfg0.N, win0_0.index t (0 : Fin 3) = bOf t.val ∧ win0_0.index t (1 : Fin 3) = nOf t.val
    ∧ win0_0.index t (2 : Fin 3) = 0 :=
  (by decide +kernel : ∀ t : Fin grid0.N, win0_0.index t (0 : Fin 3) = bOf t.val ∧ win0_0.index t (1 : Fin 3) = nOf t.val
    ∧ win0_0.index t (2 : Fin 3) = 0)
theorem idx1_facts : ∀ t : Fin cfg0.N, win0_1.index t (0 : Fin 3) = bOf t.val ∧ win0_1.index t (1 : Fin 3) = mOf t.val
    ∧ win0_1.index t (2 : Fin 3) = 0 :=
  (by decide +kernel : ∀ t : Fin grid0.N, win0_1.index t (0 : Fin 3) = bOf t.val ∧ win0_1.index t (1 : Fin 3) = mOf t.val
    ∧ win0_1.index t (2 : Fin 3) = 0)

variable {F : FTy → Type} [FloatOps F] (m : (ℓ : Loc nD τ sig) → Buf (Elt F) ℓ)

/-- The block of points at `t`, at (row `r`, coordinate `k`): row `1024 · n + r` of batch `b` of the first cloud. -/
theorem iblk0_apply (c : Dev nD) (t : Fin cfg0.N) (r : Fin 1024) (k : Fin 3) :
    iblk m c 0 t (ix3 (0 : Fin 1) r k)
      = m ((c : Thread nD τ).loc main_arg0) (ix3 (⟨bOf t.val, bOf_lt t⟩ : Fin 4) (⟨1024 * nOf t.val + r.val, rowN_lt t r⟩ : Fin 8192) k) := by
  obtain ⟨e0, e1, e2⟩ := idx0_facts t
  show V m c main_arg0 (((cfg0.win 0).blk t).view.emb (ix3 (0 : Fin 1) r k)) = V m c main_arg0 _
  refine congrArg (V m c main_arg0) (funext fun a => Fin.ext ?_)
  match a with
  | ⟨0, _⟩ => show win0_0.index t (0 : Fin 3) * 1 + 1 * 0 = bOf t.val; omega
  | ⟨1, _⟩ => show win0_0.index t (1 : Fin 3) * 1024 + 1 * r.val = 1024 * nOf t.val + r.val; omega
  | ⟨2, _⟩ => show win0_0.index t (2 : Fin 3) * 3 + 1 * k.val = k.val; omega

/-- The block of targets at `t`, at (row `r`, coordinate `k`): row `1024 · m + r` of batch `b` of the second cloud. -/
theorem iblk1_apply (c : Dev nD) (t : Fin cfg0.N) (r : Fin 1024) (k : Fin 3) :
    iblk m c 1 t (ix3 (0 : Fin 1) r k)
      = m ((c : Thread nD τ).loc main_arg1) (ix3 (⟨bOf t.val, bOf_lt t⟩ : Fin 4) (⟨1024 * mOf t.val + r.val, rowM_lt t r⟩ : Fin 8192) k) := by
  obtain ⟨e0, e1, e2⟩ := idx1_facts t
  show V m c main_arg1 (((cfg0.win 1).blk t).view.emb (ix3 (0 : Fin 1) r k)) = V m c main_arg1 _
  refine congrArg (V m c main_arg1) (funext fun a => Fin.ext ?_)
  match a with
  | ⟨0, _⟩ => show win0_1.index t (0 : Fin 3) * 1 + 1 * 0 = bOf t.val; omega
  | ⟨1, _⟩ => show win0_1.index t (1 : Fin 3) * 1024 + 1 * r.val = 1024 * mOf t.val + r.val; omega
  | ⟨2, _⟩ => show win0_1.index t (2 : Fin 3) * 3 + 1 * k.val = k.val; omega

end Cert.KernelIdeal.Body

end
-- ==== Proof.LibBlockMin.lean ====
/-
  Minima over finite families, in any complete linear order (the extended reals, where the distances of this
  certificate live).

  * a fold of `min` from the top element over a finite type is the infimum of the family;
  * an infimum over the first `T * k` positions of a row, block after block of `T` positions: over no block it is the
    top element, one more block adds the minimum with that block's infimum, and over all the blocks of the row it
    is the infimum over the whole row.

  These are what lets a minimum taken tile by tile (a running minimum over key tiles in a loop, a running minimum
  over query tiles across grid points) be read as ONE minimum over the row.
-/
import Mathlib.Order.CompleteLattice.Basic
import Mathlib.Order.CompleteLattice.Finset
import Mathlib.Data.Finset.Fold
import Mathlib.Data.Fintype.Basic
import Mathlib.Order.Lattice
import Mathlib.Tactic

namespace Cert.LibBlockMin

variable {α : Type*} [CompleteLinearOrder α]

/-- The fold of `min` from `⊤` over a finite set is the infimum over the set. -/
theorem fold_min_eq_biInf {ι : Type*} (f : ι → α) (s : Finset ι) :
    s.fold min ⊤ f = ⨅ k ∈ s, f k := by
  classical
  induction s using Finset.induction_on with
  | empty => simp
  | insert a s ha ih =>
    rw [Finset.fold_insert ha, ih, Finset.iInf_insert]

/-- The fold of `min` from `⊤` over a whole finite type is the infimum of the family. -/
theorem fold_min_eq_iInf {ι : Type*} [Fintype ι] (f : ι → α) :
    (Finset.univ : Finset ι).fold min ⊤ f = ⨅ k, f k := by
  rw [fold_min_eq_biInf]; simp

/-- Over no block the infimum is the top element. -/
theorem biInf_block_zero {N : ℕ} (T : ℕ) (f : Fin N → α) :
    (⨅ m : Fin N, ⨅ (_ : m.val < T * 0), f m) = ⊤ := by
  simp

/-- One more block: the infimum over the first `T * (k + 1)` positions is the minimum of the infimum over the
    first `T * k` and the infimum over block `k`. -/
theorem biInf_block_succ {N : ℕ} (T k : ℕ) (h : T * (k + 1) ≤ N) (f : Fin N → α) :
    (⨅ m : Fin N, ⨅ (_ : m.val < T * (k + 1)), f m)
      = min (⨅ m : Fin N, ⨅ (_ : m.val < T * k), f m)
          (⨅ q : Fin T, f ⟨T * k + q.val, by have := q.isLt; rw [Nat.mul_succ] at h; omega⟩) := by
  have hs : T * (k + 1) = T * k + T := Nat.mul_succ T k
  apply le_antisymm
  · refine le_min ?_ ?_
    · refine le_iInf₂ fun m hm => iInf₂_le m (by omega)
    · refine le_iInf fun q => iInf₂_le (⟨T * k + q.val, by have := q.isLt; omega⟩ : Fin N) ?_
      have := q.isLt
      show T * k + q.val < T * (k + 1)
      omega
  · refine le_iInf₂ fun m hm => ?_
    by_cases hlt : m.val < T * k
    · exact (min_le_left _ _).trans (iInf₂_le m hlt)
    · refine (min_le_right _ _).trans ((iInf_le _ (⟨m.val - T * k, by omega⟩ : Fin T)).trans (le_of_eq ?_))
      exact congrArg f (Fin.ext (by show T * k + (m.val - T * k) = m.val; omega))

/-- Over all the blocks of the row: the infimum over the whole row. -/
theorem biInf_block_full {N : ℕ} (B : ℕ) (h : N ≤ B) (f : Fin N → α) :
    (⨅ m : Fin N, ⨅ (_ : m.val < B), f m) = ⨅ m : Fin N, f m :=
  iInf_congr fun m => iInf_pos (lt_of_lt_of_le m.isLt h)

end Cert.LibBlockMin
-- ==== Proof.PayloadsI.lean ====
/-
  The payload terms of the distance-tile accumulation, read at an index at the exact (extended-real) values.

  Each payload is a composition of vector operations; read at one index, at the instance where every float operation
  is the exact one on the extended reals, it is an ordinary expression in the entries of its arguments:

    * the two constant payloads that restart a sum are 0 at their one index, and the two that restart a running minimum
      are +∞ at every index (the words 0x00000000 and 0x7F800000 denote 0 and +∞);
    * the payload that closes a sum adds to the slot's old value the sum of ALL entries of a column of 1024 (or a row
      of 8192) running minima: a reduction over every non-unit axis is the total sum, and a reshape only re-indexes it;
    * the payload that updates the running column minima takes, at column c, the minimum of the old value and the
      infimum over the 1024 rows r of the tile's entry (r, c): a fold of min from +∞ over a finite set is the infimum;
    * likewise the running row minima at row r: the minimum of the old value and the infimum over the 1024 columns c
      of the tile's entry (r, c);
    * the tile's entry (r, c) itself is max(|p_r|² + |q_c|² − w·⟨p_r, q_c⟩, z), where p_r and q_c are point r of the first
      block and point c of the second (three coordinates each), |·|² and ⟨·,·⟩ are the sums over the three coordinates
      of the products, and w and z are what the words 0x40000000 and 0x00000000 denote: a sum along one axis is the
      sum over that axis's coordinates, a product of two 1024 × 3 blocks contracted along the coordinates into a zero
      accumulator is the sum of the three products, and the reshapes, the transpose and the broadcasts only re-index.

  No finiteness is assumed anywhere: only 0 + x = x, min(+∞, x) = x and the commutative-monoid and lattice laws are used.
-/
import proofs.«118967_j45406394253979_1_alg».proof.Proof.Gen.KernelIdeal.Skeleton
import proofs.«118967_j45406394253979_1_alg».proof.Proof.LibBlockMin
import Idealize.ShloMosaic.Lib.ValueIdx
import Idealize.ShloMosaic.Lib.Pipeline.Value
import Idealize.ShloMosaic.Lib.ValueLayout
import Idealize.ShloMosaic.PureOps.Ideal.Laws

open scoped BigOperators

noncomputable section

namespace Cert.KernelIdeal.Payloads

open Cert.KernelIdeal Cert.KernelIdeal.Gen Idealize.ShloMosaic Idealize.ShloMosaic.ValueIdx

/-! ### The two constant words -/

/-- The word 0x7F800000 denotes +∞. -/
theorem ofBits_inf_f32 : Ideal.ofBits .f32 0x7F800000#32 = ⊤ := by simp [Ideal.ofBits, Ideal.ieee]

/-! ### The constant payloads -/

/-- The payload that restarts a row sum is 0. -/
theorem pay5_apply : k0_pay5 (F := Ideal) (ix1 0) = 0 := Ideal.ofBits_zero_f32

/-- The payload that restarts a column sum is 0. -/
theorem pay6_apply : k0_pay6 (F := Ideal) (ix1 0) = 0 := Ideal.ofBits_zero_f32

/-- The payload that restarts the running column minima is +∞ at every column. -/
theorem pay7_apply (j : Fin 8192) : k0_pay7 (F := Ideal) (ix2 0 j) = ⊤ := ofBits_inf_f32

/-- The payload that restarts the running row minima is +∞ at every row. -/
theorem pay8_apply (r : Fin 1024) : k0_pay8 (F := Ideal) (ix2 r 0) = ⊤ := ofBits_inf_f32

/-! ### The payloads that close a sum -/

/-- A sum over a family indexed by `Fin 1` is its one term. -/
theorem sum_fin_one {M : Type*} [AddCommMonoid M] (f : Fin 1 → M) : ∑ b : Fin 1, f b = f 0 := by
  simp

/-- The total of a column of 1024 entries, viewed as a 1 × 1024 × 1 array and summed over its last two axes. -/
theorem total_col (v54 : Vec Ideal S1024x1 .f32) (j : S1.Idx) :
    multiReduction (F := Ideal) .add [1, 2] S1 (shapeCast S1x1024x1 v54 shapeCasts_S1024x1_S1x1024x1)
        0x00000000#32 reduces_S1x1024x1_S1 (.inl rfl) rfl j
      = ∑ r : Fin 1024, v54 (ix2 r 0) := by
  refine (Ideal.multiReduction_add_total _ _ reduces_S1x1024x1_S1 (by decide) _ _ j).trans ?_
  refine (Equiv.sum_comp (Shape.reshapeEquiv shapeCasts_S1024x1_S1x1024x1) v54).trans ?_
  rw [sum_idx2]
  exact Finset.sum_congr rfl fun r _ => sum_fin_one fun b => v54 (ix2 r b)

/-- The total of a row of 8192 entries, viewed as a 1 × 1 × 8192 array and summed over its last two axes. -/
theorem total_row (v54 : Vec Ideal S1x8192 .f32) (j : S1.Idx) :
    multiReduction (F := Ideal) .add [1, 2] S1 (shapeCast S1x1x8192 v54 shapeCasts_S1x8192_S1x1x8192)
        0x00000000#32 reduces_S1x1x8192_S1 (.inl rfl) rfl j
      = ∑ c : Fin 8192, v54 (ix2 0 c) := by
  refine (Ideal.multiReduction_add_total _ _ reduces_S1x1x8192_S1 (by decide) _ _ j).trans ?_
  refine (Equiv.sum_comp (Shape.reshapeEquiv shapeCasts_S1x8192_S1x1x8192) v54).trans ?_
  rw [sum_idx2]
  exact sum_fin_one fun a => ∑ c : Fin 8192, v54 (ix2 a c)

/-- The payload that closes a row sum: the slot's old value plus the sum of the 1024 finished row minima. -/
theorem pay3_apply (v54 : Vec Ideal S1024x1 .f32) (v60 : Vec Ideal S1 .f32) :
    k0_pay3 (F := Ideal) v54 v60 (ix1 0) = v60 (ix1 0) + ∑ r : Fin 1024, v54 (ix2 r 0) := by
  unfold Gen.k0_pay3
  refine (addf_apply _ _ _).trans ?_
  refine congrArg₂ (· + ·) (congrFun (shapeCast_self v60 shapeCasts_S1_S1) (ix1 0)) ?_
  exact total_col v54 _

/-- The payload that closes a column sum: the slot's old value plus the sum of the 8192 finished column minima. -/
theorem pay4_apply (v54 : Vec Ideal S1x8192 .f32) (v60 : Vec Ideal S1 .f32) :
    k0_pay4 (F := Ideal) v54 v60 (ix1 0) = v60 (ix1 0) + ∑ c : Fin 8192, v54 (ix2 0 c) := by
  unfold Gen.k0_pay4
  refine (addf_apply _ _ _).trans ?_
  refine congrArg₂ (· + ·) (congrFun (shapeCast_self v60 shapeCasts_S1_S1) (ix1 0)) ?_
  exact total_row v54 _

/-! ### A minimum taken along one axis -/

/-- A minimum-reduction over ONE axis, read at the exact values: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- From the word of +∞ it is the infimum over that axis's coordinates. -/
theorem multiReduction_minimumf_inf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_single]
  show (Finset.univ : Finset (Fin (s.size a))).fold min (Ideal.ofBits .f32 0x7F800000#32) (src ∘ h.lift j) = _
  rw [ofBits_inf_f32]
  exact Cert.LibBlockMin.fold_min_eq_iInf (src ∘ h.lift j)

/-- A vector of `a` entries viewed as an `a × 1` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ### The running minima -/

/-- The payload that updates the running column minima: at column `c`, the minimum of the old value and the infimum
    over the rows of the tile's column `c`. -/
theorem pay2_apply (D : FVec Ideal S1024x1024 .f32) (v38 : Vec Ideal S1x1024 .f32) (c : Fin 1024) :
    k0_pay2 (F := Ideal) D v38 (ix2 0 c) = min (v38 (ix2 0 c)) (⨅ r : Fin 1024, D (ix2 r c)) := by
  unfold Gen.k0_pay2
  refine (congrFun (shapeCast_self _ shapeCasts_S1x1024_S1x1024) (ix2 0 c)).trans ?_
  refine (minimumf_apply _ _ _).trans ?_
  refine congrArg (min (v38 (ix2 0 c))) ?_
  refine (shapeCast_a_1a_apply _ shapeCasts_S1024_S1x1024 (0 : Fin 1) c).trans ?_
  refine (multiReduction_minimumf_inf D reduces_S1024x1024_S1024_2 _ _ (ix1 c)).trans ?_
  refine iInf_congr fun r => congrArg D ?_
  funext ax
  match ax with
  | ⟨0, _⟩ => exact Fin.ext rfl
  | ⟨1, _⟩ => exact Fin.ext rfl

/-- The payload that updates the running row minima, as it is stored: at row `r`, the minimum of the old value and
    the infimum over the columns of the tile's row `r`. -/
theorem pay10_apply (x0 x1 : Vec Ideal S1x1024x3 .f32) (rm : Vec Ideal S1024x1 .f32) (r : Fin 1024) :
    k0_pay1 (F := Ideal) (k0_pay10 (F := Ideal) x0 x1 rm) (ix2 r 0)
      = min (rm (ix2 r 0)) (⨅ c : Fin 1024, k0_pay9 (F := Ideal) x0 x1 (ix2 r c)) := by
  unfold Gen.k0_pay1 Gen.k0_pay10
  refine (congrFun (shapeCast_self _ shapeCasts_S1024x1_S1024x1) (ix2 r 0)).trans ?_
  refine (minimumf_apply _ _ _).trans ?_
  refine congrArg (min (rm (ix2 r 0))) ?_
  refine (shapeCast_a_a1_apply _ shapeCasts_S1024_S1024x1 r (0 : Fin 1)).trans ?_
  refine (multiReduction_minimumf_inf (k0_pay9 (F := Ideal) x0 x1) reduces_S1024x1024_S1024 _ _ (ix1 r)).trans ?_
  refine iInf_congr fun c => congrArg (k0_pay9 (F := Ideal) x0 x1) ?_
  funext ax
  match ax with
  | ⟨0, _⟩ => exact Fin.ext rfl
  | ⟨1, _⟩ => exact Fin.ext rfl

/-! ### The distance tile -/

/-- An `a × 1` column broadcast to `a × b` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The squared length of point `r` of a block of 1024 points in three coordinates, as the payload computes it: the
    block viewed 1024 × 3, squared entrywise, summed along the coordinates, kept as a column. -/
theorem sqNorm_apply (x : Vec Ideal S1x1024x3 .f32) (r : Fin 1024) (u : Fin 1) :
    shapeCast S1024x1
        (multiReduction (F := Ideal) .add [1] S1024
          (mulf (shapeCast S1024x3 x shapeCasts_S1x1024x3_S1024x3) (shapeCast S1024x3 x shapeCasts_S1x1024x3_S1024x3))
          0x00000000#32 reduces_S1024x3_S1024 (.inl rfl) rfl)
        shapeCasts_S1024_S1024x1 (ix2 r u)
      = ∑ k : Fin 3, x (ix3 0 r k) * x (ix3 0 r k) := by
  refine (shapeCast_a_a1_apply _ shapeCasts_S1024_S1024x1 r u).trans ?_
  refine (Ideal.multiReduction_add_single _ _ reduces_S1024x3_S1024 _ _ (ix1 r)).trans ?_
  refine Finset.sum_congr rfl fun k _ => ?_
  have hl : reduces_S1024x3_S1024.lift (ix1 r) k = ix2 r k := by
    funext ax
    match ax with
    | ⟨0, _⟩ => exact Fin.ext rfl
    | ⟨1, _⟩ => exact Fin.ext rfl
  have e : shapeCast S1024x3 x shapeCasts_S1x1024x3_S1024x3 (reduces_S1024x3_S1024.lift (ix1 r) k) = x (ix3 0 r k) :=
    (congrArg _ hl).trans (shapeCast_1ab_ab_apply x shapeCasts_S1x1024x3_S1024x3 r k)
  exact congrArg₂ (· * ·) e e

/-- The inner product of point `r` of one block and point `c` of the other, as the payload computes it: the product
    of the two blocks viewed 1024 × 3, contracted along the coordinates, into a zero accumulator. -/
theorem dot_apply (x0 x1 : Vec Ideal S1x1024x3 .f32) (r c : Fin 1024) :
    matmul (F := Ideal) (φ₁ := .f32) (φ₂ := .f32) dot_S1024x3_S1024x3_S1024x1024_1_1_0_0_n_n none
        (shapeCast S1024x3 x0 shapeCasts_S1x1024x3_S1024x3) (shapeCast S1024x3 x1 shapeCasts_S1x1024x3_S1024x3)
        (constant S1024x1024 .f32 0x00000000#32) (ix2 r c)
      = ∑ k : Fin 3, x0 (ix3 0 r k) * x1 (ix3 0 c k) := by
  refine (Ideal.matmul_constant_zero_apply (φ₁ := .f32) (φ₂ := .f32) dot_S1024x3_S1024x3_S1024x1024_1_1_0_0_n_n none _ _
    (ix2 r c)).trans ?_
  refine (Equiv.sum_comp (contrEquiv1 dot_S1024x3_S1024x3_S1024x1024_1_1_0_0_n_n 3 rfl rfl).symm _).symm.trans ?_
  refine Finset.sum_congr rfl fun k _ => ?_
  have hl : dot_S1024x3_S1024x3_S1024x1024_1_1_0_0_n_n.lhsIdx (ix2 r c)
      ((contrEquiv1 dot_S1024x3_S1024x3_S1024x1024_1_1_0_0_n_n 3 rfl rfl).symm k) = ix2 r k := by
    funext ax
    match ax with
    | ⟨0, _⟩ => exact Fin.ext rfl
    | ⟨1, _⟩ => exact Fin.ext rfl
  have hr : dot_S1024x3_S1024x3_S1024x1024_1_1_0_0_n_n.rhsIdx (ix2 r c)
      ((contrEquiv1 dot_S1024x3_S1024x3_S1024x1024_1_1_0_0_n_n 3 rfl rfl).symm k) = ix2 c k := by
    funext ax
    match ax with
    | ⟨0, _⟩ => exact Fin.ext rfl
    | ⟨1, _⟩ => exact Fin.ext rfl
  exact congrArg₂ (· * ·)
    ((congrArg _ hl).trans (shapeCast_1ab_ab_apply x0 shapeCasts_S1x1024x3_S1024x3 r k))
    ((congrArg _ hr).trans (shapeCast_1ab_ab_apply x1 shapeCasts_S1x1024x3_S1024x3 c k))

/-- The distance tile at `(r, c)`: the larger of 0 and the squared length of point `r` of the first block plus the
    squared length of point `c` of the second minus twice their inner product (the words 0x40000000 and 0x00000000
    are kept as written). -/
theorem pay9_apply (x0 x1 : Vec Ideal S1x1024x3 .f32) (r c : Fin 1024) :
    k0_pay9 (F := Ideal) x0 x1 (ix2 r c)
      = max (((∑ k : Fin 3, x0 (ix3 0 r k) * x0 (ix3 0 r k)) + (∑ k : Fin 3, x1 (ix3 0 c k) * x1 (ix3 0 c k)))
            - Ideal.ofBits .f32 0x40000000#32 * (∑ k : Fin 3, x0 (ix3 0 r k) * x1 (ix3 0 c k)))
          (Ideal.ofBits .f32 0x00000000#32) := by
  unfold Gen.k0_pay9
  refine (maximumf_apply _ _ _).trans ?_
  refine congrArg₂ max ?_ rfl
  refine (subf_apply _ _ _).trans ?_
  refine congrArg₂ (· - ·) ?_ ?_
  · refine (addf_apply _ _ _).trans ?_
    refine congrArg₂ (· + ·) ?_ ?_
    · refine (broadcastTo_a1_ab_apply _ broadcasts_S1024x1_S1024x1024 r c).trans ?_
      exact sqNorm_apply x0 r 0
    · refine (broadcastTo_1b_ab_apply _ broadcasts_S1x1024_S1024x1024 r c).trans ?_
      refine (transpose_ix2_apply _ transposes_S1024x1_p1_0_S1x1024 (0 : Fin 1) c).trans ?_
      exact sqNorm_apply x1 c 0
  · refine (mulf_apply _ _ _).trans ?_
    refine congrArg₂ (· * ·) rfl ?_
    exact dot_apply x0 x1 r c

end Cert.KernelIdeal.Payloads

end
-- ==== Proof.SimI.lean ====
/-
  The kernel's running minima, read entry by entry, are the abstract sweep's.

  At grid point t = 64·b + 8·n + m the staged tiles are rows 1024·n … of the first cloud and rows 1024·m … of the second,
  both of batch b, so the tile of clipped squared distances the body computes is entry (r, c) ↦ dist b (1024·n + r)
  (1024·m + c): the abstract machine's `D b n m r c`. With that, the row-minima step and the column-minima step of the
  body, read at one row and at one column, are the machine's `rmStep` and `cmStep`.
-/
import proofs.«118967_j45406394253979_1_alg».proof.Proof.ChainI
import proofs.«118967_j45406394253979_1_alg».proof.Proof.GridI
import proofs.«118967_j45406394253979_1_alg».proof.Proof.PayloadsI
import proofs.«118967_j45406394253979_1_alg».proof.Proof.ChamferSpec
import proofs.«118967_j45406394253979_1_alg».proof.Proof.TileFold

noncomputable section

open scoped BigOperators

namespace Cert.KernelIdeal.Body

open Cert.KernelIdeal Cert.KernelIdeal.Gen
open Idealize.ShloMosaic Idealize.ShloMosaic.TcCoe Idealize.ShloMosaic.ValueIdx Cert.TileFold Cert.KernelIdeal.Payloads

variable (m : (ℓ : Loc nD τ sig) → Buf (Elt Ideal) ℓ) (c : Dev nD)

/-- The two clouds: the program's arguments as launched. -/
abbrev cloudP : FVec Ideal Cert.Chamfer.SPts .f32 := m ((c : Thread nD τ).loc main_arg0)
abbrev cloudQ : FVec Ideal Cert.Chamfer.SPts .f32 := m ((c : Thread nD τ).loc main_arg1)

/-- Entry (r, c) of the tile of distances at grid coordinates (b, n, m). -/
def Dt (b n mm : ℕ) (r cc : Fin 1024) : EReal :=
  if h : b < 4 ∧ n < 8 ∧ mm < 8 then
    Cert.Chamfer.dist (cloudP m c) (cloudQ m c) ⟨b, h.1⟩ ⟨1024 * n + r.val, by have := r.isLt; omega⟩
      ⟨1024 * mm + cc.val, by have := cc.isLt; omega⟩
  else 0

/-- The body's tile of distances at point `t` is the abstract tile at `t`'s coordinates. -/
theorem pay9_Dt (t : Fin cfg0.N) (r cc : Fin 1024) :
    k0_pay9 (F := Ideal) (iblk m c 0 t) (iblk m c 1 t) (ix2 r cc) = Dt m c (bOf t.val) (nOf t.val) (mOf t.val) r cc := by
  rw [pay9_apply]
  unfold Dt
  rw [dif_pos ⟨bOf_lt t, nOf_lt t, mOf_lt t⟩]
  unfold Cert.Chamfer.dist Cert.Chamfer.sq Cert.Chamfer.dotp
  simp only [iblk0_apply, iblk1_apply]

/-- The row-minima step at one row. -/
theorem sim_rm (t : Fin cfg0.N) (rm : Vec Ideal S1024x1 .f32) (r : Fin 1024) :
    rowStep (F := Ideal) (grid0.coords t) (iblk m c 0 t) (iblk m c 1 t) rm (ix2 r 0)
      = rmStep (Dt m c) t.val (fun r => rm (ix2 r 0)) r := by
  unfold rowStep rmStep
  rw [pay10_apply]
  by_cases h : mOf t.val = 0
  · rw [if_pos ((c2_iff t).mpr h), if_pos h, pay8_apply]
    exact congrArg (min ⊤) (iInf_congr fun cc => pay9_Dt m c t r cc)
  · rw [if_neg (fun hc => h ((c2_iff t).mp hc)), if_neg h]
    exact congrArg (min _) (iInf_congr fun cc => pay9_Dt m c t r cc)

/-- The column minima a point starts from, at one column. -/
theorem colBase_apply (t : Fin cfg0.N) (cm : Vec Ideal S1x8192 .f32) (j : Fin 8192) :
    colBase (F := Ideal) (grid0.coords t) cm (ix2 0 j) = if nOf t.val = 0 ∧ mOf t.val = 0 then ⊤ else cm (ix2 0 j) := by
  unfold colBase
  by_cases h : nOf t.val = 0 ∧ mOf t.val = 0
  · rw [if_pos ((c1_iff t).mpr h), if_pos h, pay7_apply]
  · rw [if_neg (fun hc => h ((c1_iff t).mp hc)), if_neg h]

/-- The column-minima step at one column. -/
theorem sim_cm (t : Fin cfg0.N) (cm : Vec Ideal S1x8192 .f32) (j : Fin 8192) :
    colStep (F := Ideal) (grid0.coords t) (iblk m c 0 t) (iblk m c 1 t) cm (ix2 0 j)
      = cmStep (Dt m c) t.val (fun j => cm (ix2 0 j)) j := by
  unfold colStep cmStep
  by_cases hj : j.val / 1024 = mOf t.val
  · rw [if_pos hj]
    have hjl := j.isLt
    have hmem : ∀ a : Fin 2, k0_off2 (grid0.coords t) a ≤ ((ix2 (0 : Fin 1) j) a).val
        ∧ ((ix2 (0 : Fin 1) j) a).val < k0_off2 (grid0.coords t) a + S1x1024.size a := by
      rw [off2_eq t]; intro a
      match a with
      | ⟨0, _⟩ => exact ⟨Nat.le_refl _, Nat.lt_succ_self _⟩
      | ⟨1, _⟩ =>
        show 1024 * mOf t.val ≤ j.val ∧ j.val < 1024 * mOf t.val + 1024
        omega
    rw [storeAt_of_mem _ _ _ _ _ _ hmem]
    have hloc : Rect.unitLocal (s := S1x8192) (off := k0_off2 (grid0.coords t)) (size := S1x1024.size) (ix2 (0 : Fin 1) j) hmem
        = ix2 (0 : Fin 1) (colIn j) := by
      funext a; apply Fin.ext
      rw [Rect.unitLocal_val]
      match a with
      | ⟨0, _⟩ => show 0 - k0_off2 (grid0.coords t) 0 = 0; exact Nat.zero_sub _
      | ⟨1, _⟩ =>
        show j.val - k0_off2 (grid0.coords t) 1 = j.val % 1024
        rw [off2_eq t]
        show j.val - 1024 * mOf t.val = j.val % 1024
        omega
    rw [hloc, pay2_apply]
    have hidx : (Rect.unit (s := S1x8192) (k0_off2 (grid0.coords t)) S1x1024.size (k0_off2_inb (grid0.coords t))).idx (ix2 (0 : Fin 1) (colIn j))
        = ix2 (0 : Fin 1) j := by
      funext a; apply Fin.ext
      match a with
      | ⟨0, _⟩ =>
        show k0_off2 (grid0.coords t) 0 + 1 * 0 = 0
        rw [off2_eq t]; rfl
      | ⟨1, _⟩ =>
        show k0_off2 (grid0.coords t) 1 + 1 * (j.val % 1024) = j.val
        rw [off2_eq t]
        show 1024 * mOf t.val + 1 * (j.val % 1024) = j.val
        omega
    show min (colBase (grid0.coords t) cm ((Rect.unit (s := S1x8192) (k0_off2 (grid0.coords t)) S1x1024.size (k0_off2_inb (grid0.coords t))).idx (ix2 (0 : Fin 1) (colIn j)))) _ = _
    rw [hidx, colBase_apply]
    exact congrArg (min _) (iInf_congr fun r => pay9_Dt m c t r (colIn j))
  · rw [if_neg hj]
    have hjl := j.isLt
    rw [storeAt_of_not_mem _ _ _ _ _ _ (1 : Fin 2) (by
      rw [off2_eq t]
      show j.val < 1024 * mOf t.val ∨ 1024 * mOf t.val + 1024 ≤ j.val
      omega), colBase_apply]

end Cert.KernelIdeal.Body

end
-- ==== Proof.SimSumsI.lean ====
/-
  The kernel's two per-batch-sum steps, read slot by slot, are the abstract sweep's.

  The body keeps the per-batch sums in two buffers of 4 slots. At a point of batch b it touches slot b only: at the
  first point of the batch it stores 0 there, and when a sweep of target tiles ends (for the row sums) or the batch ends
  (for the column sums) it loads the slot, adds the sum of the finished running minima, and stores the result back. A
  store through a one-slot rectangle at offset b changes slot b and no other, and the load through the same rectangle
  reads slot b; the conditions are the equations n = 0 ∧ m = 0, m = 7, and n = 7 ∧ m = 7 between the point's
  coordinates. Read at slot k this is the abstract machine's `reset`, `a2Step` and `a3Step`.
-/
import proofs.«118967_j45406394253979_1_alg».proof.Proof.GridI
import proofs.«118967_j45406394253979_1_alg».proof.Proof.PayloadsI

open scoped BigOperators

noncomputable section

namespace Cert.KernelIdeal.Body

open Cert.KernelIdeal Cert.KernelIdeal.Gen
open Idealize.ShloMosaic Idealize.ShloMosaic.ValueIdx Cert.TileFold Cert.KernelIdeal.Payloads

/-- Slot `k` is in the one-slot rectangle at offset `b` iff `k = b`. -/
theorem slot_mem {off : Fin S4.rank → ℕ} {b : ℕ} (ho : off = ![b]) (k : Fin 4) (hk : k.val = b) :
    ∀ a : Fin S4.rank, off a ≤ ((ix1 k : S4.Idx) a).val ∧ ((ix1 k : S4.Idx) a).val < off a + S1.size a := by
  subst ho
  intro a
  match a with
  | ⟨0, _⟩ => show b ≤ k.val ∧ k.val < b + 1; omega

/-- Inside it, slot `k` is the rectangle's one position. -/
theorem slot_local {off : Fin S4.rank → ℕ} (k : Fin 4)
    (h : ∀ a : Fin S4.rank, off a ≤ ((ix1 k : S4.Idx) a).val ∧ ((ix1 k : S4.Idx) a).val < off a + S1.size a) :
    Rect.unitLocal (s := S4) (off := off) (size := S1.size) (ix1 k) h = ix1 (0 : Fin 1) :=
  funext fun a => Fin.ext (by
    rw [Rect.unitLocal_val]
    match a with
    | ⟨0, _⟩ =>
      have := h ⟨0, by decide⟩
      show ((ix1 k : S4.Idx) ⟨0, _⟩).val - off ⟨0, _⟩ = 0
      have h1 : S1.size ⟨0, by decide⟩ = 1 := rfl
      omega)

/-- A store through the one-slot rectangle at offset `b`, read at slot `k = b`: the stored value. -/
theorem storeAt_slot_eq {α : Type} (old : S4.Idx → α) {off : Fin S4.rank → ℕ} (inb : ∀ a, off a + S1.size a ≤ S4.size a)
    (w : (Rect.unit off S1.size inb).shape.Idx → α) {b : ℕ} (ho : off = ![b]) (k : Fin 4) (hk : k.val = b) :
    storeAt old off S1.size inb w (ix1 k) = w (ix1 (0 : Fin 1)) := by
  rw [storeAt_of_mem old off S1.size inb w (ix1 k) (slot_mem ho k hk)]
  exact congrArg w (slot_local k _)

/-- Read at any other slot: what was there. -/
theorem storeAt_slot_ne {α : Type} (old : S4.Idx → α) {off : Fin S4.rank → ℕ} (inb : ∀ a, off a + S1.size a ≤ S4.size a)
    (w : (Rect.unit off S1.size inb).shape.Idx → α) {b : ℕ} (ho : off = ![b]) (k : Fin 4) (hk : k.val ≠ b) :
    storeAt old off S1.size inb w (ix1 k) = old (ix1 k) := by
  refine storeAt_of_not_mem old off S1.size inb w (ix1 k) ⟨0, by decide⟩ ?_
  subst ho
  show k.val < b ∨ b + 1 ≤ k.val
  omega

/-- The load through the one-slot rectangle at offset `b` reads slot `b`. -/
theorem ld_slot {Val : EltTy → Type} {e : EltTy} (X : S4.Idx → Val e) {off : Fin S4.rank → ℕ} (inb : ∀ a, off a + S1.size a ≤ S4.size a)
    {b : ℕ} (ho : off = ![b]) (k : Fin 4) (hk : k.val = b) :
    View.ld X (Rect.unit (s := S4) off S1.size inb) (ix1 (0 : Fin 1)) = X (ix1 k) := by
  show X ((Rect.unit (s := S4) off S1.size inb).idx (ix1 (0 : Fin 1))) = X (ix1 k)
  refine congrArg X (funext fun a => Fin.ext ?_)
  subst ho
  match a with
  | ⟨0, _⟩ => show b + 1 * 0 = k.val; omega

/-- The reset: slot b set to zero at the first point of a batch. -/
theorem accBase_apply (t : Fin cfg0.N) (a : Vec Ideal S4 .f32) (z : FVec Ideal S1 .f32) (hz : z (ix1 0) = 0) (k : Fin 4) :
    accBase (F := Ideal) (grid0.coords t) a z (ix1 k) = reset t.val (fun k => a (ix1 k)) k := by
  unfold accBase reset
  by_cases h1 : c1 (grid0.coords t)
  · rw [dif_pos h1]
    obtain ⟨hn, hm⟩ := (c1_iff t).mp h1
    by_cases hk : k.val = bOf t.val
    · rw [if_pos ⟨hn, hm, hk⟩, storeAt_slot_eq a _ z (off1_eq t) k hk, hz]
    · rw [if_neg (fun h => hk h.2.2), storeAt_slot_ne a _ z (off1_eq t) k hk]
  · rw [dif_neg h1, if_neg (fun h => h1 ((c1_iff t).mpr ⟨h.1, h.2.1⟩))]

/-- The per-batch row sums after a point, slot by slot. -/
theorem sim_a2 (t : Fin cfg0.N) (rm' : Vec Ideal S1024x1 .f32) (a2 : Vec Ideal S4 .f32) (k : Fin 4) :
    acc2Step (F := Ideal) (grid0.coords t) rm' a2 (ix1 k)
      = a2Step t.val (fun r : Fin 1024 => rm' (ix2 r 0)) (fun k : Fin 4 => a2 (ix1 k)) k := by
  unfold acc2Step a2Step
  by_cases h3 : c3 (grid0.coords t)
  · rw [dif_pos h3]
    have hm := (c3_iff t).mp h3
    by_cases hk : k.val = bOf t.val
    · rw [if_pos ⟨hm, hk⟩, storeAt_slot_eq _ _ _ (off3_eq t) k hk, pay3_apply, ld_slot _ _ (off3_eq t) k hk,
        accBase_apply t a2 _ pay5_apply k]
    · rw [if_neg (fun h => hk h.2), storeAt_slot_ne _ _ _ (off3_eq t) k hk, accBase_apply t a2 _ pay5_apply k]
  · rw [dif_neg h3, if_neg (fun h => h3 ((c3_iff t).mpr h.1)), accBase_apply t a2 _ pay5_apply k]

/-- The per-batch column sums after a point, slot by slot. -/
theorem sim_a3 (t : Fin cfg0.N) (cm' : Vec Ideal S1x8192 .f32) (a3 : Vec Ideal S4 .f32) (k : Fin 4) :
    acc3Step (F := Ideal) (grid0.coords t) cm' a3 (ix1 k)
      = a3Step t.val (fun j : Fin 8192 => cm' (ix2 0 j)) (fun k : Fin 4 => a3 (ix1 k)) k := by
  unfold acc3Step a3Step
  by_cases h4 : c4 (grid0.coords t)
  · rw [dif_pos h4]
    obtain ⟨hn, hm⟩ := (c4_iff t).mp h4
    by_cases hk : k.val = bOf t.val
    · rw [if_pos ⟨hn, hm, hk⟩, storeAt_slot_eq _ _ _ (off4_eq t) k hk, pay4_apply, ld_slot _ _ (off4_eq t) k hk,
        accBase_apply t a3 _ pay6_apply k]
    · rw [if_neg (fun h => hk h.2.2), storeAt_slot_ne _ _ _ (off4_eq t) k hk, accBase_apply t a3 _ pay6_apply k]
  · rw [dif_neg h4, if_neg (fun h => h4 ((c4_iff t).mpr ⟨h.1, h.2.1⟩)), accBase_apply t a3 _ pay6_apply k]

end Cert.KernelIdeal.Body

end
-- ==== Proof.TileFoldWhole.lean ====
/-
  Eight tiles of 1024 positions make up the 8192 positions of a row: position j of the row is position j % 1024 of
  tile j / 1024, and position c of tile m is position 1024·m + c of the row. This correspondence is a bijection
  between (tile, position in the tile) pairs and positions of the row, so a sum over all 8192 positions is the sum
  over the eight tiles of the sum over each tile's 1024 positions, and likewise for an infimum. The sums may be taken
  in any commutative additive monoid and the infima in any complete lattice.
-/
import proofs.«118967_j45406394253979_1_alg».proof.Proof.TileFold
import Mathlib.Data.Fintype.BigOperators
import Mathlib.Tactic

open scoped BigOperators

noncomputable section

namespace Cert.TileFold

/-- Tile `p.1` and position `p.2` inside it, against position `1024 · p.1 + p.2` of the whole row. -/
def tileEquiv : Fin 8 × Fin 1024 ≃ Fin 8192 where
  toFun p := ⟨1024 * p.1.val + p.2.val, by have := p.1.isLt; have := p.2.isLt; omega⟩
  invFun j := (⟨j.val / 1024, by have := j.isLt; omega⟩, ⟨j.val % 1024, Nat.mod_lt _ (by decide)⟩)
  left_inv p := by
    obtain ⟨m, c⟩ := p
    have h1 := m.isLt
    have h2 := c.isLt
    refine Prod.ext (Fin.ext ?_) (Fin.ext ?_)
    · show (1024 * m.val + c.val) / 1024 = m.val
      omega
    · show (1024 * m.val + c.val) % 1024 = c.val
      omega
  right_inv j := Fin.ext (by
    show 1024 * (j.val / 1024) + j.val % 1024 = j.val
    omega)

theorem tileEquiv_val (m : Fin 8) (c : Fin 1024) : (tileEquiv (m, c)).val = 1024 * m.val + c.val := rfl

/-- The tile of position `1024 · m + c` is `m`. -/
theorem tileEquiv_div (m : Fin 8) (c : Fin 1024) : (tileEquiv (m, c)).val / 1024 = m.val := by
  have h2 := c.isLt
  rw [tileEquiv_val]
  omega

/-- The position of `1024 · m + c` inside its tile is `c`. -/
theorem colIn_tileEquiv (m : Fin 8) (c : Fin 1024) : colIn (tileEquiv (m, c)) = c := by
  have h2 := c.isLt
  apply Fin.ext
  show (tileEquiv (m, c)).val % 1024 = c.val
  rw [tileEquiv_val]
  omega

section Sum

variable {M : Type*} [AddCommMonoid M]

/-- A sum over the whole row, tile by tile. -/
theorem sum_whole (f : Fin 8192 → M) :
    (∑ n : Fin 8, ∑ r : Fin 1024,
        f ⟨1024 * n.val + r.val, by have := n.isLt; have := r.isLt; omega⟩) = ∑ i : Fin 8192, f i :=
  calc (∑ n : Fin 8, ∑ r : Fin 1024,
          f ⟨1024 * n.val + r.val, by have := n.isLt; have := r.isLt; omega⟩)
      = ∑ p : Fin 8 × Fin 1024, f (tileEquiv p) :=
        (Fintype.sum_prod_type (fun p : Fin 8 × Fin 1024 => f (tileEquiv p))).symm
    _ = ∑ i : Fin 8192, f i := Equiv.sum_comp tileEquiv f

/-- A sum over the whole row of a quantity that depends on the position through its tile and its place in the
    tile, tile by tile. -/
theorem sum_tiles (F : ℕ → Fin 1024 → M) :
    (∑ j : Fin 8192, F (j.val / 1024) (colIn j)) = ∑ m : Fin 8, ∑ c : Fin 1024, F m.val c :=
  calc (∑ j : Fin 8192, F (j.val / 1024) (colIn j))
      = ∑ p : Fin 8 × Fin 1024, F ((tileEquiv p).val / 1024) (colIn (tileEquiv p)) :=
        (Equiv.sum_comp tileEquiv (fun j : Fin 8192 => F (j.val / 1024) (colIn j))).symm
    _ = ∑ p : Fin 8 × Fin 1024, F p.1.val p.2 :=
        Finset.sum_congr rfl (fun p _ => by
          obtain ⟨m, c⟩ := p
          rw [tileEquiv_div, colIn_tileEquiv])
    _ = ∑ m : Fin 8, ∑ c : Fin 1024, F m.val c :=
        Fintype.sum_prod_type (fun p : Fin 8 × Fin 1024 => F p.1.val p.2)

end Sum

section Inf

variable {α : Type*} [CompleteLattice α]

/-- An infimum over the whole row, tile by tile. -/
theorem iInf_whole (f : Fin 8192 → α) :
    (⨅ m : Fin 8, ⨅ c : Fin 1024,
        f ⟨1024 * m.val + c.val, by have := m.isLt; have := c.isLt; omega⟩) = ⨅ j : Fin 8192, f j :=
  calc (⨅ m : Fin 8, ⨅ c : Fin 1024,
          f ⟨1024 * m.val + c.val, by have := m.isLt; have := c.isLt; omega⟩)
      = ⨅ p : Fin 8 × Fin 1024, f (tileEquiv p) :=
        (iInf_prod (f := fun p : Fin 8 × Fin 1024 => f (tileEquiv p))).symm
    _ = ⨅ j : Fin 8192, f j := tileEquiv.iInf_comp (g := f)

end Inf

end Cert.TileFold

end
-- ==== Proof.TileFoldSweep.lean ====
/-
  The sweep of the 4 × 8 × 8 grid, point by point: what each accumulator holds after every point, and from that what
  the two sums hold after the last point.

  Write (b, n, m) for the coordinates of point t. By induction on t, whatever the accumulators held before point 0:

    * after point t the running row minimum of row r is the minimum of D b n m' r c over the column-tiles m' ≤ m swept
      so far in this row-tile and all their columns c (the restart at m = 0 discards what came before, since
      min(+∞, x) = x);
    * after point t the running column minimum of column j, which lies in column-tile j / 1024 at place j % 1024, is
      the minimum of D b n' (j / 1024) r (j % 1024) over all rows r of the row-tiles n' of batch b that have met
      that column-tile so far: n' ≤ n if j / 1024 ≤ m, and n' < n otherwise (the minimum over no row-tile is +∞);
    * after point t, slot k of the row sums holds, for k < b, the sum over all eight row-tiles of batch k of the
      row-tile's sum of finished row minima, and for k = b the same sum over the row-tiles finished so far (n' < n,
      and n' = n as well once m = 7): the slot starts from 0 at the first point of its batch and one row-tile's sum
      is added at a time;
    * after point t, slot k of the column sums holds, for k < b, the sum over all 8192 columns of the finished column
      minimum in batch k; for k = b it holds 0 until the last point of the batch and that sum from then on.

  Nothing is subtracted or cancelled anywhere: only the laws of a commutative additive monoid and of a complete
  linear order are used, so the statements hold with infinite entries too. At the last point, t = 255, every slot
  k ≤ 3 is finished; writing a column as (column-tile, place in the tile) gives the two closing statements.
-/
import proofs.«118967_j45406394253979_1_alg».proof.Proof.TileFold
import proofs.«118967_j45406394253979_1_alg».proof.Proof.TileFoldWhole
import Mathlib.Order.Lattice.Nat
import Mathlib.Tactic

open scoped BigOperators

noncomputable section

namespace Cert.TileFold

section Abstract

/-- An infimum over a `Fin N`-indexed family read off a family over ℕ is the infimum over the indices below `N`. -/
theorem iInf_fin_val {α : Type*} [CompleteLattice α] (N : ℕ) (f : ℕ → α) :
    (⨅ i : Fin N, f i.val) = ⨅ k < N, f k :=
  le_antisymm (le_iInf₂ fun k hk => iInf_le (fun i : Fin N => f i.val) ⟨k, hk⟩)
    (le_iInf fun i => iInf₂_le i.val i.isLt)

/-- A running minimum that takes in the next term of a family when `hit` holds and is left alone otherwise. -/
theorem runMin_step (g : ℕ → EReal) (K' K : ℕ) (old new : EReal) (hit : Prop) [Decidable hit]
    (hold : old = ⨅ k < K', g k) (hK : K = if hit then K' + 1 else K') (hnew : hit → new = g K') :
    (if hit then min old new else old) = ⨅ k < K, g k := by
  by_cases h : hit
  · rw [if_pos h] at hK ⊢
    rw [hK, Nat.iInf_lt_succ, hold, hnew h]
  · rw [if_neg h] at hK ⊢
    rw [hK, hold]

/-- A running sum that takes in the next term of a family when `hit` holds and is left alone otherwise. -/
theorem runSum_step (S : ℕ → EReal) (K' K : ℕ) (old add : EReal) (hit : Prop) [Decidable hit]
    (hold : old = ∑ k ∈ Finset.range K', S k) (hK : K = if hit then K' + 1 else K') (hadd : hit → add = S K') :
    (if hit then old + add else old) = ∑ k ∈ Finset.range K, S k := by
  by_cases h : hit
  · rw [if_pos h] at hK ⊢
    rw [hK, Finset.sum_range_succ, hold, hadd h]
  · rw [if_neg h] at hK ⊢
    rw [hK, hold]

end Abstract

variable (D : ℕ → ℕ → ℕ → Fin 1024 → Fin 1024 → EReal)

/-! ### The running row minima -/

/-- After point `t` the running minimum of row `r` is the minimum over the column-tiles `m' ≤ mOf t` of the current
    row-tile and all their columns, whatever the state before point 0. -/
theorem rm_closed (s : St) (t : ℕ) (r : Fin 1024) :
    (upTo D s (t + 1)).rm r = ⨅ m' < mOf t + 1, ⨅ c : Fin 1024, D (bOf t) (nOf t) m' r c := by
  induction t with
  | zero =>
    show min (if mOf 0 = 0 then ⊤ else s.rm r) (⨅ c : Fin 1024, D (bOf 0) (nOf 0) (mOf 0) r c) = _
    have h0 : mOf 0 = 0 := rfl
    rw [if_pos h0, h0, Nat.iInf_lt_succ]
    simp
  | succ t ih =>
    show min (if mOf (t + 1) = 0 then ⊤ else (upTo D s (t + 1)).rm r)
      (⨅ c : Fin 1024, D (bOf (t + 1)) (nOf (t + 1)) (mOf (t + 1)) r c) = _
    by_cases h0 : mOf (t + 1) = 0
    · rw [if_pos h0, h0, Nat.iInf_lt_succ]
      simp
    · have hb : bOf (t + 1) = bOf t := by simp only [bOf, mOf] at *; omega
      have hn : nOf (t + 1) = nOf t := by simp only [nOf, mOf] at *; omega
      have hm : mOf (t + 1) = mOf t + 1 := by simp only [mOf] at *; omega
      rw [if_neg h0, ih, hb, hn, hm, Nat.iInf_lt_succ _ (mOf t + 1)]

/-! ### The running column minima -/

/-- How many row-tiles of the current batch have met the column-tile of column `j` after point `t`. -/
def cmBound (t : ℕ) (j : Fin 8192) : ℕ := if j.val / 1024 ≤ mOf t then nOf t + 1 else nOf t

/-- One point of the sweep, for the running minimum of column `j`: if what the point starts from (+∞ at the first
    point of a batch, the value before the point otherwise) is the minimum over the first `K'` row-tiles, then after
    the point it is the minimum over the first `cmBound t j` of them. -/
theorem cm_step (s : St) (t : ℕ) (j : Fin 8192) (K' : ℕ)
    (hold : (if nOf t = 0 ∧ mOf t = 0 then ⊤ else (upTo D s t).cm j)
        = ⨅ n' < K', ⨅ r : Fin 1024, D (bOf t) n' (j.val / 1024) r (colIn j))
    (hK : cmBound t j = if j.val / 1024 = mOf t then K' + 1 else K')
    (hn : j.val / 1024 = mOf t → K' = nOf t) :
    (upTo D s (t + 1)).cm j
      = ⨅ n' < cmBound t j, ⨅ r : Fin 1024, D (bOf t) n' (j.val / 1024) r (colIn j) := by
  show (if j.val / 1024 = mOf t then
      min (if nOf t = 0 ∧ mOf t = 0 then ⊤ else (upTo D s t).cm j)
        (⨅ r : Fin 1024, D (bOf t) (nOf t) (mOf t) r (colIn j))
    else (if nOf t = 0 ∧ mOf t = 0 then ⊤ else (upTo D s t).cm j)) = _
  refine runMin_step (fun n' => ⨅ r : Fin 1024, D (bOf t) n' (j.val / 1024) r (colIn j)) K' _ _ _ _ hold hK ?_
  intro h
  show _ = ⨅ r : Fin 1024, D (bOf t) K' (j.val / 1024) r (colIn j)
  rw [hn h, h]

/-- After point `t` the running minimum of column `j` is the minimum over the row-tiles of the current batch that
    have met its column-tile so far and all their rows, whatever the state before point 0. -/
theorem cm_closed (s : St) (t : ℕ) (j : Fin 8192) :
    (upTo D s (t + 1)).cm j
      = ⨅ n' < cmBound t j, ⨅ r : Fin 1024, D (bOf t) n' (j.val / 1024) r (colIn j) := by
  have hj := j.isLt
  induction t with
  | zero =>
    refine cm_step D s 0 j 0 ?_ ?_ (fun _ => rfl)
    · rw [if_pos ⟨rfl, rfl⟩]
      simp
    · unfold cmBound nOf mOf
      split_ifs <;> omega
  | succ t ih =>
    by_cases hr : nOf (t + 1) = 0 ∧ mOf (t + 1) = 0
    · refine cm_step D s (t + 1) j 0 ?_ ?_ (fun _ => hr.1.symm)
      · rw [if_pos hr]
        simp
      · obtain ⟨h1, h2⟩ := hr
        unfold cmBound
        rw [h1, h2]
        split_ifs <;> omega
    · have hb : bOf (t + 1) = bOf t := by simp only [bOf, nOf, mOf] at *; omega
      refine cm_step D s (t + 1) j (cmBound t j) ?_ ?_ ?_
      · rw [if_neg hr, ih, hb]
      · unfold cmBound nOf mOf at *
        split_ifs <;> omega
      · intro h
        unfold cmBound nOf mOf at *
        split_ifs <;> omega

/-! ### The row sums -/

/-- The sum over the rows of row-tile `n'` of batch `b` of the row's minimum over all columns. -/
def rowTileSum (b n' : ℕ) : EReal := ∑ r : Fin 1024, ⨅ m' < 8, ⨅ c : Fin 1024, D b n' m' r c

/-- How many row-tiles' sums slot `k` of the row sums holds after point `t` (for `k ≤ bOf t`). -/
def a2cnt (t k : ℕ) : ℕ := if k < bOf t then 8 else if mOf t = 7 then nOf t + 1 else nOf t

/-- One point of the sweep, for slot `k` of the row sums. -/
theorem a2_step (s : St) (t : ℕ) (k : Fin 4) (K' : ℕ)
    (hold : reset t (upTo D s t).a2 k = ∑ n' ∈ Finset.range K', rowTileSum D k.val n')
    (hK : a2cnt t k.val = if mOf t = 7 ∧ k.val = bOf t then K' + 1 else K')
    (hn : mOf t = 7 ∧ k.val = bOf t → K' = nOf t) :
    (upTo D s (t + 1)).a2 k = ∑ n' ∈ Finset.range (a2cnt t k.val), rowTileSum D k.val n' := by
  show (if mOf t = 7 ∧ k.val = bOf t then
      reset t (upTo D s t).a2 k + ∑ r : Fin 1024, (upTo D s (t + 1)).rm r
    else reset t (upTo D s t).a2 k) = _
  refine runSum_step (rowTileSum D k.val) K' _ _ _ _ hold hK ?_
  rintro ⟨h7, hkb⟩
  rw [hn ⟨h7, hkb⟩]
  show _ = ∑ r : Fin 1024, ⨅ m' < 8, ⨅ c : Fin 1024, D k.val (nOf t) m' r c
  refine Finset.sum_congr rfl fun r _ => ?_
  rw [rm_closed, h7, hkb]

/-- After point `t`, slot `k ≤ bOf t` of the row sums is the sum of the first `a2cnt t k` row-tile sums of batch
    `k`, whatever the state before point 0. -/
theorem a2_closed (s : St) (t : ℕ) (k : Fin 4) (hk : k.val ≤ bOf t) :
    (upTo D s (t + 1)).a2 k = ∑ n' ∈ Finset.range (a2cnt t k.val), rowTileSum D k.val n' := by
  induction t with
  | zero =>
    have hk0 : k.val = bOf 0 := by unfold bOf at *; omega
    refine a2_step D s 0 k 0 ?_ ?_ ?_
    · show (if nOf 0 = 0 ∧ mOf 0 = 0 ∧ k.val = bOf 0 then 0 else s.a2 k) = _
      rw [if_pos ⟨rfl, rfl, hk0⟩]
      simp
    · have hm : ¬ mOf 0 = 7 := by unfold mOf; omega
      have hne : ¬ (mOf 0 = 7 ∧ k.val = bOf 0) := fun h => hm h.1
      unfold a2cnt
      rw [if_neg hne, if_neg (by omega), if_neg hm]
      rfl
    · rintro ⟨h, _⟩
      unfold mOf at h
      omega
  | succ t ih =>
    by_cases hr : nOf (t + 1) = 0 ∧ mOf (t + 1) = 0 ∧ k.val = bOf (t + 1)
    · refine a2_step D s (t + 1) k 0 ?_ ?_ ?_
      · show (if nOf (t + 1) = 0 ∧ mOf (t + 1) = 0 ∧ k.val = bOf (t + 1) then 0
          else (upTo D s (t + 1)).a2 k) = _
        rw [if_pos hr]
        simp
      · obtain ⟨h1, h2, h3⟩ := hr
        unfold a2cnt bOf nOf mOf at *
        split_ifs <;> omega
      · rintro ⟨h7, _⟩
        obtain ⟨_, h2, _⟩ := hr
        omega
    · have hk' : k.val ≤ bOf t := by unfold bOf nOf mOf at *; omega
      refine a2_step D s (t + 1) k (a2cnt t k.val) ?_ ?_ ?_
      · show (if nOf (t + 1) = 0 ∧ mOf (t + 1) = 0 ∧ k.val = bOf (t + 1) then 0
          else (upTo D s (t + 1)).a2 k) = _
        rw [if_neg hr, ih hk']
      · unfold a2cnt bOf nOf mOf at *
        split_ifs <;> omega
      · intro h
        unfold a2cnt bOf nOf mOf at *
        split_ifs <;> omega

/-! ### The column sums -/

/-- The sum over all columns of the column's minimum over all rows of batch `b`. -/
def colSum (b : ℕ) : EReal :=
  ∑ j : Fin 8192, ⨅ n' < 8, ⨅ r : Fin 1024, D b n' (j.val / 1024) r (colIn j)

/-- One point of the sweep, for slot `k ≤ bOf t` of the column sums. -/
theorem a3_step (s : St) (t : ℕ) (k : Fin 4) (hk : k.val ≤ bOf t)
    (hold : reset t (upTo D s t).a3 k = if k.val < bOf t then colSum D k.val else 0) :
    (upTo D s (t + 1)).a3 k
      = if k.val < bOf t ∨ (nOf t = 7 ∧ mOf t = 7) then colSum D k.val else 0 := by
  show (if nOf t = 7 ∧ mOf t = 7 ∧ k.val = bOf t then
      reset t (upTo D s t).a3 k + ∑ j : Fin 8192, (upTo D s (t + 1)).cm j
    else reset t (upTo D s t).a3 k) = _
  rw [hold]
  by_cases hlt : k.val < bOf t
  · have hne : ¬ (nOf t = 7 ∧ mOf t = 7 ∧ k.val = bOf t) := by
      rintro ⟨_, _, h⟩
      omega
    rw [if_neg hne, if_pos hlt, if_pos (Or.inl hlt)]
  · have hkb : k.val = bOf t := by omega
    rw [if_neg hlt]
    by_cases h77 : nOf t = 7 ∧ mOf t = 7
    · rw [if_pos ⟨h77.1, h77.2, hkb⟩, if_pos (Or.inr h77), zero_add]
      show _ = ∑ j : Fin 8192, ⨅ n' < 8, ⨅ r : Fin 1024, D k.val n' (j.val / 1024) r (colIn j)
      refine Finset.sum_congr rfl fun j _ => ?_
      have hj := j.isLt
      have hb : cmBound t j = 8 := by
        unfold cmBound
        rw [if_pos (by omega), h77.1]
      rw [cm_closed, hb, hkb]
    · have hne : ¬ (nOf t = 7 ∧ mOf t = 7 ∧ k.val = bOf t) := fun h => h77 ⟨h.1, h.2.1⟩
      have hno : ¬ (k.val < bOf t ∨ (nOf t = 7 ∧ mOf t = 7)) := by
        rintro (h | h)
        · exact hlt h
        · exact h77 h
      rw [if_neg hne, if_neg hno]

/-- After point `t`, slot `k ≤ bOf t` of the column sums is the finished column sum of batch `k` if the batch is
    finished (an earlier batch, or the last point of the current one), and 0 otherwise, whatever the state before
    point 0. -/
theorem a3_closed (s : St) (t : ℕ) (k : Fin 4) (hk : k.val ≤ bOf t) :
    (upTo D s (t + 1)).a3 k
      = if k.val < bOf t ∨ (nOf t = 7 ∧ mOf t = 7) then colSum D k.val else 0 := by
  induction t with
  | zero =>
    have hk0 : k.val = bOf 0 := by unfold bOf at *; omega
    refine a3_step D s 0 k hk ?_
    show (if nOf 0 = 0 ∧ mOf 0 = 0 ∧ k.val = bOf 0 then 0 else s.a3 k) = _
    rw [if_pos ⟨rfl, rfl, hk0⟩, if_neg (by omega)]
  | succ t ih =>
    refine a3_step D s (t + 1) k hk ?_
    show (if nOf (t + 1) = 0 ∧ mOf (t + 1) = 0 ∧ k.val = bOf (t + 1) then 0
      else (upTo D s (t + 1)).a3 k) = _
    by_cases hr : nOf (t + 1) = 0 ∧ mOf (t + 1) = 0 ∧ k.val = bOf (t + 1)
    · rw [if_pos hr, if_neg (by omega)]
    · have hk' : k.val ≤ bOf t := by unfold bOf nOf mOf at *; omega
      rw [if_neg hr, ih hk']
      by_cases hlt : k.val < bOf (t + 1)
      · rw [if_pos hlt, if_pos (by unfold bOf nOf mOf at *; omega)]
      · rw [if_neg hlt, if_neg (by unfold bOf nOf mOf at *; omega)]

/-! ### After the last point -/

/-- After the whole sweep, slot `k` of the row sums is the sum over all rows of batch `k` of the row's minimum over
    all columns. -/
theorem sweep_a2 (s : St) (k : Fin 4) :
    (upTo D s 256).a2 k
      = ∑ n : Fin 8, ∑ r : Fin 1024, ⨅ m : Fin 8, ⨅ c : Fin 1024, D k.val n.val m.val r c := by
  have hk := k.isLt
  have h8 : a2cnt 255 k.val = 8 := by
    unfold a2cnt bOf nOf mOf
    split_ifs <;> omega
  have h : (upTo D s 256).a2 k = ∑ n' ∈ Finset.range (a2cnt 255 k.val), rowTileSum D k.val n' :=
    a2_closed D s 255 k (by unfold bOf; omega)
  rw [h, h8, Finset.sum_range]
  refine Finset.sum_congr rfl fun n _ => ?_
  show (∑ r : Fin 1024, ⨅ m' < 8, ⨅ c : Fin 1024, D k.val n.val m' r c) = _
  refine Finset.sum_congr rfl fun r _ => ?_
  exact (iInf_fin_val 8 (fun m' => ⨅ c : Fin 1024, D k.val n.val m' r c)).symm

/-- After the whole sweep, slot `k` of the column sums is the sum over all columns of the column's minimum over all
    rows of batch `k`. -/
theorem sweep_a3 (s : St) (k : Fin 4) :
    (upTo D s 256).a3 k
      = ∑ m : Fin 8, ∑ c : Fin 1024, ⨅ n : Fin 8, ⨅ r : Fin 1024, D k.val n.val m.val r c := by
  have hk := k.isLt
  have h : (upTo D s 256).a3 k
      = if k.val < bOf 255 ∨ (nOf 255 = 7 ∧ mOf 255 = 7) then colSum D k.val else 0 :=
    a3_closed D s 255 k (by unfold bOf; omega)
  rw [h, if_pos (Or.inr ⟨rfl, rfl⟩)]
  refine (sum_tiles (fun m c => ⨅ n' < 8, ⨅ r : Fin 1024, D k.val n' m r c)).trans ?_
  refine Finset.sum_congr rfl fun m _ => Finset.sum_congr rfl fun c _ => ?_
  exact (iInf_fin_val 8 (fun n' => ⨅ r : Fin 1024, D k.val n' m.val r c)).symm

end Cert.TileFold

end
-- ==== Proof.LaunchI.lean ====
/-
  The launch of the distance kernel's program: the region, then the host lines that follow it.

  @main is one kernel region followed by 23 host operations. The region is entered from the launch memory; its two input
  arrays bypass it unchanged and its two result arrays leave it at SOME contents the pipeline's relation admits after
  every write-back — contents this module does not name: it carries them, with that fact, through the host lines, which
  compute the program's result from them. The run's post therefore reads: there are contents `F2`, `F3` of the two
  result arrays, admitted by the relation, such that every unscoped buffer ends at what the host lines make of the launch
  memory with the result arrays at `F2`, `F3`. The argument arrays are among the buffers no host line writes, so they
  end as launched: the frame.
-/
import proofs.«118967_j45406394253979_1_alg».proof.Proof.DataI
import Idealize.ShloMosaic.Lib.Pipeline.Regions
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- Core `c`'s buffers at launch, as the host operations' valuation. -/
abbrev V₀ (c : Dev nD) : Valuation τ sig (Elt F) := fun b => (s₀ m ρ).mem ((c : Dev nD), b)

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
/-- What rides beside the buffers: the core's `owes`. -/
abbrev R (c : Dev nD) : sProp 𝕄 := iprop(∃ W, owes (c : Thread nD τ) (0 : CellTallies nD τ sig Unit) W)

/-- The four arrays after the region: the inputs as they were, the results at `F2`, `F3`. -/
def Afin (c : Dev nD) (F2 : Buf (Elt F) ((cfg0.win 2).arr.view.loc (c.tc : Thread nD τ)))
    (F3 : Buf (Elt F) ((cfg0.win 3).arr.view.loc (c.tc : Thread nD τ))) :
    (w : Fin cfg0.W) → Buf (Elt F) ((cfg0.win w).arr.view.loc (c.tc : Thread nD τ))
  | ⟨0, _⟩ => V m c main_arg0
  | ⟨1, _⟩ => V m c main_arg1
  | ⟨2, _⟩ => F2
  | ⟨3, _⟩ => F3
  | ⟨_ + 4, h⟩ => absurd h (Nat.not_lt.2 (Nat.le_add_left _ _))

/-- The buffers when the region is left: the launch memory with the four arrays at `Afin`. -/
def W₁ (c : Dev nD) (F2 : Buf (Elt F) ((cfg0.win 2).arr.view.loc (c.tc : Thread nD τ)))
    (F3 : Buf (Elt F) ((cfg0.win 3).arr.view.loc (c.tc : Thread nD τ))) : Valuation τ sig (Elt F) :=
  Pipeline.withArrays spec0 c (V₀ m ρ c) (Afin m c F2 F3)

/-- The unscoped buffers held at a valuation that has the arrays at `A` are the arrays at `A` and the rest as it was. -/
theorem held_withArrays (c : Dev nD) (Vv : Valuation τ sig (Elt F))
    (A : (w : Fin cfg0.W) → Buf (Elt F) ((cfg0.win w).arr.view.loc (c.tc : Thread nD τ))) :
    (StableHlo.held (c : Thread nD τ) (Pipeline.ucRefs τ sig) (Pipeline.withArrays spec0 c Vv A) : sProp 𝕄)
      = iprop(Pipeline.arrPts spec0 c A ∗ Pipeline.unscopedRest spec0 c (fun b => Vv (Proc.devRef .tc b))) := by
  have h1 : (Pipeline.arrPts spec0 c (fun w => Pipeline.withArrays spec0 c Vv A (Proc.devRef .tc (Pipeline.arrRef spec0 w))) : sProp 𝕄)
      = Pipeline.arrPts spec0 c A :=
    congrArg (Pipeline.arrPts spec0 c) (funext fun w => Pipeline.withArrays_arr spec0 launch0.win.arr_inj c Vv A w)
  have h2 : (Pipeline.unscopedRest spec0 c (fun b => Pipeline.withArrays spec0 c Vv A (Proc.devRef .tc b)) : sProp 𝕄)
      = Pipeline.unscopedRest spec0 c (fun b => Vv (Proc.devRef .tc b)) := by
    unfold Pipeline.unscopedRest
    exact bigSep_congr fun b hb => by
      dsimp only
      rw [Pipeline.withArrays_of_ne spec0 c Vv A b fun w e => (Finset.mem_sdiff.mp hb).2 (Finset.mem_image.mpr ⟨w, Finset.mem_univ _, e⟩)]
  rw [← Pipeline.tailRefs_none spec0 launch0.win.arr_unscoped, Pipeline.held_tailRefs Pipeline.Prefetch.none spec0 launch0.win.arr_inj,
    Pipeline.unscopedRestP_none, h1, h2]

theorem hostOps1_uc : ∀ op ∈ (hostOps1 (F := F)), op.bufs ⊆ Pipeline.ucRefs τ sig := fun op h =>
  Pipeline.sub_ucRefs op ((List.forall_iff_forall_mem.mp hostOps1_sub) op h)
theorem hostOps1_fresh : ∀ op ∈ (hostOps1 (F := F)), op.fresh = ∅ := by
  intro _ h; (repeat (cases h with | head => rfl | tail _ h => ?_)); exact nomatch h

/-- What the region leaves and the host lines start from: the result arrays at some admitted contents. -/
def midState (c : Dev nD) : sProp 𝕄 :=
  iprop((∃ F2 F3, ⌜(rdat m 0 c).ArrAt 2 cfg0.N F2 ∧ (rdat m 0 c).ArrAt 3 cfg0.N F3⌝
    ∗ StableHlo.held (c : Thread nD τ) (Pipeline.ucRefs τ sig) (W₁ m ρ c F2 F3)) ∗ R c)

/-- What the host lines leave. -/
def endState (c : Dev nD) : sProp 𝕄 :=
  iprop(∃ F2 F3, ⌜(rdat m 0 c).ArrAt 2 cfg0.N F2 ∧ (rdat m 0 c).ArrAt 3 cfg0.N F3⌝
    ∗ StableHlo.held (c : Thread nD τ) (Pipeline.ucRefs τ sig) (StableHlo.after hostOps1 (W₁ m ρ c F2 F3)))

set_option backward.isDefEq.respectTransparency.types false in
/-- THE HOST SEGMENT: the 23 operations over the unscoped buffers, whatever contents the result arrays came with. -/
def seg1 : Pipeline.HostSeg (Name := ℕ) (U := UR sig nD τ) (pcfgs (F := F)) defs₀ 𝒱₀ L lv where
  prog := StableHlo.seq hostOps1
  pre c := midState m ρ c
  post c := iprop(endState m ρ c ∗ R c)
  run c {β} k K := by
    unfold midState endState
    iintro ⟨Hk, Hbd, ⟨⟨%F2, %F3, %hF, Hh⟩, HR⟩, -⟩
    have hseq := StableHlo.wp_seq (defs := Pipeline.defs (pcfgs (F := F)) defs₀) (Variants.lift 𝒱₀) none Set.univ c (Pipeline.ucRefs τ sig) k (K := K)
      (hostOps1 (F := F)) hostOps1_uc hostOps1_fresh (W₁ m ρ c F2 F3)
    iapply hseq $$ [Hbd Hh]
    · isplitl [Hbd] <;> iassumption
    iintro ⟨Hbd, Hh⟩
    iapply Hk
    isplitl [Hbd]; · iexact Hbd
    isplitl [Hh]
    · iexists F2, F3
      isplitr; · ipureintro; exact hF
      iexact Hh
    iexact HR

/-- The arrays after the region, opened: each at SOME contents the relation admits, whole and at the full share. -/
theorem arraysAt_open (c : Dev nD) :
    ((rdat m 0 c).arraysAt cfg0.N : sProp 𝕄)
      ⊢ iprop(∃ A, ⌜∀ w, (rdat m 0 c).ArrAt w cfg0.N (A w)⌝ ∗ Pipeline.arrPts spec0 c A) := by
  unfold RDat.arraysAt
  iintro Ha
  ihave Ha' := (BI.bigSep_exists_pi Finset.univ (fun w G => iprop(⌜(rdat m 0 c).ArrAt w cfg0.N G⌝
      ∗ (cfg0.win w).arr.view.loc (c.tc : Thread nD τ) ↦[(cfg0.win w).arr.view.set]{(rdat m 0 c).share w} G))) $$ Ha
  icases Ha' with ⟨%A, Ha⟩
  ihave Ha2 := (BI.bigSep_pure_sep Finset.univ (fun w => (rdat m 0 c).ArrAt w cfg0.N (A w))
      (fun w => (cfg0.win w).arr.view.loc (c.tc : Thread nD τ) ↦[(cfg0.win w).arr.view.set]{(rdat m 0 c).share w} A w)) $$ Ha
  icases Ha2 with ⟨%hA', Ha⟩
  iexists A; isplitr; · ipureintro; exact fun w => hA' w (Finset.mem_univ w)
  unfold Pipeline.arrPts
  iapply (Entails.of_eq (bigSep_congr (fun w _ => by rw [(launch0.arr_whole w).set_eq_univ, (rdat m 0 c).share_full (fun _ => rfl) w]) :
      (bigSep Finset.univ fun w => ((cfg0.win w).arr.view.loc (c.tc : Thread nD τ) ↦[(cfg0.win w).arr.view.set]{(rdat m 0 c).share w} A w : sProp 𝕄))
        = bigSep Finset.univ fun w => (((c.tc : Thread nD τ).loc (Pipeline.arrRef spec0 w)) ↦{fullShare} A w : sProp 𝕄)))
  iexact Ha

set_option backward.isDefEq.respectTransparency.types false in
/-- THE REGION: the decided layout of the windows, no semaphore of the kernel's own, the body obligation; entered from the launch
    memory — the four arrays into the pipeline, the two scratch arrays into the invariant, every other buffer bypassing —
    and left with the result arrays at some admitted contents. -/
def reg0 : Pipeline.RDat.RegionSeg (pcfgs (F := F)) adm (rdat m) () defs₀ 𝒱₀ L lv 0 where
  win := launch0.win.to₀
  block_pos := launch0.block_pos
  stage_whole := launch0.stage_whole
  K := PEmpty
  osem := fun k => k.elim
  ho := Pipeline.OwnSemFacts.none _
  hbody c := body_obligation m c
  hwaits := Pipeline.RDat.hwaits_of_owed_zero _ _ _ _ L lv 0 fun _ _ => rfl
  pre c := iprop(StableHlo.held (c : Thread nD τ) (Pipeline.ucRefs τ sig) (V₀ m ρ c) ∗ R c)
  post c := midState m ρ c
  X c := iprop(emp)
  Y c := iprop(emp)
  Z c := Pipeline.unscopedRest spec0 c (V m c)
  hentry c := by
    rw [show StableHlo.held (c : Thread nD τ) (Pipeline.ucRefs τ sig) (V₀ m ρ c) = unscopedBufs c (V m c) from (Pipeline.unscopedBufs_held c _).symm]
    have hsplit := Pipeline.RDat.arrays_of_unscopedBufs (pcfgs (F := F)) adm (rdat m) launch0.win launch0.arr_whole c
      ((rdat m 0 c).share_full fun _ => rfl) (V m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitr; · iempintro
    iexact Hrest
  hin c := by
    rw [show (rdat m 0 c).Φ 0 = PhiAt m c 0 from rfl]; unfold PhiAt; rw [scopedRest0_eq]
    iintro ⟨-, -, ⟨%f0, H0⟩, ⟨%f1, H1⟩⟩
    iexists f0, f1
    simp only [rmAt, cmAt, owns_whole]
    isplitl [H0] <;> iassumption
  hout c := by
    rw [Pipeline.ownSems0_none, show (rdat m 0 c).Φ (Fin.last cfg0.N) = PhiAt m c cfg0.N from rfl]; unfold PhiAt; rw [scopedRest0_eq]
    iintro ⟨%d0, %d1, H0, H1⟩
    simp only [owns_whole]
    isplitr; · iempintro
    isplitr; · iempintro
    isplitl [H0]
    · iexists _; iexact H0
    · iexists _; iexact H1
  hexit c := by
    unfold midState
    iintro ⟨Ha, HO, -, HZ⟩
    ihave Ha' := (arraysAt_open m c) $$ Ha
    icases Ha' with ⟨%A, %hA, Ha⟩
    have e0 : A 0 = V m c main_arg0 := by have h := hA 0; rw [(rdat m 0 c).ArrAt_in 0 rfl] at h; exact h
    have e1 : A 1 = V m c main_arg1 := by have h := hA 1; rw [(rdat m 0 c).ArrAt_in 1 rfl] at h; exact h
    have eA : A = Afin m c (A 2) (A 3) := funext fun w => by
      match w with
      | ⟨0, _⟩ => exact e0
      | ⟨1, _⟩ => exact e1
      | ⟨2, _⟩ => rfl
      | ⟨3, _⟩ => rfl
      | ⟨_ + 4, h⟩ => exact absurd h (Nat.not_lt.2 (Nat.le_add_left _ _))
    imodintro
    isplitr [HO]
    · iexists (A 2), (A 3)
      isplitr; · ipureintro; exact ⟨hA 2, hA 3⟩
      unfold W₁
      rw [held_withArrays, ← eA]
      isplitl [Ha] <;> iassumption
    · unfold Pipeline.RDat.owesAt Pipeline.owesWithin
      icases HO with ⟨%W, -, HO⟩; iexists W; iexact HO

/-- @main as the list of the two. -/
abbrev segs : List (Pipeline.RDat.Seg (pcfgs (F := F)) adm (rdat m) () defs₀ 𝒱₀ L lv) := [.region (reg0 m ρ), .host (seg1 m ρ)]

/-- The run's post: on every core there are admitted contents of the two result arrays with every unscoped buffer at
    what the host lines make of the launch memory with the result arrays at those contents. -/
def QC : PUnit × MemSt nD τ sig (Elt F) → Prop := fun r => ∀ c : Dev nD,
  ∃ F2 F3, (rdat m 0 c).ArrAt 2 cfg0.N F2 ∧ (rdat m 0 c).ArrAt 3 cfg0.N F3
    ∧ ∀ b ∈ Pipeline.ucRefs τ sig, r.2.mem ((c : Thread nD τ).1, b) = StableHlo.after hostOps1 (W₁ m ρ c F2 F3) b

set_option backward.isDefEq.respectTransparency.types false in
/-- At the compiled mesh, for any float values, from any memory with zero counters: every weakly fair execution of
    @main on the TensorCores terminates, nothing faulting, in a state satisfying `QC`. -/
theorem run_main : θ_run defs (onTc (τ := τ) (main (F := F))) (s₀ m ρ) (QC m ρ) :=
  Pipeline.RDat.θ_run_regions_kit (pcfgs (F := F)) adm (rdat m) () cellOf_inj EP defs₀ 𝒱₀ L lv m ρ main (segs m ρ)
    (fun c Q => by rw [main_chain, Pipeline.RDat.Seg.run_eq_chain]; exact .rfl)
    (by simp only [Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := endState m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from
        Pipeline.unscopedBufs_held c (V₀ m ρ c)]
      iintro ⟨⟨Hh, -, HO, -, -, -⟩, -⟩
      imodintro
      isplitl [Hh]; · iexact Hh
      iexists ∅; iexact HO)
    (QY := fun c s => ∃ F2 F3, (rdat m 0 c).ArrAt 2 cfg0.N F2 ∧ (rdat m 0 c).ArrAt 3 cfg0.N F3
      ∧ ∀ b ∈ Pipeline.ucRefs τ sig, s.mem ((c : Thread nD τ).1, b) = StableHlo.after hostOps1 (W₁ m ρ c F2 F3) b)
    (hfin := fun c s' => by
      unfold endState StableHlo.held
      iintro ⟨⟨%F2, %F3, %hF, Hh⟩, HSI⟩
      ihave Hr := (pointsTo_read_all (Pipeline.ucRefs τ sig) (fun b => ((c : Thread nD τ).1, b))
        (StableHlo.after hostOps1 (W₁ m ρ c F2 F3)) s') $$ [Hh HSI]
      · isplitl [Hh] <;> iassumption
      icases Hr with ⟨%hr, HSI⟩
      imodintro
      isplitr; · ipureintro; exact ⟨F2, F3, hF.1, hF.2, hr⟩
      iexact HSI)
    (hQ := fun _ h => h)

end Cert.KernelIdeal.Body

end
-- ==== Proof.TailI.lean ====
/-
  The host lines after the region, read: they compute the specification's tail of the region's two results, and write
  neither argument.

  After the kernel region @main runs 23 host operations on the two result arrays `s` (per-batch sums of nearest-target
  distances) and `t` (per-batch sums of nearest-point distances): each is divided by 8192, the two quotients are added,
  each of the three vectors is summed over the 4 batches and divided by 4, and the three means are joined into one vector
  of length 3 — operation for operation the specification's `tail`, with the same literal words. No operation's result
  buffer is an argument buffer, so both arguments end as launched.
-/
import proofs.«118967_j45406394253979_1_alg».proof.Proof.LaunchI
import proofs.«118967_j45406394253979_1_alg».proof.Proof.ChamferSpec
import proofs.«118967_j45406394253979_1_alg».proof.Proof.LibNaryThree

set_option maxRecDepth 16384

noncomputable section

namespace Cert.KernelIdeal.Body

open Cert.KernelIdeal Cert.KernelIdeal.Gen
open Idealize.ShloMosaic Idealize.ShloMosaic.TcCoe Idealize.SL.Sem Idealize.ShloMosaic.StableHlo

/-! ## The arguments are not written -/

section Kept

variable {F : FTy → Type} [FloatOps F]
variable (m : (ℓ : Loc nD τ sig) → Buf (Elt F) ℓ) (ρ : Dev nD → PrngReg)

/-- The buffers the 23 host operations write. -/
abbrev hostOps1_W : List (Ref sig .tc) :=
  [main_cst, main_v1, main_v2, main_cst_0, main_v3, main_v4, main_v5, main_cst_1, main_v6, main_cst_2, main_v7, main_cst_3,
    main_v8, main_cst_4, main_v9, main_cst_5, main_v10, main_cst_6, main_v11, main_v12, main_v13, main_v14, main_v15]

theorem hostOps1_writes : (hostOps1 : List (HloOp τ sig (Elt F))).Forall fun op =>
    op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.nary_writes,
      Finset.singleton_subset_iff, List.mem_toFinset]; exact List.mem_map_of_mem (by decide))

/-- A buffer outside that list holds after the host lines what it held before them. -/
theorem after_hostOps1_of (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The first argument ends as launched. -/
theorem kept_arg0 (c : Dev nD) (F2 : Buf (Elt F) ((cfg0.win 2).arr.view.loc (c.tc : Thread nD τ)))
    (F3 : Buf (Elt F) ((cfg0.win 3).arr.view.loc (c.tc : Thread nD τ))) :
    StableHlo.after hostOps1 (W₁ m ρ c F2 F3) (Proc.devRef .tc main_arg0) = m ((c : Thread nD τ).loc main_arg0) :=
  (after_hostOps1_of _ main_arg0 (by decide)).trans
    (Pipeline.withArrays_arr spec0 launch0.win.arr_inj c (V₀ m ρ c) (Afin m c F2 F3) 0)

/-- The second argument ends as launched. -/
theorem kept_arg1 (c : Dev nD) (F2 : Buf (Elt F) ((cfg0.win 2).arr.view.loc (c.tc : Thread nD τ)))
    (F3 : Buf (Elt F) ((cfg0.win 3).arr.view.loc (c.tc : Thread nD τ))) :
    StableHlo.after hostOps1 (W₁ m ρ c F2 F3) (Proc.devRef .tc main_arg1) = m ((c : Thread nD τ).loc main_arg1) :=
  (after_hostOps1_of _ main_arg1 (by decide)).trans
    (Pipeline.withArrays_arr spec0 launch0.win.arr_inj c (V₀ m ρ c) (Afin m c F2 F3) 1)

end Kept

/-! ## The result -/

variable (m : (ℓ : Loc nD τ sig) → Buf (Elt Ideal) ℓ) (ρ : Dev nD → PrngReg)

/-- The result buffer after the host lines is the specification's tail of the two result arrays the region left. -/
theorem tail_eq (c : Dev nD) (F2 : Buf (Elt Ideal) ((cfg0.win 2).arr.view.loc (c.tc : Thread nD τ)))
    (F3 : Buf (Elt Ideal) ((cfg0.win 3).arr.view.loc (c.tc : Thread nD τ))) :
    StableHlo.after (hostOps1 (F := Ideal)) (W₁ m ρ c F2 F3) (Proc.devRef .tc main_v15)
      = Cert.Chamfer.tail bcast_S_S4 reducesTo_S4_S_d0 h_S_ bcast_S_S1 concatenates_S1_S1_S1_S3_d0 F2 F3 := by
  have h2 : W₁ m ρ c F2 F3 (Proc.devRef .tc main_v0_0) = F2 :=
    Pipeline.withArrays_arr spec0 launch0.win.arr_inj c (V₀ m ρ c) (Afin m c F2 F3) 2
  have h3 : W₁ m ρ c F2 F3 (Proc.devRef .tc main_v0_1) = F3 :=
    Pipeline.withArrays_arr spec0 launch0.win.arr_inj c (V₀ m ρ c) (Afin m c F2 F3) 3
  simp only [StableHlo.after_cons, StableHlo.after_nil]
  unfold Cert.Chamfer.tail
  refine nary3_result_of (x := main_v12) (a := main_v13) (b := main_v14) (y := main_v15)
    (fun (v0 v1 v2 : (⟨S1, .f32⟩ : BufTy).Contents (Elt Ideal)) =>
      (concatenate S3 0 [⟨S1, v0⟩, ⟨S1, v1⟩, ⟨S1, v2⟩] concatenates_S1_S1_S1_S3_d0 : (⟨S3, .f32⟩ : BufTy).Contents (Elt Ideal)))
    (fun _ => rfl) _ _ _ ?_ ?_ ?_ <;> after_results_simp <;> simp only [h2, h3] <;> rfl

end Cert.KernelIdeal.Body

end
-- ==== Proof.FrameI.lean ====
/-
  The frame of the program: it runs to the end, faults nowhere, and leaves both argument arrays as launched.

  The run of @main ends with every unscoped buffer at what the host lines make of the launch memory with the region's
  four arrays in place; the two argument arrays are the region's input arrays, which it leaves as launched, and no host
  line writes them.
-/
import proofs.«118967_j45406394253979_1_alg».proof.Proof.TailI

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem arg0_mem : Proc.devRef (τ := τ) .tc main_arg0 ∈ Pipeline.ucRefs τ sig := by decide
theorem arg1_mem : Proc.devRef (τ := τ) .tc main_arg1 ∈ Pipeline.ucRefs τ sig := by decide
theorem v15_mem : Proc.devRef (τ := τ) .tc main_v15 ∈ Pipeline.ucRefs τ sig := by decide

/-- THE FRAME, at any float instance: every weakly fair execution of @main terminates, nothing faulting, and both
    argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨F2, F3, -, -, hb⟩ := h c
    exact ⟨(hb _ arg0_mem).trans (kept_arg0 m ρ c F2 F3), (hb _ arg1_mem).trans (kept_arg1 m ρ c F2 F3)⟩) (run_main m ρ)

end Cert.KernelIdeal.Body

end
-- ==== Proof.ValueI.lean ====
/-
  The value of the idealized kernel program: its result is the specification's tail of the two nearest-neighbour sums.

  The abstract sweep and the kernel's folds move together: after every point the per-batch sums and the running minima
  of the kernel, read slot by slot, are the abstract machine's accumulators started from the same contents. After all
  256 points the abstract sums are, per batch, the sum over all rows of the row's minimum over all columns of the tiled
  distances, and the sum over all columns of the column's minimum over all rows; regrouping the 8 tiles of 1024 into the
  8192 points of a cloud these are `sumNearG` and `sumNearP`. Whatever the pipeline's relation admits of the two result
  arrays after the region is such a fold, so it is those sums, and the host lines make the specification's tail of them.
-/
import proofs.«118967_j45406394253979_1_alg».proof.Proof.SimI
import proofs.«118967_j45406394253979_1_alg».proof.Proof.SimSumsI
import proofs.«118967_j45406394253979_1_alg».proof.Proof.TileFoldSweep
import proofs.«118967_j45406394253979_1_alg».proof.Proof.TileFoldWhole
import proofs.«118967_j45406394253979_1_alg».proof.Proof.FrameI

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx Idealize.SL.Sem Cert.TileFold Cert.KernelIdeal.Payloads

variable (m : (ℓ : Loc nD τ sig) → Buf (Elt Ideal) ℓ) (c : Dev nD)

/-- The abstract machine's starting accumulators: the kernel's starting contents read slot by slot. -/
def s0 (y2 y3 : Vec Ideal S4 .f32) : St :=
  { a2 := fun k => y2 (ix1 k)
    a3 := fun k => y3 (ix1 k)
    rm := fun r => k0_pay8 (F := Ideal) (ix2 r 0)
    cm := fun j => k0_pay7 (F := Ideal) (ix2 0 j) }

/-- The kernel's folds and the abstract sweep agree before every point. -/
theorem sim_all (y2 y3 : Vec Ideal S4 .f32) : ∀ t, t ≤ 256 →
    (∀ k : Fin 4, a2Chain m c y2 t (ix1 k) = (upTo (Dt m c) (s0 y2 y3) t).a2 k)
    ∧ (∀ k : Fin 4, a3Chain m c y3 t (ix1 k) = (upTo (Dt m c) (s0 y2 y3) t).a3 k)
    ∧ (∀ r : Fin 1024, rmAt m c (k0_pay8 (F := Ideal)) t (ix2 r 0) = (upTo (Dt m c) (s0 y2 y3) t).rm r)
    ∧ (∀ j : Fin 8192, cmAt m c (k0_pay7 (F := Ideal)) t (ix2 0 j) = (upTo (Dt m c) (s0 y2 y3) t).cm j)
  | 0, _ => ⟨fun _ => rfl, fun _ => rfl, fun _ => rfl, fun _ => rfl⟩
  | t + 1, h => by
    have ht : t < cfg0.N := by rw [show cfg0.N = 256 from N_0]; omega
    obtain ⟨i2, i3, ir, ic⟩ := sim_all y2 y3 t (by omega)
    have e2 : (upTo (Dt m c) (s0 y2 y3) t).a2 = fun k => a2Chain m c y2 t (ix1 k) := funext fun k => (i2 k).symm
    have e3 : (upTo (Dt m c) (s0 y2 y3) t).a3 = fun k => a3Chain m c y3 t (ix1 k) := funext fun k => (i3 k).symm
    have er : (upTo (Dt m c) (s0 y2 y3) t).rm = fun r => rmAt m c (k0_pay8 (F := Ideal)) t (ix2 r 0) := funext fun r => (ir r).symm
    have ec : (upTo (Dt m c) (s0 y2 y3) t).cm = fun j => cmAt m c (k0_pay7 (F := Ideal)) t (ix2 0 j) := funext fun j => (ic j).symm
    have hr : ∀ r : Fin 1024, rmAt m c (k0_pay8 (F := Ideal)) (t + 1) (ix2 r 0) = rmStep (Dt m c) t (upTo (Dt m c) (s0 y2 y3) t).rm r := fun r => by
      rw [rmAt_step, dif_pos ht, er]; exact sim_rm m c ⟨t, ht⟩ _ r
    have hc : ∀ j : Fin 8192, cmAt m c (k0_pay7 (F := Ideal)) (t + 1) (ix2 0 j) = cmStep (Dt m c) t (upTo (Dt m c) (s0 y2 y3) t).cm j := fun j => by
      rw [cmAt_step, dif_pos ht, ec]; exact sim_cm m c ⟨t, ht⟩ _ j
    refine ⟨fun k => ?_, fun k => ?_, hr, hc⟩
    · show a2Chain m c y2 (t + 1) (ix1 k)
        = a2Step t (rmStep (Dt m c) t (upTo (Dt m c) (s0 y2 y3) t).rm) (upTo (Dt m c) (s0 y2 y3) t).a2 k
      rw [a2Chain_step, dif_pos ht, e2, (funext hr).symm]
      exact sim_a2 ⟨t, ht⟩ _ _ k
    · show a3Chain m c y3 (t + 1) (ix1 k)
        = a3Step t (cmStep (Dt m c) t (upTo (Dt m c) (s0 y2 y3) t).cm) (upTo (Dt m c) (s0 y2 y3) t).a3 k
      rw [a3Chain_step, dif_pos ht, e3, (funext hc).symm]
      exact sim_a3 ⟨t, ht⟩ _ _ k

/-- Whatever the relation admits of result array 2 after the region is the per-batch sum of nearest-target distances. -/
theorem result2_eq (F2 : Buf (Elt Ideal) ((cfg0.win 2).arr.view.loc (c.tc : Thread nD τ)))
    (h : (rdat m 0 c).ArrAt 2 cfg0.N F2) : F2 = Cert.Chamfer.sumNearG (cloudP m c) (cloudQ m c) := by
  obtain ⟨y, rfl⟩ := arrAt2_chain m c F2 h
  funext i
  obtain ⟨k, rfl⟩ : ∃ k : Fin 4, i = ix1 k := ⟨i 0, eq_ix1 i⟩
  rw [(sim_all m c y y 256 (le_refl _)).1 k, sweep_a2]
  unfold Cert.Chamfer.sumNearG Cert.Chamfer.nearG
  rw [← sum_whole (fun n' : Fin 8192 => ⨅ m' : Fin 8192, Cert.Chamfer.dist (cloudP m c) (cloudQ m c) k n' m')]
  refine Finset.sum_congr rfl fun n _ => Finset.sum_congr rfl fun r _ => ?_
  rw [← iInf_whole (fun m' : Fin 8192 => Cert.Chamfer.dist (cloudP m c) (cloudQ m c) k
    ⟨1024 * n.val + r.val, by have := n.isLt; have := r.isLt; omega⟩ m')]
  refine iInf_congr fun mm => iInf_congr fun cc => ?_
  unfold Dt
  rw [dif_pos ⟨k.isLt, n.isLt, mm.isLt⟩]

/-- Whatever the relation admits of result array 3 after the region is the per-batch sum of nearest-point distances. -/
theorem result3_eq (F3 : Buf (Elt Ideal) ((cfg0.win 3).arr.view.loc (c.tc : Thread nD τ)))
    (h : (rdat m 0 c).ArrAt 3 cfg0.N F3) : F3 = Cert.Chamfer.sumNearP (cloudP m c) (cloudQ m c) := by
  obtain ⟨y, rfl⟩ := arrAt3_chain m c F3 h
  funext i
  obtain ⟨k, rfl⟩ : ∃ k : Fin 4, i = ix1 k := ⟨i 0, eq_ix1 i⟩
  rw [(sim_all m c y y 256 (le_refl _)).2.1 k, sweep_a3]
  unfold Cert.Chamfer.sumNearP Cert.Chamfer.nearP
  rw [← sum_whole (fun m' : Fin 8192 => ⨅ n' : Fin 8192, Cert.Chamfer.dist (cloudP m c) (cloudQ m c) k n' m')]
  refine Finset.sum_congr rfl fun mm _ => Finset.sum_congr rfl fun cc _ => ?_
  rw [← iInf_whole (fun n' : Fin 8192 => Cert.Chamfer.dist (cloudP m c) (cloudQ m c) k n'
    ⟨1024 * mm.val + cc.val, by have := mm.isLt; have := cc.isLt; omega⟩)]
  refine iInf_congr fun n => iInf_congr fun r => ?_
  unfold Dt
  rw [dif_pos ⟨k.isLt, n.isLt, mm.isLt⟩]

variable (ρ : Dev nD → PrngReg)

/-- THE VALUE at the ideal instance: every weakly fair execution of @main terminates, nothing faulting, with the result
    at the specification's tail of the two nearest-neighbour sums of the launched clouds, and the clouds unchanged. -/
theorem run_value : θ_run defs (onTc (τ := τ) (main (F := Ideal))) ⟨m, fun _ => 0, ρ⟩ (fun r => ∀ c : Dev nD,
      r.2.mem ((c.tc : Thread nD τ).loc main_v15)
        = Cert.Chamfer.tail Gen.bcast_S_S4 Gen.reducesTo_S4_S_d0 Gen.h_S_ Gen.bcast_S_S1 Gen.concatenates_S1_S1_S1_S3_d0
            (Cert.Chamfer.sumNearG (m ((c.tc : Thread nD τ).loc main_arg0)) (m ((c.tc : Thread nD τ).loc main_arg1)))
            (Cert.Chamfer.sumNearP (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => by
    obtain ⟨F2, F3, h2, h3, hb⟩ := h c
    have e2 := result2_eq m c F2 h2
    have e3 := result3_eq m c F3 h3
    refine ⟨(hb _ v15_mem).trans ((tail_eq m ρ c F2 F3).trans ?_), (hb _ arg0_mem).trans (kept_arg0 m ρ c F2 F3),
      (hb _ arg1_mem).trans (kept_arg1 m ρ c F2 F3)⟩
    rw [e2, e3]) (run_main m ρ)

end Cert.KernelIdeal.Body

end
-- ==== Proof.RefValue.lean ====
/-
  The reference program computes the specification.

  The printed reference takes two clouds `P`, `Q` of 8192 points in 3 coordinates, in 4 batches. Read one operation at
  a time it computes, at (batch `b`, point `n` of `P`, point `m` of `Q`),

      max ((|P b n|² + |Q b m|²) − 2 · ⟨P b n, Q b m⟩) 0

  — the two squared lengths are float sums over the 3 coordinates from the word 0, broadcast along the other cloud's
  axis and added; the scalar products are one `dot_general`; the literals 2 and 0 are broadcast words —, which is the
  specification's `dist P Q b n m` (`v14_eq`). It then takes the minimum over `m`, and over `n`, by a reduction whose
  body is `min` and whose initial value is the word of +∞: a fold of `min` from the top element over the 8192
  coordinates of the reduced axis, hence the infimum over that axis (`v15_eq`, `v16_eq`: the specification's `nearG`
  and `nearP`). The float sums of these over the remaining cloud axis, from the word 0, are the per-batch sums
  `sumNearG` and `sumNearP` (`sumNearG_eq`, `sumNearP_eq`). From there on the reference's operations — the two divisions
  by 8192, their sum, the three means over the 4 batches, the three one-element vectors joined — are, operation for
  operation, the specification's `tail` (`result_eq`, by unfolding both sides).

  `run_spec` puts this under the reference's run: every weakly fair execution of @main ends with the result buffer at
  `tail … (sumNearG P Q) (sumNearP P Q)` for the launch contents `P`, `Q` of the two argument buffers, which are left
  unchanged; `frame_ref` is the part of it the certificate claims of the reference alone.
-/
import proofs.«118967_j45406394253979_1_alg».proof.Proof.RefRead
import proofs.«118967_j45406394253979_1_alg».proof.Proof.ChamferSpec
import proofs.«118967_j45406394253979_1_alg».proof.Proof.LibBlockMin
import proofs.«118967_j45406394253979_1_alg».proof.Defs

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Cert.Chamfer

/-- At (b, n, m) the reference's clipped squared distance is the specification's. -/
theorem v14_eq (P Q : FVec Ideal SPts .f32) (b : Fin 4) (n m : Fin 8192) :
    ReadP.val_main_v14 (F := Ideal) P Q (ix3 b n m) = Cert.Chamfer.dist P Q b n m := by
  simp only [ReadP.val_main_v14_apply, ReadP.val_main_v12_apply, ReadP.val_main_v9_apply, ReadP.val_main_v7_apply,
    ReadP.val_main_v5_apply, ReadP.val_main_v1_apply, ReadP.val_main_v8_apply, ReadP.val_main_v6_apply,
    ReadP.val_main_v3_apply, ReadP.val_main_v11_apply, ReadP.val_main_v10_apply, ReadP.val_main_v4_apply,
    ReadP.val_main_v13_apply, ReadP.val_main_cst_apply, ReadP.val_main_cst_0_apply, ReadP.val_main_cst_1_apply,
    ReadP.val_main_cst_2_apply, ReadP.val_main_v0_apply, ReadP.val_main_v2_apply]
  have e1 : ∀ k : Fin 3, ReadP.idx_main_v1 (ReadP.idx_main_v5 (ReadP.idx_main_v7 (ix3 b n m))) k = ix3 b n k :=
    fun k => funext fun a => Fin.ext (by match a with | ⟨0, _⟩ => rfl | ⟨1, _⟩ => rfl | ⟨2, _⟩ => rfl)
  have e2 : ∀ k : Fin 3, ReadP.idx_main_v3 (ReadP.idx_main_v6 (ReadP.idx_main_v8 (ix3 b n m))) k = ix3 b m k :=
    fun k => funext fun a => Fin.ext (by match a with | ⟨0, _⟩ => rfl | ⟨1, _⟩ => rfl | ⟨2, _⟩ => rfl)
  have e3 : ∀ k : Fin 3, ReadP.lidx_main_v4 (ix3 b n m) k = ix3 b n k :=
    fun k => funext fun a => Fin.ext (by match a with | ⟨0, _⟩ => rfl | ⟨1, _⟩ => rfl | ⟨2, _⟩ => rfl)
  have e4 : ∀ k : Fin 3, ReadP.ridx_main_v4 (ix3 b n m) k = ix3 b m k :=
    fun k => funext fun a => Fin.ext (by match a with | ⟨0, _⟩ => rfl | ⟨1, _⟩ => rfl | ⟨2, _⟩ => rfl)
  simp only [e1, e2, e3, e4]
  unfold Cert.Chamfer.dist Cert.Chamfer.sq Cert.Chamfer.dotp
  simp only [Ideal.maximumf_def, Ideal.subf_def, Ideal.addf_def, Ideal.mulf_def, Ideal.ofBits_def, Ideal.ofBits_zero_f32,
    zero_add]

/-- The word `0x7F800000` is +∞, the top element. -/
theorem ofBits_posInf : Ideal.ofBits .f32 0x7F800000#32 = (⊤ : EReal) := by simp [Ideal.ofBits, Ideal.ieee]

/-- A (batch, point) index with the coordinate `k` put back on the last axis. -/
theorem lift_d2 (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext; fin_cases c <;> rfl

/-- A (batch, target) index with the coordinate `k` put back on the middle axis. -/
theorem lift_d1 (h : S4x8192x8192.Reduces [1] S4x8192) (b : Fin 4) (m : Fin 8192) (k : Fin (S4x8192x8192.size 1)) :
    h.lift (ix2 b m) k = ix3 b (⟨k.val, k.isLt⟩ : Fin 8192) m := by
  funext c; apply Fin.ext; fin_cases c <;> rfl

/-- The reference's minimum over the targets is the infimum \`nearG\`. -/
theorem v15_eq (P Q : FVec Ideal SPts .f32) (b : Fin 4) (n : Fin 8192) :
    ReadP.val_main_v15 (F := Ideal) P Q (ix2 b n) = Cert.Chamfer.nearG P Q b n := by
  have h : S4x8192x8192.Reduces [2] S4x8192 := by decide
  unfold ReadP.val_main_v15
  rw [Host.reduce_eq_fold_single FloatOps.minimumf _ _ reducesTo_S4x8192x8192_S4x8192_d2 h h_S_]
  have hf : (ReadP.val_main_v14 (F := Ideal) P Q ∘ h.lift (ix2 b n)) = fun k : Fin 8192 => Cert.Chamfer.dist P Q b n k :=
    funext fun k => (congrArg (ReadP.val_main_v14 (F := Ideal) P Q) (lift_d2 h b n k)).trans (v14_eq P Q b n _)
  refine (congrArg (fun f => Finset.fold (FloatOps.minimumf (F := Ideal) (φ := .f32)) (ReadP.val_main_cst_3 (F := Ideal) (Shape.Idx.first h_S_)) f
    (Finset.univ : Finset (Fin 8192))) hf).trans ?_
  show Finset.fold min (Ideal.ofBits .f32 0x7F800000#32) (fun k : Fin 8192 => Cert.Chamfer.dist P Q b n k) Finset.univ = _
  rw [ofBits_posInf]
  exact Cert.LibBlockMin.fold_min_eq_iInf _

/-- The reference's minimum over the points is the infimum \`nearP\`. -/
theorem v16_eq (P Q : FVec Ideal SPts .f32) (b : Fin 4) (m : Fin 8192) :
    ReadP.val_main_v16 (F := Ideal) P Q (ix2 b m) = Cert.Chamfer.nearP P Q b m := by
  have h : S4x8192x8192.Reduces [1] S4x8192 := by decide
  unfold ReadP.val_main_v16
  rw [Host.reduce_eq_fold_single FloatOps.minimumf _ _ reducesTo_S4x8192x8192_S4x8192_d1 h h_S_]
  have hf : (ReadP.val_main_v14 (F := Ideal) P Q ∘ h.lift (ix2 b m)) = fun k : Fin 8192 => Cert.Chamfer.dist P Q b k m :=
    funext fun k => (congrArg (ReadP.val_main_v14 (F := Ideal) P Q) (lift_d1 h b m k)).trans (v14_eq P Q b _ m)
  refine (congrArg (fun f => Finset.fold (FloatOps.minimumf (F := Ideal) (φ := .f32)) (ReadP.val_main_cst_4 (F := Ideal) (Shape.Idx.first h_S_)) f
    (Finset.univ : Finset (Fin 8192))) hf).trans ?_
  show Finset.fold min (Ideal.ofBits .f32 0x7F800000#32) (fun k : Fin 8192 => Cert.Chamfer.dist P Q b k m) Finset.univ = _
  rw [ofBits_posInf]
  exact Cert.LibBlockMin.fold_min_eq_iInf _

/-- The reference's per-batch sum of nearest-target distances is the specification's. -/
theorem sumNearG_eq (P Q : FVec Ideal SPts .f32) : ReadP.val_main_v17 (F := Ideal) P Q = Cert.Chamfer.sumNearG P Q := by
  funext i
  rw [ReadP.val_main_v17_apply, ReadP.val_main_cst_5_apply, Ideal.ofBits_def, Ideal.ofBits_zero_f32, zero_add]
  unfold Cert.Chamfer.sumNearG
  refine Finset.sum_congr rfl fun k _ => ?_
  have e : ReadP.idx_main_v17 i k = ix2 (i 0 : Fin 4) k :=
    funext fun a => Fin.ext (by match a with | ⟨0, _⟩ => rfl | ⟨1, _⟩ => rfl)
  exact (congrArg (ReadP.val_main_v15 (F := Ideal) P Q) e).trans (v15_eq P Q (i 0) k)

/-- The reference's per-batch sum of nearest-point distances is the specification's. -/
theorem sumNearP_eq (P Q : FVec Ideal SPts .f32) : ReadP.val_main_v20 (F := Ideal) P Q = Cert.Chamfer.sumNearP P Q := by
  funext i
  rw [ReadP.val_main_v20_apply, ReadP.val_main_cst_7_apply, Ideal.ofBits_def, Ideal.ofBits_zero_f32, zero_add]
  unfold Cert.Chamfer.sumNearP
  refine Finset.sum_congr rfl fun k _ => ?_
  have e : ReadP.idx_main_v20 i k = ix2 (i 0 : Fin 4) k :=
    funext fun a => Fin.ext (by match a with | ⟨0, _⟩ => rfl | ⟨1, _⟩ => rfl)
  exact (congrArg (ReadP.val_main_v16 (F := Ideal) P Q) e).trans (v16_eq P Q (i 0) k)

/-- From the two per-batch sums on, the reference's operations are, one for one, the specification's tail. -/
theorem result_eq (P Q : FVec Ideal SPts .f32) :
    ReadP.val_main_v33 (F := Ideal) P Q
      = Cert.Chamfer.tail bcast_S_S4 reducesTo_S4_S_d0 h_S_ bcast_S_S1 concatenates_S1_S1_S1_S3_d0
          (Cert.Chamfer.sumNearG P Q) (Cert.Chamfer.sumNearP P Q) := by
  rw [← sumNearG_eq P Q, ← sumNearP_eq P Q]
  unfold ReadP.val_main_v33 ReadP.val_main_v30 ReadP.val_main_v31 ReadP.val_main_v32 ReadP.val_main_v25 ReadP.val_main_v27
    ReadP.val_main_v29 ReadP.val_main_v24 ReadP.val_main_v26 ReadP.val_main_v28 ReadP.val_main_v23 ReadP.val_main_v19
    ReadP.val_main_v22 ReadP.val_main_v18 ReadP.val_main_v21 ReadP.val_main_cst_6 ReadP.val_main_cst_8 ReadP.val_main_cst_9
    ReadP.val_main_cst_10 ReadP.val_main_cst_11 ReadP.val_main_cst_12 ReadP.val_main_cst_13 ReadP.val_main_cst_14
    Cert.Chamfer.tail
  rfl

/-- The reference's run, in the specification's words: on every device every weakly fair execution of @main terminates
    with the result buffer holding the specification's tail of the two per-batch sums of the argument buffers' launch
    contents, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33)
          = Cert.Chamfer.tail bcast_S_S4 reducesTo_S4_S_d0 h_S_ bcast_S_S1 concatenates_S1_S1_S1_S3_d0
              (Cert.Chamfer.sumNearG (m ((c.tc : Thread nD τ).loc main_arg0)) (m ((c.tc : Thread nD τ).loc main_arg1)))
              (Cert.Chamfer.sumNearP (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨((h c).1.trans (ReadP.val_main_v33_eq m c)).trans (result_eq _ _), (h c).2⟩)
    (ValueP.run (F := Ideal) m ρ)

/-- The reference runs and leaves its arguments unchanged, for any witnesses of the side conditions. -/
theorem frame_ref [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2) (ValueP.run (F := Ideal) m ρ)

end Cert.ReferenceIdeal.RefValue

end
-- ==== Proof.lean ====
/-
  The certificate of the nearest-neighbour distance kernel against its reference.

  Both programs take two batches of point clouds P, Q : f32[4, 8192, 3] and return three numbers: with
  d[b, n, m] = max((|P[b, n]|² + |Q[b, m]|²) − 2·⟨P[b, n], Q[b, m]⟩, 0), the per-batch sums over n of min over m of d and
  over m of min over n of d, each divided by 8192, and the means over the four batches of their sum and of each. The
  reference forms the 4 × 8192 × 8192 array d and reduces it. The kernel sweeps a 4 × 8 × 8 grid of 1024 × 1024 tiles of d,
  keeping running row minima (restarted every sweep of target tiles), running column minima over all 8192 targets
  (restarted every batch) and the two per-batch sums in buffers it carries from point to point.

  Over the extended reals the two results are equal with no assumption on the inputs: a minimum taken tile after tile is
  the minimum, a sum taken tile after tile is the sum (addition and minimum are associative and commutative at the
  infinities too), and adding a sum to 0 changes nothing. The modules: ChamferSpec (the mathematics stated once),
  RefValue (the reference computes it), Steps / Body / Data / Launch (the kernel's body run in its five control cases,
  the pipeline's proof data and the run of @main), Chain / Grid / Payloads / Sim / SimSums (what the result arrays hold,
  read entry by entry, is an abstract tile sweep), TileFold* (that sweep's closed form), Value (the kernel's result),
  Frame (the frames).
-/
import proofs.«118967_j45406394253979_1_alg».proof.Defs
import proofs.«118967_j45406394253979_1_alg».proof.Proof.Gen.Kernel
import proofs.«118967_j45406394253979_1_alg».proof.Proof.Gen.KernelIdeal
import proofs.«118967_j45406394253979_1_alg».proof.Proof.Gen.ReferenceIdeal
import proofs.«118967_j45406394253979_1_alg».proof.Proof.Gen.Pre_finite_inputs
import proofs.«118967_j45406394253979_1_alg».proof.Proof.FrameK
import proofs.«118967_j45406394253979_1_alg».proof.Proof.ValueI
import proofs.«118967_j45406394253979_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The idealization rewrote nothing. -/
theorem preserves : Cert.preserves_Kernel_KernelIdeal := trivial

/-- At the ideal instance both programs end at the specification's tail of the two nearest-neighbour sums of the clouds;
    the clouds agree, so the results do. -/
theorem algebraic : Cert.algebraic_KernelIdeal_ReferenceIdeal := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ref, preserves, algebraic⟩

end Cert.Proof

end
